-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x28224 : Shape := ⟨2, ![256, 28224]⟩
abbrev S1500x28224 : Shape := ⟨2, ![1500, 28224]⟩
abbrev S1500 : Shape := ⟨1, ![1500]⟩
abbrev S28224x1500 : Shape := ⟨2, ![28224, 1500]⟩
abbrev S28224 : Shape := ⟨1, ![28224]⟩
abbrev S_ : Shape := ⟨0, ![]⟩

class Facts : Prop where
  bcast_S_S256x28224 : S_.BroadcastsInDim S256x28224 (![] : Fin 0 → Fin S256x28224.rank)
  reducesTo_S256x28224_S_d0_1 : S256x28224.ReducesTo [0, 1] S_
  h_S_ : 0 < S_.numel
  bcast_S_S1500x28224 : S_.BroadcastsInDim S1500x28224 (![] : Fin 0 → Fin S1500x28224.rank)
  reducesTo_S1500x28224_S_d0_1 : S1500x28224.ReducesTo [0, 1] S_
  bcast_S_S1500 : S_.BroadcastsInDim S1500 (![] : Fin 0 → Fin S1500.rank)
  reducesTo_S1500_S_d0 : S1500.ReducesTo [0] S_
  bcast_S_S28224x1500 : S_.BroadcastsInDim S28224x1500 (![] : Fin 0 → Fin S28224x1500.rank)
  reducesTo_S28224x1500_S_d0_1 : S28224x1500.ReducesTo [0, 1] S_
  bcast_S_S28224 : S_.BroadcastsInDim S28224 (![] : Fin 0 → Fin S28224.rank)
  reducesTo_S28224_S_d0 : S28224.ReducesTo [0] S_

variable [Facts]

def fn_part1 {F : FTy → Type} [FloatOps F] (main_arg4 : FVec F S28224 .f32) (main_v13 : IVec S_ 1) (main_v16 : IVec S28224x1500 1) : IVec S_ 1 :=
  let main_c_5 : IVec S_ 1 := constantI S_ 1 1#1
  let main_v17 : IVec S_ 1 := (fun x v => Host.reduce IntOp.andi x v reducesTo_S28224x1500_S_d0_1 h_S_) main_v16 main_c_5
  let main_v18 : IVec S_ 1 := andi main_v13 main_v17
  let main_v19 : FVec F S28224 .f32 := Host.absf main_arg4
  let main_cst_6 : FVec F S_ .f32 := constant S_ .f32 0x7F800000#32
  let main_v20 : FVec F S28224 .f32 := broadcastInDim S28224 ![] bcast_S_S28224 main_cst_6
  let main_v21 : IVec S28224 1 := cmpf .olt main_v19 main_v20
  let main_c_7 : IVec S_ 1 := constantI S_ 1 1#1
  let main_v22 : IVec S_ 1 := (fun x v => Host.reduce IntOp.andi x v reducesTo_S28224_S_d0 h_S_) main_v21 main_c_7
  let main_v23 : IVec S_ 1 := andi main_v18 main_v22
  main_v23

def fn {F : FTy → Type} [FloatOps F] (main_arg0 : FVec F S256x28224 .f32) (main_arg1 : FVec F S1500x28224 .f32) (main_arg2 : FVec F S1500 .f32) (main_arg3 : FVec F S28224x1500 .f32) (main_arg4 : FVec F S28224 .f32) : IVec S_ 1 :=
  let main_v0 : FVec F S256x28224 .f32 := Host.absf main_arg0
  let main_cst : FVec F S_ .f32 := constant S_ .f32 0x7F800000#32
  let main_v1 : FVec F S256x28224 .f32 := broadcastInDim S256x28224 ![] bcast_S_S256x28224 main_cst
  let main_v2 : IVec S256x28224 1 := cmpf .olt main_v0 main_v1
  let main_c : IVec S_ 1 := constantI S_ 1 1#1
  let main_v3 : IVec S_ 1 := (fun x v => Host.reduce IntOp.andi x v reducesTo_S256x28224_S_d0_1 h_S_) main_v2 main_c
  let main_v4 : FVec F S1500x28224 .f32 := Host.absf main_arg1
  let main_cst_0 : FVec F S_ .f32 := constant S_ .f32 0x7F800000#32
  let main_v5 : FVec F S1500x28224 .f32 := broadcastInDim S1500x28224 ![] bcast_S_S1500x28224 main_cst_0
  let main_v6 : IVec S1500x28224 1 := cmpf .olt main_v4 main_v5
  let main_c_1 : IVec S_ 1 := constantI S_ 1 1#1
  let main_v7 : IVec S_ 1 := (fun x v => Host.reduce IntOp.andi x v reducesTo_S1500x28224_S_d0_1 h_S_) main_v6 main_c_1
  let main_v8 : IVec S_ 1 := andi main_v3 main_v7
  let main_v9 : FVec F S1500 .f32 := Host.absf main_arg2
  let main_cst_2 : FVec F S_ .f32 := constant S_ .f32 0x7F800000#32
  let main_v10 : FVec F S1500 .f32 := broadcastInDim S1500 ![] bcast_S_S1500 main_cst_2
  let main_v11 : IVec S1500 1 := cmpf .olt main_v9 main_v10
  let main_c_3 : IVec S_ 1 := constantI S_ 1 1#1
  let main_v12 : IVec S_ 1 := (fun x v => Host.reduce IntOp.andi x v reducesTo_S1500_S_d0 h_S_) main_v11 main_c_3
  let main_v13 : IVec S_ 1 := andi main_v8 main_v12
  let main_v14 : FVec F S28224x1500 .f32 := Host.absf main_arg3
  let main_cst_4 : FVec F S_ .f32 := constant S_ .f32 0x7F800000#32
  let main_v15 : FVec F S28224x1500 .f32 := broadcastInDim S28224x1500 ![] bcast_S_S28224x1500 main_cst_4
  let main_v16 : IVec S28224x1500 1 := cmpf .olt main_v14 main_v15
  fn_part1 (F := F) main_arg4 main_v13 main_v16
-- ==== Kernel.lean ====
abbrev S256x28224 : Shape := ⟨2, ![256, 28224]⟩
abbrev S1500x28224 : Shape := ⟨2, ![1500, 28224]⟩
abbrev S1500 : Shape := ⟨1, ![1500]⟩
abbrev S28224x1500 : Shape := ⟨2, ![28224, 1500]⟩
abbrev S28224 : Shape := ⟨1, ![28224]⟩
abbrev S_ : Shape := ⟨0, ![]⟩
abbrev S256x28672 : Shape := ⟨2, ![256, 28672]⟩
abbrev S1500x28672 : Shape := ⟨2, ![1500, 28672]⟩
abbrev S1x1500 : Shape := ⟨2, ![1, 1500]⟩
abbrev S256x1500 : Shape := ⟨2, ![256, 1500]⟩
abbrev S1x1 : Shape := ⟨2, ![1, 1]⟩
abbrev S256x1024 : Shape := ⟨2, ![256, 1024]⟩
abbrev S1500x1024 : Shape := ⟨2, ![1500, 1024]⟩
abbrev S1500x1 : Shape := ⟨2, ![1500, 1]⟩
abbrev S256 : Shape := ⟨1, ![256]⟩
abbrev S256x1 : Shape := ⟨2, ![256, 1]⟩
abbrev S1 : Shape := ⟨1, ![1]⟩
abbrev S28672x1500 : Shape := ⟨2, ![28672, 1500]⟩
abbrev S28672 : Shape := ⟨1, ![28672]⟩
abbrev S1x28672 : Shape := ⟨2, ![1, 28672]⟩
abbrev S1024x1500 : Shape := ⟨2, ![1024, 1500]⟩
abbrev S1x1024 : Shape := ⟨2, ![1, 1024]⟩

abbrev nBuf : Space → Nat
  | .hbm => 24
  | .vmem => 16
  | .smem => 0
  | _ => 0

abbrev bufTy : (tb : Table) → Fin (tcTables nBuf tb) → BufTy
  | .hbm, ⟨0, _⟩ => ⟨S256x28224, .f32⟩
  | .hbm, ⟨1, _⟩ => ⟨S1500x28224, .f32⟩
  | .hbm, ⟨2, _⟩ => ⟨S1500, .f32⟩
  | .hbm, ⟨3, _⟩ => ⟨S28224x1500, .f32⟩
  | .hbm, ⟨4, _⟩ => ⟨S28224, .f32⟩
  | .hbm, ⟨5, _⟩ => ⟨S_, .i32⟩
  | .hbm, ⟨6, _⟩ => ⟨S_, .f32⟩
  | .hbm, ⟨7, _⟩ => ⟨S256x28672, .f32⟩
  | .hbm, ⟨8, _⟩ => ⟨S_, .i32⟩
  | .hbm, ⟨9, _⟩ => ⟨S_, .f32⟩
  | .hbm, ⟨10, _⟩ => ⟨S1500x28672, .f32⟩
  | .hbm, ⟨11, _⟩ => ⟨S1x1500, .f32⟩
  | .hbm, ⟨12, _⟩ => ⟨S256x1500, .f32⟩
  | .hbm, ⟨13, _⟩ => ⟨S1x1, .f32⟩
  | .hbm, ⟨14, _⟩ => ⟨S_, .i32⟩
  | .hbm, ⟨15, _⟩ => ⟨S_, .f32⟩
  | .hbm, ⟨16, _⟩ => ⟨S28672x1500, .f32⟩
  | .hbm, ⟨17, _⟩ => ⟨S_, .i32⟩
  | .hbm, ⟨18, _⟩ => ⟨S_, .f32⟩
  | .hbm, ⟨19, _⟩ => ⟨S28672, .f32⟩
  | .hbm, ⟨20, _⟩ => ⟨S1x28672, .f32⟩
  | .hbm, ⟨21, _⟩ => ⟨S256x28672, .f32⟩
  | .hbm, ⟨22, _⟩ => ⟨S256x28224, .f32⟩
  | .hbm, ⟨23, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S1500x1024, .f32⟩
  | .local _ .vmem, ⟨3, _⟩ => ⟨S1500x1024, .f32⟩
  | .local _ .vmem, ⟨4, _⟩ => ⟨S1x1500, .f32⟩
  | .local _ .vmem, ⟨5, _⟩ => ⟨S256x1500, .f32⟩
  | .local _ .vmem, ⟨6, _⟩ => ⟨S1x1, .f32⟩
  | .local _ .vmem, ⟨7, _⟩ => ⟨S256x1500, .f32⟩
  | .local _ .vmem, ⟨8, _⟩ => ⟨S1500x1, .f32⟩
  | .local _ .vmem, ⟨9, _⟩ => ⟨S256x1500, .f32⟩
  | .local _ .vmem, ⟨10, _⟩ => ⟨S1024x1500, .f32⟩
  | .local _ .vmem, ⟨11, _⟩ => ⟨S1024x1500, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S256x28224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_c_2 : Ref sig .tc := ⟨.hbm, 17, rfl⟩
abbrev main_call3_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32 : BitVec 32 := 27#32
  let v23 : BitVec 1 := Scalar.cmpi .eq arg0 c27_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1500x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1500 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x1500 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1500 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S256x28224_S256x28672_000_04480 : S256x28224.Pads (![0, 0] : Fin 2 → Nat) ![0, 448] ![0, 0] S256x28672
  h_S_ : 0 < S_.numel
  pads_S1500x28224_S1500x28672_000_04480 : S1500x28224.Pads (![0, 0] : Fin 2 → Nat) ![0, 448] ![0, 0] S1500x28672
  shapeCasts_S1500_S1x1500 : S1500.ShapeCasts S1x1500
  inb_S256x1500_S256x1500_0_0 : ∀ a, (![0, 0] : Fin 2 → Nat) a + S256x1500.size a ≤ S256x1500.size a
  h_S256x1500 : 0 < S256x1500.numel
  shapeCasts_S256x1500_S256x1500 : S256x1500.ShapeCasts S256x1500
  inb_S1500x1_S1500x1_0_0 : ∀ a, (![0, 0] : Fin 2 → Nat) a + S1500x1.size a ≤ S1500x1.size a
  h_S1500x1 : 0 < S1500x1.numel
  shapeCasts_S1500x1_S1500x1 : S1500x1.ShapeCasts S1500x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1500x1024_S1500x1024_0_0 : ∀ a, (![0, 0] : Fin 2 → Nat) a + S1500x1024.size a ≤ S1500x1024.size a
  h_S1500x1024 : 0 < S1500x1024.numel
  shapeCasts_S1500x1024_S1500x1024 : S1500x1024.ShapeCasts S1500x1024
  reduces_S1500x1024_S1500 : S1500x1024.Reduces [1] S1500
  shapeCasts_S1500_S1500x1 : S1500.ShapeCasts S1500x1
  inb_S1x1500_S1x1500_0_0 : ∀ a, (![0, 0] : Fin 2 → Nat) a + S1x1500.size a ≤ S1x1500.size a
  h_S1x1500 : 0 < S1x1500.numel
  shapeCasts_S1x1500_S1x1500 : S1x1500.ShapeCasts S1x1500
  broadcasts_S1x1500_S256x1500 : S1x1500.Broadcasts S256x1500
  transposes_S1500x1_p1_0_S1x1500 : S1500x1.Transposes [1, 0] S1x1500
  reduces_S256x1500_S256 : S256x1500.Reduces [1] S256
  shapeCasts_S256_S256x1 : S256.ShapeCasts S256x1
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  pads_S28224x1500_S28672x1500_04480_000 : S28224x1500.Pads (![0, 0] : Fin 2 → Nat) ![448, 0] ![0, 0] S28672x1500
  pads_S28224_S28672_04480 : S28224.Pads (![0] : Fin 1 → Nat) ![448] ![0] S28672
  shapeCasts_S28672_S1x28672 : S28672.ShapeCasts S1x28672
  inb_S1024x1500_S1024x1500_0_0 : ∀ a, (![0, 0] : Fin 2 → Nat) a + S1024x1500.size a ≤ S1024x1500.size a
  h_S1024x1500 : 0 < S1024x1500.numel
  shapeCasts_S1024x1500_S1024x1500 : S1024x1500.ShapeCasts S1024x1500
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x28672_S256x28224_0_0 : S256x28672.Slices ![0, 0] S256x28224
  shapeCasts_S1x1_S_ : S1x1.ShapeCasts S_
  dot_S256x1024_S1500x1024_S256x1500_1_1_0_0_n_n_wf : DotDims.WF S256x1024 S1500x1024 S256x1500 [1] [1] [0] [0] [] []
  dot_S256x1500_S1024x1500_S256x1024_1_1_0_0_n_n_wf : DotDims.WF S256x1500 S1024x1500 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x28672.size a
  hwx0_0 : ∀ i : grid0.Coords, EltTy.bits .f32 = 32 ∨ (Rect.block (s := S256x28672) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1500x1024.size a ≤ S1500x28672.size a
  hwx0_1 : ∀ i : grid0.Coords, EltTy.bits .f32 = 32 ∨ (Rect.block (s := S1500x28672) S1500x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1500.size a ≤ S1x1500.size a
  hwx0_2 : ∀ i : grid0.Coords, EltTy.bits .f32 = 32 ∨ (Rect.block (s := S1x1500) S1x1500.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1500.size a ≤ S256x1500.size a
  hwx0_3 : ∀ i : grid0.Coords, EltTy.bits .f32 = 32 ∨ (Rect.block (s := S256x1500) S256x1500.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1500.size a ≤ S256x1500.size a
  hwx1_0 : ∀ i : grid1.Coords, EltTy.bits .f32 = 32 ∨ (Rect.block (s := S256x1500) S256x1500.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1500.size a ≤ S28672x1500.size a
  hwx1_1 : ∀ i : grid1.Coords, EltTy.bits .f32 = 32 ∨ (Rect.block (s := S28672x1500) S1024x1500.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x28672.size a
  hwx1_2 : ∀ i : grid1.Coords, EltTy.bits .f32 = 32 ∨ (Rect.block (s := S1x28672) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x28672.size a
  hwx1_3 : ∀ i : grid1.Coords, EltTy.bits .f32 = 32 ∨ (Rect.block (s := S256x28672) S256x1024.size (cc1_transform_3 i) (hinb1_3 i)).WholeWords (EltTy.packing .f32)

variable [Facts₀]

def dot_S256x1024_S1500x1024_S256x1500_1_1_0_0_n_n : DotDims S256x1024 S1500x1024 S256x1500 where
  lhsContracting := [1]
  rhsContracting := [1]
  lhsNonContracting := [0]
  rhsNonContracting := [0]
  lhsBatch := []
  rhsBatch := []
  wf := dot_S256x1024_S1500x1024_S256x1500_1_1_0_0_n_n_wf
def dot_S256x1500_S1024x1500_S256x1024_1_1_0_0_n_n : DotDims S256x1500 S1024x1500 S256x1024 where
  lhsContracting := [1]
  rhsContracting := [1]
  lhsNonContracting := [0]
  rhsNonContracting := [0]
  lhsBatch := []
  rhsBatch := []
  wf := dot_S256x1500_S1024x1500_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1500x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S256x1500.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v3_0) S256x1500.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1500.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x28224 : Shape := ⟨2, ![256, 28224]⟩
abbrev S1500x28224 : Shape := ⟨2, ![1500, 28224]⟩
abbrev S1500 : Shape := ⟨1, ![1500]⟩
abbrev S28224x1500 : Shape := ⟨2, ![28224, 1500]⟩
abbrev S28224 : Shape := ⟨1, ![28224]⟩
abbrev S256x1500 : Shape := ⟨2, ![256, 1500]⟩
abbrev S1x1500 : Shape := ⟨2, ![1, 1500]⟩
abbrev S_ : Shape := ⟨0, ![]⟩
abbrev S1x28224 : Shape := ⟨2, ![1, 28224]⟩

abbrev nBuf : Space → Nat
  | .hbm => 42
  | .vmem => 0
  | .smem => 0
  | _ => 0

abbrev bufTy : (tb : Table) → Fin (tcTables nBuf tb) → BufTy
  | .hbm, ⟨0, _⟩ => ⟨S256x28224, .f32⟩
  | .hbm, ⟨1, _⟩ => ⟨S1500x28224, .f32⟩
  | .hbm, ⟨2, _⟩ => ⟨S1500, .f32⟩
  | .hbm, ⟨3, _⟩ => ⟨S28224x1500, .f32⟩
  | .hbm, ⟨4, _⟩ => ⟨S28224, .f32⟩
  | .hbm, ⟨5, _⟩ => ⟨S256x1500, .f32⟩
  | .hbm, ⟨6, _⟩ => ⟨S1x1500, .f32⟩
  | .hbm, ⟨7, _⟩ => ⟨S256x1500, .f32⟩
  | .hbm, ⟨8, _⟩ => ⟨S256x1500, .f32⟩
  | .hbm, ⟨9, _⟩ => ⟨S256x1500, .f32⟩
  | .hbm, ⟨10, _⟩ => ⟨S256x1500, .f32⟩
  | .hbm, ⟨11, _⟩ => ⟨S_, .f32⟩
  | .hbm, ⟨12, _⟩ => ⟨S256x1500, .f32⟩
  | .hbm, ⟨13, _⟩ => ⟨S256x1500, .f32⟩
  | .hbm, ⟨14, _⟩ => ⟨S_, .f32⟩
  | .hbm, ⟨15, _⟩ => ⟨S256x1500, .f32⟩
  | .hbm, ⟨16, _⟩ => ⟨S256x1500, .f32⟩
  | .hbm, ⟨17, _⟩ => ⟨S_, .f32⟩
  | .hbm, ⟨18, _⟩ => ⟨S256x1500, .f32⟩
  | .hbm, ⟨19, _⟩ => ⟨S256x1500, .f32⟩
  | .hbm, ⟨20, _⟩ => ⟨S256x1500, .f32⟩
  | .hbm, ⟨21, _⟩ => ⟨S256x1500, .f32⟩
  | .hbm, ⟨22, _⟩ => ⟨S1500x28224, .f32⟩
  | .hbm, ⟨23, _⟩ => ⟨S_, .f32⟩
  | .hbm, ⟨24, _⟩ => ⟨S1500, .f32⟩
  | .hbm, ⟨25, _⟩ => ⟨S1x1500, .f32⟩
  | .hbm, ⟨26, _⟩ => ⟨S256x1500, .f32⟩
  | .hbm, ⟨27, _⟩ => ⟨S256x1500, .f32⟩
  | .hbm, ⟨28, _⟩ => ⟨S_, .f32⟩
  | .hbm, ⟨29, _⟩ => ⟨S_, .f32⟩
  | .hbm, ⟨30, _⟩ => ⟨S256x28224, .f32⟩
  | .hbm, ⟨31, _⟩ => ⟨S1x28224, .f32⟩
  | .hbm, ⟨32, _⟩ => ⟨S256x28224, .f32⟩
  | .hbm, ⟨33, _⟩ => ⟨S256x28224, .f32⟩
  | .hbm, ⟨34, _⟩ => ⟨S256x28224, .f32⟩
  | .hbm, ⟨35, _⟩ => ⟨S256x28224, .f32⟩
  | .hbm, ⟨36, _⟩ => ⟨S_, .f32⟩
  | .hbm, ⟨37, _⟩ => ⟨S256x28224, .f32⟩
  | .hbm, ⟨38, _⟩ => ⟨S256x28224, .f32⟩
  | .hbm, ⟨39, _⟩ => ⟨S_, .f32⟩
  | .hbm, ⟨40, _⟩ => ⟨S256x28224, .f32⟩
  | .hbm, ⟨41, _⟩ => ⟨S256x28224, .f32⟩
  | _, _ => ⟨S256x28224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S1500_S1x1500_1 : S1500.BroadcastsInDim S1x1500 (![1] : Fin 1 → Fin S1x1500.rank)
  bcast_S1x1500_S256x1500_0_1 : S1x1500.BroadcastsInDim S256x1500 (![0, 1] : Fin 2 → Fin S256x1500.rank)
  bcast_S_S256x1500 : S_.BroadcastsInDim S256x1500 (![] : Fin 0 → Fin S256x1500.rank)
  reducesTo_S1500x28224_S1500_d1 : S1500x28224.ReducesTo [1] S1500
  h_S_ : 0 < S_.numel
  reducesTo_S256x1500_S_d0_1 : S256x1500.ReducesTo [0, 1] S_
  bcast_S28224_S1x28224_1 : S28224.BroadcastsInDim S1x28224 (![1] : Fin 1 → Fin S1x28224.rank)
  bcast_S1x28224_S256x28224_0_1 : S1x28224.BroadcastsInDim S256x28224 (![0, 1] : Fin 2 → Fin S256x28224.rank)
  bcast_S_S256x28224 : S_.BroadcastsInDim S256x28224 (![] : Fin 0 → Fin S256x28224.rank)
  dot_S256x28224_S1500x28224_S256x1500_1_1_0_0_n_n_wf : DotDims.WF S256x28224 S1500x28224 S256x1500 [1] [1] [0] [0] [] []
  dot_S256x1500_S28224x1500_S256x28224_1_1_0_0_n_n_wf : DotDims.WF S256x1500 S28224x1500 S256x28224 [1] [1] [0] [0] [] []

variable [Facts₀]

def dot_S256x28224_S1500x28224_S256x1500_1_1_0_0_n_n : DotDims S256x28224 S1500x28224 S256x1500 where
  lhsContracting := [1]
  rhsContracting := [1]
  lhsNonContracting := [0]
  rhsNonContracting := [0]
  lhsBatch := []
  rhsBatch := []
  wf := dot_S256x28224_S1500x28224_S256x1500_1_1_0_0_n_n_wf
def dot_S256x1500_S28224x1500_S256x28224_1_1_0_0_n_n : DotDims S256x1500 S28224x1500 S256x28224 where
  lhsContracting := [1]
  rhsContracting := [1]
  lhsNonContracting := [0]
  rhsNonContracting := [0]
  lhsBatch := []
  rhsBatch := []
  wf := dot_S256x1500_S28224x1500_S256x28224_1_1_0_0_n_n_wf

class Facts : Prop extends Facts₀ where

variable [Facts]
-- ==== Proof.EncRunsBits.lean ====
import proofs.«151767_j39745627357481_1_alg».proof.Proof.Gen.Kernel.Launch
import proofs.«151767_j39745627357481_1_alg».proof.Proof.Gen.Kernel.Skeleton
import proofs.«151767_j39745627357481_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The encoder kernel's body, run once per control case. The grid has 28 points along the reduction axis; the
    body resets its two accumulators at the first point, adds the tile's partial product and the tile's row sums of
    squares at every point, and at the last point applies the bias and the logistic function and reduces the
    Jacobian term. Three cases arise: first point, a middle point, last point. -/

/-- The first branch's condition, from the grid coordinate: the point is the first along the reduction axis. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 28 = 0 :=
  (by decide +kernel : ∀ t : Fin grid0.N, cond0_0 (grid0.coords t) ↔ t.val % 28 = 0)
/-- The second branch's condition: the point is the last along the reduction axis. -/
abbrev cond0_1 (i : grid0.Coords) : Prop := k0_cond2 i = 1#1
theorem hcond0_1 : ∀ t : Fin cfg0.N, cond0_1 (grid0.coords t) ↔ t.val % 28 = 27 :=
  (by decide +kernel : ∀ t : Fin grid0.N, cond0_1 (grid0.coords t) ↔ t.val % 28 = 27)

/-- Each window's current staging memref at point `t`, and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1500x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1500 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1500 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S256x1500 .f32 := Memref.whole cc0_scratch0
abbrev scM0_1 : Memref sig .tc .vmem S1500x1 .f32 := Memref.whole cc0_scratch1
abbrev VS0_0 : View sig .tc .vmem S256x1500 .f32 := scM0_0.view
abbrev VS0_1 : View sig .tc .vmem S1500x1 .f32 := scM0_1.view
/-- One staging buffer of each output window, through which its contents are stated. -/
abbrev VO0_3 : View sig .tc .vmem S256x1500 .f32 := (Memref.whole cc0_stg3_0 : Memref sig .tc .vmem S256x1500 .f32).view
abbrev VO0_4 : View sig .tc .vmem S1x1 .f32 := (Memref.whole cc0_stg4_0 : Memref sig .tc .vmem S1x1 .f32).view

set_option maxHeartbeats 1000000 in
/-- FIRST POINT (reset taken, finish not taken). The inputs are handed over at their contents, the two outputs at
    contents handed back untouched, the accumulators at anything; the body leaves each accumulator with the listed
    pieces written (the reset, then the first tile's contribution). -/
noncomputable def kernelRun0_A (c : Dev nD) (i : grid0.Coords) (arg1 : Memref sig .tc .vmem S256x1024 .f32) (harg1 : arg1.IsWhole) (arg2 : Memref sig .tc .vmem S1500x1024 .f32) (harg2 : arg2.IsWhole) (arg3 : Memref sig .tc .vmem S1x1500 .f32) (harg3 : arg3.IsWhole) (arg4 : Memref sig .tc .vmem S256x1500 .f32) (harg4 : arg4.IsWhole) (arg5 : Memref sig .tc .vmem S1x1 .f32) (harg5 : arg5.IsWhole) (arg6 : Memref sig .tc .vmem S256x1500 .f32) (harg6 : arg6.IsWhole) (arg7 : Memref sig .tc .vmem S1500x1 .f32) (harg7 : arg7.IsWhole) (hc0 : cond0_0 i) (hc1 : ¬cond0_1 i)
    (x0 : Vec F S256x1024 .f32) (x1 : Vec F S1500x1024 .f32) (x2 : Vec F S1x1500 .f32) :
    Σ' (LS6 : List (View.Piece (Elt F) S256x1500 .f32)), { LS7 : List (View.Piece (Elt F) S1500x1 .f32) //
      ∀ (xi3 : Vec F S256x1500 .f32) (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨?_, ?_, fun xi3 xi4 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%ds6, %fs6, -, HS6⟩, ⟨%ds7, %fs7, -, HS7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS6]; · iexists _; iexact HS6
    iexists _; iexact HS7

set_option maxHeartbeats 1000000 in
/-- A MIDDLE POINT (neither branch taken). The accumulators are handed over at what the point before left
    (`xs6`, `xs7`) and come back with this tile's contribution written. -/
noncomputable def kernelRun0_B (c : Dev nD) (i : grid0.Coords) (arg1 : Memref sig .tc .vmem S256x1024 .f32) (harg1 : arg1.IsWhole) (arg2 : Memref sig .tc .vmem S1500x1024 .f32) (harg2 : arg2.IsWhole) (arg3 : Memref sig .tc .vmem S1x1500 .f32) (harg3 : arg3.IsWhole) (arg4 : Memref sig .tc .vmem S256x1500 .f32) (harg4 : arg4.IsWhole) (arg5 : Memref sig .tc .vmem S1x1 .f32) (harg5 : arg5.IsWhole) (arg6 : Memref sig .tc .vmem S256x1500 .f32) (harg6 : arg6.IsWhole) (arg7 : Memref sig .tc .vmem S1500x1 .f32) (harg7 : arg7.IsWhole) (hc0 : ¬cond0_0 i) (hc1 : ¬cond0_1 i)
    (x0 : Vec F S256x1024 .f32) (x1 : Vec F S1500x1024 .f32) (x2 : Vec F S1x1500 .f32) (xs6 : Vec F S256x1500 .f32) (xs7 : Vec F S1500x1 .f32) :
    Σ' (LS6 : List (View.Piece (Elt F) S256x1500 .f32)), { LS7 : List (View.Piece (Elt F) S1500x1 .f32) //
      ∀ (xi3 : Vec F S256x1500 .f32) (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare xs6 ∗ owns (c : Thread nD τ) arg7 fullShare xs7
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨?_, ?_, fun xi3 xi4 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%fs6, %hfs6, HS6⟩, ⟨%fs7, %hfs7, HS7⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs6; obtain rfl := harg7.eq_unread hfs7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS6]; · iexists _; iexact HS6
    iexists _; iexact HS7

set_option maxHeartbeats 1000000 in
/-- THE LAST POINT (reset not taken, finish taken). The accumulators come in at what the point before left; the two
    outputs, at anything, come back with the listed pieces written (the encoder's activations; the Jacobian scalar). -/
noncomputable def kernelRun0_C (c : Dev nD) (i : grid0.Coords) (arg1 : Memref sig .tc .vmem S256x1024 .f32) (harg1 : arg1.IsWhole) (arg2 : Memref sig .tc .vmem S1500x1024 .f32) (harg2 : arg2.IsWhole) (arg3 : Memref sig .tc .vmem S1x1500 .f32) (harg3 : arg3.IsWhole) (arg4 : Memref sig .tc .vmem S256x1500 .f32) (harg4 : arg4.IsWhole) (arg5 : Memref sig .tc .vmem S1x1 .f32) (harg5 : arg5.IsWhole) (arg6 : Memref sig .tc .vmem S256x1500 .f32) (harg6 : arg6.IsWhole) (arg7 : Memref sig .tc .vmem S1500x1 .f32) (harg7 : arg7.IsWhole) (hc0 : ¬cond0_0 i) (hc1 : cond0_1 i)
    (x0 : Vec F S256x1024 .f32) (x1 : Vec F S1500x1024 .f32) (x2 : Vec F S1x1500 .f32) (xs6 : Vec F S256x1500 .f32) (xs7 : Vec F S1500x1 .f32) :
    Σ' (L3 : List (View.Piece (Elt F) S256x1500 .f32)), Σ' (L4 : List (View.Piece (Elt F) S1x1 .f32)), Σ' (LS6 : List (View.Piece (Elt F) S256x1500 .f32)), { LS7 : List (View.Piece (Elt F) S1500x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨?_, ?_, ?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs6, %hfs6, HS6⟩, ⟨%fs7, %hfs7, HS7⟩, Hk⟩
    obtain rfl := harg1.eq_unread hf0; obtain rfl := harg2.eq_unread hf1; obtain rfl := harg3.eq_unread hf2
    obtain rfl := harg6.eq_unread hfs6; obtain rfl := harg7.eq_unread hfs7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS6]; · iexists _; iexact HS6
    iexists _; iexact HS7

end Cert.Kernel.Enc

end
-- ==== Proof.EncBits.lean ====
import proofs.«151767_j39745627357481_1_alg».proof.Proof.EncRunsBits

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The encoder region's proof data. Along the 28 points of the reduction axis the two accumulators hold, after
    point `n`, the sum of the first `n + 1` tiles' partial products (and of their row sums of squares); the two
    outputs are stored at the last point only, from the finished accumulators. -/

variable (V : (c : Dev nD) → (b : Ref sig .tc) → Buf (Elt F) ((c : Thread nD τ).loc b))

theorem N0 : cfg0.N = 28 := N_0

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditions at a point, from its position -/

theorem c0_of (t : Fin cfg0.N) (h : t.val = 0) : cond0_0 (grid0.coords t) := (hcond0_0 t).mpr (by rw [h])
theorem not_c0 (t : Fin cfg0.N) (h : t.val ≠ 0) : ¬cond0_0 (grid0.coords t) := fun hc => by
  have h1 := (hcond0_0 t).mp hc; have h2 : t.val < 28 := lt_of_lt_of_eq t.isLt N0; omega
theorem c1_of (t : Fin cfg0.N) (h : t.val = 27) : cond0_1 (grid0.coords t) := (hcond0_1 t).mpr (by rw [h])
theorem not_c1 (t : Fin cfg0.N) (h : t.val ≠ 27) : ¬cond0_1 (grid0.coords t) := fun hc => by
  have h1 := (hcond0_1 t).mp hc; have h2 : t.val < 28 := lt_of_lt_of_eq t.isLt N0; omega

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## Each case's run at a point of the grid -/

abbrev runA (c : Dev nD) (t : Fin cfg0.N) (hc0 : cond0_0 (grid0.coords t)) (hc1 : ¬cond0_1 (grid0.coords t))
    (x0 : Vec F S256x1024 .f32) (x1 : Vec F S1500x1024 .f32) (x2 : Vec F S1x1500 .f32) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2
abbrev runB (c : Dev nD) (t : Fin cfg0.N) (hc0 : ¬cond0_0 (grid0.coords t)) (hc1 : ¬cond0_1 (grid0.coords t))
    (x0 : Vec F S256x1024 .f32) (x1 : Vec F S1500x1024 .f32) (x2 : Vec F S1x1500 .f32) (xs6 : Vec F S256x1500 .f32) (xs7 : Vec F S1500x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2 xs6 xs7
abbrev runC (c : Dev nD) (t : Fin cfg0.N) (hc0 : ¬cond0_0 (grid0.coords t)) (hc1 : cond0_1 (grid0.coords t))
    (x0 : Vec F S256x1024 .f32) (x1 : Vec F S1500x1024 .f32) (x2 : Vec F S1x1500 .f32) (xs6 : Vec F S256x1500 .f32) (xs7 : Vec F S1500x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2 xs6 xs7

/-- A list of pieces read back over unspecified contents. -/
abbrev rb6 (L : List (View.Piece (Elt F) S256x1500 .f32)) : Vec F S256x1500 .f32 := VS0_0.read (Elt F) (VS0_0.writes (Elt F) VS0_0.junk L)
abbrev rb7 (L : List (View.Piece (Elt F) S1500x1 .f32)) : Vec F S1500x1 .f32 := VS0_1.read (Elt F) (VS0_1.writes (Elt F) VS0_1.junk L)
abbrev rb3 (L : List (View.Piece (Elt F) S256x1500 .f32)) : Vec F S256x1500 .f32 := VO0_3.read (Elt F) (VO0_3.writes (Elt F) VO0_3.junk L)
abbrev rb4 (L : List (View.Piece (Elt F) S1x1 .f32)) : Vec F S1x1 .f32 := VO0_4.read (Elt F) (VO0_4.writes (Elt F) VO0_4.junk L)

section covers
variable (c : Dev nD) (t : Fin cfg0.N) (x0 : Vec F S256x1024 .f32) (x1 : Vec F S1500x1024 .f32) (x2 : Vec F S1x1500 .f32) (xs6 : Vec F S256x1500 .f32) (xs7 : Vec F S1500x1 .f32)

/-- Each case's stores into an accumulator (and, at the last point, into an output) tile the buffer. -/
theorem scoverA6 (hc0 : cond0_0 (grid0.coords t)) (hc1 : ¬cond0_1 (grid0.coords t)) (y : S256x1500.Idx) :
    ∃ pc ∈ (runA (F := F) c t hc0 hc1 x0 x1 x2).1, y ∈ pc.1.set :=
  View.cover_of_tiledL (runA (F := F) c t hc0 hc1 x0 x1 x2).1 S256x1500.size (by sl_kernel_rfl) y
theorem scoverA7 (hc0 : cond0_0 (grid0.coords t)) (hc1 : ¬cond0_1 (grid0.coords t)) (y : S1500x1.Idx) :
    ∃ pc ∈ (runA (F := F) c t hc0 hc1 x0 x1 x2).2.1, y ∈ pc.1.set :=
  View.cover_of_tiledL (runA (F := F) c t hc0 hc1 x0 x1 x2).2.1 S1500x1.size (by sl_kernel_rfl) y
theorem scoverB6 (hc0 : ¬cond0_0 (grid0.coords t)) (hc1 : ¬cond0_1 (grid0.coords t)) (y : S256x1500.Idx) :
    ∃ pc ∈ (runB (F := F) c t hc0 hc1 x0 x1 x2 xs6 xs7).1, y ∈ pc.1.set :=
  View.cover_of_tiledL (runB (F := F) c t hc0 hc1 x0 x1 x2 xs6 xs7).1 S256x1500.size (by sl_kernel_rfl) y
theorem scoverB7 (hc0 : ¬cond0_0 (grid0.coords t)) (hc1 : ¬cond0_1 (grid0.coords t)) (y : S1500x1.Idx) :
    ∃ pc ∈ (runB (F := F) c t hc0 hc1 x0 x1 x2 xs6 xs7).2.1, y ∈ pc.1.set :=
  View.cover_of_tiledL (runB (F := F) c t hc0 hc1 x0 x1 x2 xs6 xs7).2.1 S1500x1.size (by sl_kernel_rfl) y
theorem coverC3 (hc0 : ¬cond0_0 (grid0.coords t)) (hc1 : cond0_1 (grid0.coords t)) (y : S256x1500.Idx) :
    ∃ pc ∈ (runC (F := F) c t hc0 hc1 x0 x1 x2 xs6 xs7).1, y ∈ pc.1.set :=
  View.cover_of_tiledL (runC (F := F) c t hc0 hc1 x0 x1 x2 xs6 xs7).1 S256x1500.size (by sl_kernel_rfl) y
theorem coverC4 (hc0 : ¬cond0_0 (grid0.coords t)) (hc1 : cond0_1 (grid0.coords t)) (y : S1x1.Idx) :
    ∃ pc ∈ (runC (F := F) c t hc0 hc1 x0 x1 x2 xs6 xs7).2.1, y ∈ pc.1.set :=
  View.cover_of_tiledL (runC (F := F) c t hc0 hc1 x0 x1 x2 xs6 xs7).2.1 S1x1.size (by sl_kernel_rfl) y
theorem scoverC6 (hc0 : ¬cond0_0 (grid0.coords t)) (hc1 : cond0_1 (grid0.coords t)) (y : S256x1500.Idx) :
    ∃ pc ∈ (runC (F := F) c t hc0 hc1 x0 x1 x2 xs6 xs7).2.2.1, y ∈ pc.1.set :=
  View.cover_of_tiledL (runC (F := F) c t hc0 hc1 x0 x1 x2 xs6 xs7).2.2.1 S256x1500.size (by sl_kernel_rfl) y
theorem scoverC7 (hc0 : ¬cond0_0 (grid0.coords t)) (hc1 : cond0_1 (grid0.coords t)) (y : S1500x1.Idx) :
    ∃ pc ∈ (runC (F := F) c t hc0 hc1 x0 x1 x2 xs6 xs7).2.2.2.1, y ∈ pc.1.set :=
  View.cover_of_tiledL (runC (F := F) c t hc0 hc1 x0 x1 x2 xs6 xs7).2.2.2.1 S1500x1.size (by sl_kernel_rfl) y
end covers

/-! ## What the outputs and the accumulators hold after each point -/

/-- The two outputs' staging buffers and the two accumulators after a point. -/
abbrev Outs (F : FTy → Type) [FloatOps F] : Type := Vec F S256x1500 .f32 × Vec F S1x1 .f32 × Vec F S256x1500 .f32 × Vec F S1500x1 .f32

/-- THE ACCUMULATION, by recursion on the point: the first point resets and adds its tile; every later point adds its
    tile to what the point before left; the last point also stores the outputs. Where an output is not stored
    its component is a placeholder nothing consults. -/
def outsAt0 (c : Dev nD) : (n : ℕ) → n < cfg0.N → Outs F
  | 0, hn =>
    let t : Fin cfg0.N := ⟨0, hn⟩
    (rb3 [], rb4 [],
     rb6 (runA (F := F) c t (c0_of t rfl) (not_c1 t (by show (0 : ℕ) ≠ 27; omega)) (iblk0 V c 0 t) (iblk0 V c 1 t) (iblk0 V c 2 t)).1,
     rb7 (runA (F := F) c t (c0_of t rfl) (not_c1 t (by show (0 : ℕ) ≠ 27; omega)) (iblk0 V c 0 t) (iblk0 V c 1 t) (iblk0 V c 2 t)).2.1)
  | n + 1, hn =>
    let t : Fin cfg0.N := ⟨n + 1, hn⟩
    let p := outsAt0 c n (Nat.lt_of_succ_lt hn)
    if h1 : n + 1 = 27 then
      (rb3 (runC (F := F) c t (not_c0 t (Nat.succ_ne_zero n)) (c1_of t h1) (iblk0 V c 0 t) (iblk0 V c 1 t) (iblk0 V c 2 t) p.2.2.1 p.2.2.2).1,
       rb4 (runC (F := F) c t (not_c0 t (Nat.succ_ne_zero n)) (c1_of t h1) (iblk0 V c 0 t) (iblk0 V c 1 t) (iblk0 V c 2 t) p.2.2.1 p.2.2.2).2.1,
       rb6 (runC (F := F) c t (not_c0 t (Nat.succ_ne_zero n)) (c1_of t h1) (iblk0 V c 0 t) (iblk0 V c 1 t) (iblk0 V c 2 t) p.2.2.1 p.2.2.2).2.2.1,
       rb7 (runC (F := F) c t (not_c0 t (Nat.succ_ne_zero n)) (c1_of t h1) (iblk0 V c 0 t) (iblk0 V c 1 t) (iblk0 V c 2 t) p.2.2.1 p.2.2.2).2.2.2.1)
    else
      (rb3 [], rb4 [],
       rb6 (runB (F := F) c t (not_c0 t (Nat.succ_ne_zero n)) (not_c1 t h1) (iblk0 V c 0 t) (iblk0 V c 1 t) (iblk0 V c 2 t) p.2.2.1 p.2.2.2).1,
       rb7 (runB (F := F) c t (not_c0 t (Nat.succ_ne_zero n)) (not_c1 t h1) (iblk0 V c 0 t) (iblk0 V c 1 t) (iblk0 V c 2 t) p.2.2.1 p.2.2.2).2.1)

/-- What the point before `t` left (for `t` not the first). -/
abbrev prev0 (c : Dev nD) (t : Fin cfg0.N) : Outs F := outsAt0 V c (t.val - 1) (Nat.lt_of_le_of_lt (Nat.sub_le _ _) t.isLt)

theorem outsAt0_A (c : Dev nD) (t : Fin cfg0.N) (h0 : t.val = 0) :
    outsAt0 V c t.val t.isLt = (rb3 [], rb4 [],
      rb6 (runA (F := F) c t (c0_of t h0) (not_c1 t (by omega)) (iblk0 V c 0 t) (iblk0 V c 1 t) (iblk0 V c 2 t)).1,
      rb7 (runA (F := F) c t (c0_of t h0) (not_c1 t (by omega)) (iblk0 V c 0 t) (iblk0 V c 1 t) (iblk0 V c 2 t)).2.1) := by
  obtain ⟨n, hn⟩ := t
  cases n with
  | zero => rfl
  | succ n => exact absurd h0 (Nat.succ_ne_zero n)

theorem outsAt0_B (c : Dev nD) (t : Fin cfg0.N) (h0 : t.val ≠ 0) (h1 : t.val ≠ 27) :
    outsAt0 V c t.val t.isLt = (rb3 [], rb4 [],
      rb6 (runB (F := F) c t (not_c0 t h0) (not_c1 t h1) (iblk0 V c 0 t) (iblk0 V c 1 t) (iblk0 V c 2 t) (prev0 V c t).2.2.1 (prev0 V c t).2.2.2).1,
      rb7 (runB (F := F) c t (not_c0 t h0) (not_c1 t h1) (iblk0 V c 0 t) (iblk0 V c 1 t) (iblk0 V c 2 t) (prev0 V c t).2.2.1 (prev0 V c t).2.2.2).2.1) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 27) :
    outsAt0 V c t.val t.isLt =
     (rb3 (runC (F := F) c t (not_c0 t h0) (c1_of t h1) (iblk0 V c 0 t) (iblk0 V c 1 t) (iblk0 V c 2 t) (prev0 V c t).2.2.1 (prev0 V c t).2.2.2).1,
      rb4 (runC (F := F) c t (not_c0 t h0) (c1_of t h1) (iblk0 V c 0 t) (iblk0 V c 1 t) (iblk0 V c 2 t) (prev0 V c t).2.2.1 (prev0 V c t).2.2.2).2.1,
      rb6 (runC (F := F) c t (not_c0 t h0) (c1_of t h1) (iblk0 V c 0 t) (iblk0 V c 1 t) (iblk0 V c 2 t) (prev0 V c t).2.2.1 (prev0 V c t).2.2.2).2.2.1,
      rb7 (runC (F := F) c t (not_c0 t h0) (c1_of t h1) (iblk0 V c 0 t) (iblk0 V c 1 t) (iblk0 V c 2 t) (prev0 V c t).2.2.1 (prev0 V c t).2.2.2).2.2.2.1) := by
  obtain ⟨n, hn⟩ := t
  cases n with
  | zero => exact absurd rfl h0
  | succ n => exact (dif_pos h1).trans rfl

/-! ## The region invariant -/

/-- The core's scoped buffers that belong to neither this kernel's windows nor its accumulators, each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-- Before position `n`: at the start everything scoped is at anything; afterwards each accumulator is at what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 c) ∗ (∃ r, prngReg c r)) := by
  cases n with
  | zero => exact absurd rfl hz
  | succ n => rfl

/-! ## The proof data -/

/-- The region's proof data on core `c`: the arrays as the region finds them; after the body at point `t` each input's
    buffer at its block and each output's at `outsAt0`'s component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the point's position says which case it is in;
    the invariant hands the body the accumulators at what the point before left (at anything at the first point)
    and takes them back at this point's contents; an output the case does not store is handed back untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 28 := lt_of_lt_of_eq t.isLt N0
  by_cases h0 : t.val = 0
  · have h1 : t.val ≠ 27 := by omega
    rw [Dat.leavesExact_idle (dat0 V c) 3 t (idleAt0_3 t (not_c1 t h1)) (noFlush0_3 t (not_c1 t h1)),
      Dat.leavesExact_idle (dat0 V c) 4 t (idleAt0_4 t (not_c1 t h1)) (noFlush0_4 t (not_c1 t h1))]
    rw [outsAt0_A V c t h0]
    (try dsimp only)
    rw [PhiS_castSucc V c t, PhiS_zero V c _ _ h0, PhiA0_eq]
    iintro ⟨⟨⟨HS6, HS7, Hoth⟩, Hg⟩, Ho, ⟨%d0, H0⟩, ⟨%d1, H1⟩, ⟨%d2, H2⟩, ⟨%d3, H3⟩, ⟨%d4, H4⟩⟩
    iapply ((runA (F := F) c t (c0_of t h0) (not_c1 t h1) (iblk0 V c 0 t) (iblk0 V c 1 t) (iblk0 V c 2 t)).2.2 _ _ Set.univ _)
    isplitl [H0]; · iexact H0
    isplitl [H1]; · iexact H1
    isplitl [H2]; · iexact H2
    isplitl [H3]; · iexact H3
    isplitl [H4]; · iexact H4
    isplitl [HS6]; · iexact HS6
    isplitl [HS7]; · iexact HS7
    iintro ⟨H0, H1, H2, H3, H4, ⟨%es6, HS6⟩, ⟨%es7, HS7⟩⟩
    isplitl [HS6 HS7 Hoth Hg]
    · isplitl [HS6 HS7 Hoth]
      · isplitl [HS6]
        · unfold owns; iexists _; isplitr
          swap; · iexact HS6
          ipureintro; exact View.read_writes_of_cover _ _ _ _ _ (scoverA6 c t _ _ _ _ _)
        isplitl [HS7]
        · unfold owns; iexists _; isplitr
          swap; · iexact HS7
          ipureintro; exact View.read_writes_of_cover _ _ _ _ _ (scoverA7 c t _ _ _ _ _)
        iexact Hoth
      iexact Hg
    isplitl [Ho]; · iexact Ho
    isplitl [H0]; · iexact H0
    isplitl [H1]; · iexact H1
    isplitl [H2]; · iexact H2
    isplitl [H3]; · iexists _; iexact H3
    iexists _; iexact H4
  · by_cases h1 : t.val = 27
    · rw [show (dat0 V c).leavesExact 3 t = owns (c : Thread nD τ) (ms0_3 t) fullShare ((dat0 V c).after 3 t) from by
        unfold Dat.leavesExact; rw [liveAt0_3 t (c1_of t h1)], after0_3]
      rw [show (dat0 V c).leavesExact 4 t = owns (c : Thread nD τ) (ms0_4 t) fullShare ((dat0 V c).after 4 t) from by
        unfold Dat.leavesExact; rw [liveAt0_4 t (c1_of t h1)], after0_4]
      rw [outsAt0_C V c t h0 h1]
      (try dsimp only)
      rw [PhiS_castSucc V c t, PhiS_pos V c _ _ h0]
      iintro ⟨⟨⟨HS6, HS7, Hoth⟩, Hg⟩, Ho, ⟨%d0, H0⟩, ⟨%d1, H1⟩, ⟨%d2, H2⟩, ⟨%d3, H3⟩, ⟨%d4, H4⟩⟩
      iapply ((runC (F := F) c t (not_c0 t h0) (c1_of t h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS6]; · iexact HS6
      isplitl [HS7]; · iexact HS7
      iintro ⟨H0, H1, H2, ⟨%e3, H3⟩, ⟨%e4, H4⟩, ⟨%es6, HS6⟩, ⟨%es7, HS7⟩⟩
      isplitl [HS6 HS7 Hoth Hg]
      · isplitl [HS6 HS7 Hoth]
        · isplitl [HS6]
          · unfold owns; iexists _; isplitr
            swap; · iexact HS6
            ipureintro; exact View.read_writes_of_cover _ _ _ _ _ (scoverC6 c t _ _ _ _ _ _ _)
          isplitl [HS7]
          · unfold owns; iexists _; isplitr
            swap; · iexact HS7
            ipureintro; exact View.read_writes_of_cover _ _ _ _ _ (scoverC7 c t _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC3 c t _ _ _ _ _ _ _)
      unfold owns; iexists _; isplitr
      swap; · iexact H4
      ipureintro; exact View.read_writes_of_cover _ _ _ _ _ (coverC4 c t _ _ _ _ _ _ _)
    · rw [Dat.leavesExact_idle (dat0 V c) 3 t (idleAt0_3 t (not_c1 t h1)) (noFlush0_3 t (not_c1 t h1)),
        Dat.leavesExact_idle (dat0 V c) 4 t (idleAt0_4 t (not_c1 t h1)) (noFlush0_4 t (not_c1 t h1))]
      rw [outsAt0_B V c t h0 h1]
      (try dsimp only)
      rw [PhiS_castSucc V c t, PhiS_pos V c _ _ h0]
      iintro ⟨⟨⟨HS6, HS7, Hoth⟩, Hg⟩, Ho, ⟨%d0, H0⟩, ⟨%d1, H1⟩, ⟨%d2, H2⟩, ⟨%d3, H3⟩, ⟨%d4, H4⟩⟩
      iapply ((runB (F := F) c t (not_c0 t h0) (not_c1 t h1) (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS6]; · iexact HS6
      isplitl [HS7]; · iexact HS7
      iintro ⟨H0, H1, H2, H3, H4, ⟨%es6, HS6⟩, ⟨%es7, HS7⟩⟩
      isplitl [HS6 HS7 Hoth Hg]
      · isplitl [HS6 HS7 Hoth]
        · isplitl [HS6]
          · unfold owns; iexists _; isplitr
            swap; · iexact HS6
            ipureintro; exact View.read_writes_of_cover _ _ _ _ _ (scoverB6 c t _ _ _ _ _ _ _)
          isplitl [HS7]
          · unfold owns; iexists _; isplitr
            swap; · iexact HS7
            ipureintro; exact View.read_writes_of_cover _ _ _ _ _ (scoverB7 c t _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS6, HS7, Hoth⟩, Hg⟩
  isplitl [HS6 HS7 Hoth]
  · isplitl [HS6]; · iexists _; iexact HS6
    isplitl [HS7]; · iexists _; iexact HS7
    iexact Hoth
  iexact Hg

theorem hout0 (c : Dev nD) : (dat0 V c).Φ (Fin.last cfg0.N) ⊢ Pipeline.ΦA spec0 c :=
  Phi_out V c _ (by rw [Fin.val_last]; have : cfg0.N = 28 := N0; omega)

end Cert.Kernel.Enc

end
-- ==== Proof.DecBits.lean ====
import proofs.«151767_j39745627357481_1_alg».proof.Proof.Gen.Kernel.Launch
import proofs.«151767_j39745627357481_1_alg».proof.Proof.Gen.Kernel.Skeleton
import proofs.«151767_j39745627357481_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The decoder call, at any contents of the core's buffers when it is entered

The second TensorCore call of the program runs over 28 grid points. At point t it is handed the whole
encoder output (256 x 1500, the same block at every point), rows 1024 t .. 1024 t + 1023 of the padded decoder
weight (28672 x 1500), columns 1024 t .. 1024 t + 1023 of the padded bias row (1 x 28672), and the matching
256 x 1024 column tile of the padded output, which is written back after every point. The body loads the three
inputs whole, multiplies, adds the bias, applies the logistic function, and stores the tile whole.

This file states, for arbitrary contents V of the buffers at entry: each window's block at a point; what the
one store leaves in the output tile as a function of the three input blocks; the body's triple; the proof data
of the pipeline; and the body obligation at every point. -/

-- membership in a rectangle of these extents is checked coordinate by coordinate
set_option maxRecDepth 16384

noncomputable section

namespace Cert.Kernel.Dec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The encoder output's staging buffer holds the whole array at every point, although it is fetched at the first
    point only: where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight tile's staging buffer holds row block t at point t. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias tile's staging buffer holds column block t at point t. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S256x1500 := Rect.unit (s := S256x1500) ![0, 0] S256x1500.size inb_S256x1500_S256x1500_0_0
abbrev r1_1 : Rect S1024x1500 := Rect.unit (s := S1024x1500) ![0, 0] S1024x1500.size inb_S1024x1500_S1024x1500_0_0
abbrev r1_2 : Rect S1x1024 := Rect.unit (s := S1x1024) ![0, 0] S1x1024.size inb_S1x1024_S1x1024_0_0
abbrev r1_3 : Rect S256x1024 := Rect.unit (s := S256x1024) ![0, 0] S256x1024.size inb_S256x1024_S256x1024_0_0

/-! ## What the body leaves in the output tile -/

/-- The output tile after the body, from the three input blocks: its one store, of the logistic of the product
    plus the bias row. -/
def out1_3 (x0 : Vec F S256x1500 .f32) (x1 : Vec F S1024x1500 .f32) (x2 : Vec F S1x1024 .f32) : Vec F S256x1024 .f32 :=
  View.canon [⟨r1_3, k1_pay1 (View.ld x0 r1_0) (View.ld x1 r1_1) (View.ld x2 r1_2)⟩]

/-- The one store is of the whole tile, so it covers it. -/
theorem cover1_3 (p0 : Vec F S256x1024 .f32) (y : S256x1024.Idx) :
    ∃ pc ∈ ([⟨r1_3, p0⟩] : List (View.Piece (Elt F) S256x1024 .f32)), y ∈ pc.1.set :=
  View.cover_of_tiled [⟨r1_3, p0⟩] S256x1024.size (by rfl) y

/-! ## The body's triple -/

set_option maxHeartbeats 1000000 in
/-- The body on whole staging memrefs, the inputs' at contents x0 x1 x2 and the output's at anything, runs to the
    continuation holding the inputs' as they were and the output's at out1_3 of them. -/
theorem sound_kernel1 (c : Dev nD) (E : Set ℕ) (i : grid1.Coords)
    (arg0 : Memref sig .tc .vmem S256x1500 .f32) (harg0 : arg0.IsWhole) (arg1 : Memref sig .tc .vmem S1024x1500 .f32) (harg1 : arg1.IsWhole)
    (arg2 : Memref sig .tc .vmem S1x1024 .f32) (harg2 : arg2.IsWhole) (arg3 : Memref sig .tc .vmem S256x1024 .f32) (harg3 : arg3.IsWhole)
    (x0 : Vec F S256x1500 .f32) (x1 : Vec F S1024x1500 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__decoder_kernel i arg0 harg0 arg1 harg1 arg2 harg2 arg3 harg3) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the decoder pipeline on core c: the arrays as the call finds them; after the body at point t
    each input's buffer at its block and the output's at out1_3 of the three input blocks; the invariant that of a
    body touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant is the same at every point. -/
theorem Φ_eq1 (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Dec

end
-- ==== Proof.RunBits.lean ====
/- The run of @main from the launch to the return, as thirteen segments: five host stretches, the encoder's
   region, five host stretches, the decoder's region, and the closing host stretch. The buffer contents at every
   segment boundary are a fold from the launch memory (`W0` … `W13`): a host stretch maps the contents through
   `StableHlo.after`; a region leaves each of its windows' arrays at what its write-backs fold to and every other
   buffer as entered. The thread state between two segments is "every unscoped buffer whole at the boundary's
   contents, the generator register at some state, nothing owed". From the segments the launch theorem gives: every
   weakly fair execution terminates and the final memory holds `W13` at every unscoped buffer. The arguments are
   read back through the fold to the launch memory (no host operation writes one and no region's window is one). -/
import proofs.«151767_j39745627357481_1_alg».proof.Proof.EncBits
import proofs.«151767_j39745627357481_1_alg».proof.Proof.DecBits
import proofs.«151767_j39745627357481_1_alg».proof.Proof.Gen.Kernel.Launch
import proofs.«151767_j39745627357481_1_alg».proof.Proof.Gen.Kernel.Skeleton
import proofs.«151767_j39745627357481_1_alg».proof.Proof.Gen.Kernel.Points
import proofs.«151767_j39745627357481_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4` (the encoder region's entry). -/
abbrev W5 : Dev nD → Valuation τ sig (Elt F) := fun c => StableHlo.after hostOps0_4 (W4 m ρ c)
/-- The same read at the TensorCore's references: what the encoder region's proof data take. -/
abbrev Vin0 : (c : Dev nD) → (b : Ref sig .tc) → Buf (Elt F) ((c : Thread nD τ).loc b) := fun c b => W5 m ρ c b
/-- At the encoder region's exit: its windows' arrays at what the pipeline leaves (an input as entered, an output at
    its write-backs folded: `Dat.arrAt … N`), every other buffer as entered. -/
def W6 (c : Dev nD) : Valuation τ sig (Elt F) :=
  Pipeline.withArrays spec0 c (W5 m ρ c) fun w => (Enc.dat0 (Vin0 m ρ) c).arrAt w cfg0.N
theorem W6_arr (c : Dev nD) (w : Fin cfg0.W) :
    W6 m ρ c (Proc.devRef .tc (Pipeline.arrRef spec0 w)) = (Enc.dat0 (Vin0 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (the encoder region's exit contents). -/
abbrev Vout0 : (c : Dev nD) → (b : Ref sig .tc) → Buf (Elt F) ((c : Thread nD τ).loc b) := fun c b => W6 m ρ c b
/-- At the exit each array holds what the pipeline leaves and every other buffer what it held at entry. -/
theorem hF0 (c : Dev nD) (w : Fin cfg0.W) : (Enc.dat0 (Vin0 m ρ) c).arrAt w cfg0.N = Vout0 m ρ c (Pipeline.arrRef spec0 w) :=
  (W6_arr m ρ c w).symm
theorem hrest0 (c : Dev nD) : ∀ b, b ∉ Finset.univ.image (Pipeline.arrRef spec0) → Vout0 m ρ c b = Vin0 m ρ c b :=
  fun b hb => W6_of_ne m ρ c b fun w e => hb (Finset.mem_image.mpr ⟨w, Finset.mem_univ _, e⟩)
/-- After `hostOps1`. -/
abbrev W7 : Dev nD → Valuation τ sig (Elt F) := fun c => StableHlo.after hostOps1 (W6 m ρ c)
/-- After `hostOps1_1`. -/
abbrev W8 : Dev nD → Valuation τ sig (Elt F) := fun c => StableHlo.after hostOps1_1 (W7 m ρ c)
/-- After `hostOps1_2`. -/
abbrev W9 : Dev nD → Valuation τ sig (Elt F) := fun c => StableHlo.after hostOps1_2 (W8 m ρ c)
/-- After `hostOps1_3`. -/
abbrev W10 : Dev nD → Valuation τ sig (Elt F) := fun c => StableHlo.after hostOps1_3 (W9 m ρ c)
/-- After `hostOps1_4` (the decoder region's entry). -/
abbrev W11 : Dev nD → Valuation τ sig (Elt F) := fun c => StableHlo.after hostOps1_4 (W10 m ρ c)
/-- The same read at the TensorCore's references: what the decoder region's proof data take. -/
abbrev Vin1 : (c : Dev nD) → (b : Ref sig .tc) → Buf (Elt F) ((c : Thread nD τ).loc b) := fun c b => W11 m ρ c b
/-- At the decoder region's exit: its windows' arrays at what the pipeline leaves, every other buffer as entered. -/
def W12 (c : Dev nD) : Valuation τ sig (Elt F) :=
  Pipeline.withArrays spec1 c (W11 m ρ c) fun w => (Dec.dat1 (Vin1 m ρ) c).arrAt w cfg1.N
theorem W12_arr (c : Dev nD) (w : Fin cfg1.W) :
    W12 m ρ c (Proc.devRef .tc (Pipeline.arrRef spec1 w)) = (Dec.dat1 (Vin1 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- The same read at the TensorCore's references (the decoder region's exit contents). -/
abbrev Vout1 : (c : Dev nD) → (b : Ref sig .tc) → Buf (Elt F) ((c : Thread nD τ).loc b) := fun c b => W12 m ρ c b
theorem hF1 (c : Dev nD) (w : Fin cfg1.W) : (Dec.dat1 (Vin1 m ρ) c).arrAt w cfg1.N = Vout1 m ρ c (Pipeline.arrRef spec1 w) :=
  (W12_arr m ρ c w).symm
theorem hrest1 (c : Dev nD) : ∀ b, b ∉ Finset.univ.image (Pipeline.arrRef spec1) → Vout1 m ρ c b = Vin1 m ρ c b :=
  fun b hb => W12_of_ne m ρ c b fun w e => hb (Finset.mem_image.mpr ⟨w, Finset.mem_univ _, e⟩)
/-- After `hostOps2` (the return). -/
abbrev W13 : Dev nD → Valuation τ sig (Elt F) := fun c => StableHlo.after hostOps2 (W12 m ρ c)

/-! ### What a host stretch leaves unchanged: every buffer none of its operations writes -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
theorem W8_of (c : Dev nD) (r : Ref sig .tc) (h : r ∉ hostOps1_1_W) :
    W8 m ρ c (Proc.devRef .tc r) = W7 m ρ c (Proc.devRef .tc r) :=
  StableHlo.after_of_writes_sub hostOps1_1 _ hostOps1_1_writes h
theorem W9_of (c : Dev nD) (r : Ref sig .tc) (h : r ∉ hostOps1_2_W) :
    W9 m ρ c (Proc.devRef .tc r) = W8 m ρ c (Proc.devRef .tc r) :=
  StableHlo.after_of_writes_sub hostOps1_2 _ hostOps1_2_writes h
theorem W10_of (c : Dev nD) (r : Ref sig .tc) (h : r ∉ hostOps1_3_W) :
    W10 m ρ c (Proc.devRef .tc r) = W9 m ρ c (Proc.devRef .tc r) :=
  StableHlo.after_of_writes_sub hostOps1_3 _ hostOps1_3_writes h
theorem W11_of (c : Dev nD) (r : Ref sig .tc) (h : r ∉ hostOps1_4_W) :
    W11 m ρ c (Proc.devRef .tc r) = W10 m ρ c (Proc.devRef .tc r) :=
  StableHlo.after_of_writes_sub hostOps1_4 _ hostOps1_4_writes h
theorem W13_of (c : Dev nD) (r : Ref sig .tc) (h : r ∉ hostOps2_W) :
    W13 m ρ c (Proc.devRef .tc r) = W12 m ρ c (Proc.devRef .tc r) :=
  StableHlo.after_of_writes_sub hostOps2 _ hostOps2_writes h

/-! ### The arguments end as launched: no host operation writes one and no region's window is one, so the fold at
    an argument's buffer walks back to the launch memory -/

theorem W13_main_arg0 (c : Dev nD) : W13 m ρ c (Proc.devRef .tc main_arg0) = m ((c : Thread nD τ).loc main_arg0) :=
  (W13_of m ρ c main_arg0 (by decide)).trans <| (W12_of_ne m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of_ne m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W13_main_arg1 (c : Dev nD) : W13 m ρ c (Proc.devRef .tc main_arg1) = m ((c : Thread nD τ).loc main_arg1) :=
  (W13_of m ρ c main_arg1 (by decide)).trans <| (W12_of_ne m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of_ne m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W13_main_arg2 (c : Dev nD) : W13 m ρ c (Proc.devRef .tc main_arg2) = m ((c : Thread nD τ).loc main_arg2) :=
  (W13_of m ρ c main_arg2 (by decide)).trans <| (W12_of_ne m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of_ne m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W13_main_arg3 (c : Dev nD) : W13 m ρ c (Proc.devRef .tc main_arg3) = m ((c : Thread nD τ).loc main_arg3) :=
  (W13_of m ρ c main_arg3 (by decide)).trans <| (W12_of_ne m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of_ne m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W13_main_arg4 (c : Dev nD) : W13 m ρ c (Proc.devRef .tc main_arg4) = m ((c : Thread nD τ).loc main_arg4) :=
  (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of_ne m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl

/-! ### What the regions are entered with and what @main returns -/

/-- The results: the slice of the decoder's output and the reshaped norm scalar, read off the decoder region's exit. -/
theorem W13_main_v8 (c : Dev nD) : W13 m ρ c (Proc.devRef .tc main_v8) = StableHlo.after hostOps2 (W12 m ρ c) (Proc.devRef .tc main_v8) := rfl
theorem W13_main_v9 (c : Dev nD) : W13 m ρ c (Proc.devRef .tc main_v9) = StableHlo.after hostOps2 (W12 m ρ c) (Proc.devRef .tc main_v9) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Enc.dat0 (Vin0 m ρ) c
  | ⟨1, _⟩ => fun c => Dec.dat1 (Vin1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its post is
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-- The closing stretch's post is the last thread state beside the core owing nothing (the separating conjunction
    reassociated). -/
theorem last_chain (c : Dev nD) :
    (iprop(StableHlo.held (c : Thread nD τ) (Pipeline.ucRefs τ sig) (W13 m ρ c) ∗ (∃ r, prngReg c r) ∗ ∃ W, owes (c : Thread nD τ) (0 : CellTallies nD τ sig Unit) W) : sProp 𝕄)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

/-! ## The regions as segments -/

-- a library lemma stated over the pinned configuration unifies with the printed one only when unification may
-- unfold plain definitions in a metavariable's type
set_option backward.isDefEq.respectTransparency.types false in
/-- REGION 0 over the thread state: entered from every unscoped buffer at `W5`, left at `W6`. Its arrays
    are split out of the unscoped buffers and put back at the exit contents; the generator register and the scoped
    buffers no window stages go into the pipeline's invariant at the first point and come back from it at the last;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation0 (Vin0 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => Enc.A_eq0 (Vin0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Enc.hin0 (Vin0 m ρ) c)
    unfold Pipeline.ΦA
    iintro ⟨Hp, -, Hr⟩
    isplitl [Hr]; · iexact Hr
    iexact Hp
  hout c := by
    rw [Pipeline.ownSems0_none]
    refine BIBase.Entails.trans (Enc.hout0 (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W11`, left at `W12`. Its arrays
    are split out of the unscoped buffers and put back at the exit contents; the generator register and the scoped
    buffers no window stages go into the pipeline's invariant at the first point and come back from it at the last;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation1 (Vin1 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => Dec.A_eq1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Dec.Φ_eq1 (Vin1 m ρ) c _]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Dec.Φ_eq1 (Vin1 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .host (hseg hostOps1_3 hostOps1_3_sub hostOps1_3_fresh (W9 m ρ)),
    .host (hseg hostOps1_4 hostOps1_4_sub hostOps1_4_fresh (W10 m ρ)),
    .region (reg1 m ρ),
    .host (hseg hostOps2 hostOps2_sub hostOps2_fresh (W12 m ρ)) ]
/-- @main IS the run of the segments: it is the chain of its items, and the segments' run is the chain of their
    fragments, which are those items one by one. -/
theorem main_run (c : Dev nD) : main (F := F) c = Pipeline.Seg.run (segs m ρ) := by
  rw [main_chain c, Pipeline.Seg.run_eq_chain]
  exact congrArg Pipeline.chain (show _ = (segs m ρ).map Pipeline.Seg.prog from rfl)

-- the launch theorem's implicit arguments are found by unifying its conclusion with this one, which takes unfolding
-- plain definitions in a metavariable's type
set_option backward.isDefEq.respectTransparency.types false in
/-- THE RUN, at any post that follows from the last boundary's contents: at the compiled mesh, from any memory with
    zero counters, every weakly fair execution of @main on the TensorCores terminates, nothing faulting, and every
    final memory holds `W13` at every unscoped buffer. -/
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

/-- THE RUN: every final memory holds `W13` at every unscoped buffer. -/
theorem run_all : θ_run defs (onTc (τ := τ) (main (F := F))) ⟨m, fun _ => 0, ρ⟩
    (fun r => ∀ c : Dev nD, ∀ b ∈ Pipeline.ucRefs τ sig, r.2.mem ((c : Thread nD τ).1, b) = W13 m ρ c b) :=
  run_post m ρ fun _ h => h

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c)⟩

end Cert.Kernel.Run

end
-- ==== Proof.EncRuns.lean ====
import proofs.«151767_j39745627357481_1_alg».proof.Proof.Gen.KernelIdeal.Launch
import proofs.«151767_j39745627357481_1_alg».proof.Proof.Gen.KernelIdeal.Skeleton
import proofs.«151767_j39745627357481_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The encoder kernel's body, run once per control case. The grid has 28 points along the reduction axis; the
    body resets its two accumulators at the first point, adds the tile's partial product and the tile's row sums of
    squares at every point, and at the last point applies the bias and the logistic function and reduces the
    Jacobian term. Three cases arise: first point, a middle point, last point. -/

/-- The first branch's condition, from the grid coordinate: the point is the first along the reduction axis. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 28 = 0 :=
  (by decide +kernel : ∀ t : Fin grid0.N, cond0_0 (grid0.coords t) ↔ t.val % 28 = 0)
/-- The second branch's condition: the point is the last along the reduction axis. -/
abbrev cond0_1 (i : grid0.Coords) : Prop := k0_cond2 i = 1#1
theorem hcond0_1 : ∀ t : Fin cfg0.N, cond0_1 (grid0.coords t) ↔ t.val % 28 = 27 :=
  (by decide +kernel : ∀ t : Fin grid0.N, cond0_1 (grid0.coords t) ↔ t.val % 28 = 27)

/-- Each window's current staging memref at point `t`, and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1500x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1500 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1500 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S256x1500 .f32 := Memref.whole cc0_scratch0
abbrev scM0_1 : Memref sig .tc .vmem S1500x1 .f32 := Memref.whole cc0_scratch1
abbrev VS0_0 : View sig .tc .vmem S256x1500 .f32 := scM0_0.view
abbrev VS0_1 : View sig .tc .vmem S1500x1 .f32 := scM0_1.view
/-- One staging buffer of each output window, through which its contents are stated. -/
abbrev VO0_3 : View sig .tc .vmem S256x1500 .f32 := (Memref.whole cc0_stg3_0 : Memref sig .tc .vmem S256x1500 .f32).view
abbrev VO0_4 : View sig .tc .vmem S1x1 .f32 := (Memref.whole cc0_stg4_0 : Memref sig .tc .vmem S1x1 .f32).view

set_option maxHeartbeats 1000000 in
/-- FIRST POINT (reset taken, finish not taken). The inputs are handed over at their contents, the two outputs at
    contents handed back untouched, the accumulators at anything; the body leaves each accumulator with the listed
    pieces written (the reset, then the first tile's contribution). -/
noncomputable def kernelRun0_A (c : Dev nD) (i : grid0.Coords) (arg1 : Memref sig .tc .vmem S256x1024 .f32) (harg1 : arg1.IsWhole) (arg2 : Memref sig .tc .vmem S1500x1024 .f32) (harg2 : arg2.IsWhole) (arg3 : Memref sig .tc .vmem S1x1500 .f32) (harg3 : arg3.IsWhole) (arg4 : Memref sig .tc .vmem S256x1500 .f32) (harg4 : arg4.IsWhole) (arg5 : Memref sig .tc .vmem S1x1 .f32) (harg5 : arg5.IsWhole) (arg6 : Memref sig .tc .vmem S256x1500 .f32) (harg6 : arg6.IsWhole) (arg7 : Memref sig .tc .vmem S1500x1 .f32) (harg7 : arg7.IsWhole) (hc0 : cond0_0 i) (hc1 : ¬cond0_1 i)
    (x0 : Vec F S256x1024 .f32) (x1 : Vec F S1500x1024 .f32) (x2 : Vec F S1x1500 .f32) :
    Σ' (LS6 : List (View.Piece (Elt F) S256x1500 .f32)), { LS7 : List (View.Piece (Elt F) S1500x1 .f32) //
      ∀ (xi3 : Vec F S256x1500 .f32) (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨?_, ?_, fun xi3 xi4 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%ds6, %fs6, -, HS6⟩, ⟨%ds7, %fs7, -, HS7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS6]; · iexists _; iexact HS6
    iexists _; iexact HS7

set_option maxHeartbeats 1000000 in
/-- A MIDDLE POINT (neither branch taken). The accumulators are handed over at what the point before left
    (`xs6`, `xs7`) and come back with this tile's contribution written. -/
noncomputable def kernelRun0_B (c : Dev nD) (i : grid0.Coords) (arg1 : Memref sig .tc .vmem S256x1024 .f32) (harg1 : arg1.IsWhole) (arg2 : Memref sig .tc .vmem S1500x1024 .f32) (harg2 : arg2.IsWhole) (arg3 : Memref sig .tc .vmem S1x1500 .f32) (harg3 : arg3.IsWhole) (arg4 : Memref sig .tc .vmem S256x1500 .f32) (harg4 : arg4.IsWhole) (arg5 : Memref sig .tc .vmem S1x1 .f32) (harg5 : arg5.IsWhole) (arg6 : Memref sig .tc .vmem S256x1500 .f32) (harg6 : arg6.IsWhole) (arg7 : Memref sig .tc .vmem S1500x1 .f32) (harg7 : arg7.IsWhole) (hc0 : ¬cond0_0 i) (hc1 : ¬cond0_1 i)
    (x0 : Vec F S256x1024 .f32) (x1 : Vec F S1500x1024 .f32) (x2 : Vec F S1x1500 .f32) (xs6 : Vec F S256x1500 .f32) (xs7 : Vec F S1500x1 .f32) :
    Σ' (LS6 : List (View.Piece (Elt F) S256x1500 .f32)), { LS7 : List (View.Piece (Elt F) S1500x1 .f32) //
      ∀ (xi3 : Vec F S256x1500 .f32) (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare xi4
            ∗ owns (c : Thread nD τ) arg6 fullShare xs6 ∗ owns (c : Thread nD τ) arg7 fullShare xs7
            ∗ (iprop(owns (c : Thread nD τ) arg1 fullShare x0 ∗ owns (c : Thread nD τ) arg2 fullShare x1 ∗ owns (c : Thread nD τ) arg3 fullShare x2
                ∗ owns (c : Thread nD τ) arg4 fullShare xi3 ∗ owns (c : Thread nD τ) arg5 fullShare xi4
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨?_, ?_, fun xi3 xi4 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%fs6, %hfs6, HS6⟩, ⟨%fs7, %hfs7, HS7⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs6; obtain rfl := harg7.eq_unread hfs7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS6]; · iexists _; iexact HS6
    iexists _; iexact HS7

set_option maxHeartbeats 1000000 in
/-- THE LAST POINT (reset not taken, finish taken). The accumulators come in at what the point before left; the two
    outputs, at anything, come back with the listed pieces written (the encoder's activations; the Jacobian scalar). -/
noncomputable def kernelRun0_C (c : Dev nD) (i : grid0.Coords) (arg1 : Memref sig .tc .vmem S256x1024 .f32) (harg1 : arg1.IsWhole) (arg2 : Memref sig .tc .vmem S1500x1024 .f32) (harg2 : arg2.IsWhole) (arg3 : Memref sig .tc .vmem S1x1500 .f32) (harg3 : arg3.IsWhole) (arg4 : Memref sig .tc .vmem S256x1500 .f32) (harg4 : arg4.IsWhole) (arg5 : Memref sig .tc .vmem S1x1 .f32) (harg5 : arg5.IsWhole) (arg6 : Memref sig .tc .vmem S256x1500 .f32) (harg6 : arg6.IsWhole) (arg7 : Memref sig .tc .vmem S1500x1 .f32) (harg7 : arg7.IsWhole) (hc0 : ¬cond0_0 i) (hc1 : cond0_1 i)
    (x0 : Vec F S256x1024 .f32) (x1 : Vec F S1500x1024 .f32) (x2 : Vec F S1x1500 .f32) (xs6 : Vec F S256x1500 .f32) (xs7 : Vec F S1500x1 .f32) :
    Σ' (L3 : List (View.Piece (Elt F) S256x1500 .f32)), Σ' (L4 : List (View.Piece (Elt F) S1x1 .f32)), Σ' (LS6 : List (View.Piece (Elt F) S256x1500 .f32)), { LS7 : List (View.Piece (Elt F) S1500x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS6)
                ∗ (∃ f, arg7.view.loc (c : Thread nD τ) ↦[arg7.view.set]{fullShare} arg7.view.writes (Elt F) f LS7)) -∗ K ⟨⟩))
          ⊢ wp frame (wpE (defs₀ (F := F)) Variants.none c none) E (cc0__encoder_kernel i arg1 harg1 arg2 harg2 arg3 harg3 arg4 harg4 arg5 harg5 arg6 harg6 arg7 harg7) K } := by
  refine ⟨?_, ?_, ?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs6, %hfs6, HS6⟩, ⟨%fs7, %hfs7, HS7⟩, Hk⟩
    obtain rfl := harg1.eq_unread hf0; obtain rfl := harg2.eq_unread hf1; obtain rfl := harg3.eq_unread hf2
    obtain rfl := harg6.eq_unread hfs6; obtain rfl := harg7.eq_unread hfs7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS6]; · iexists _; iexact HS6
    iexists _; iexact HS7

end Cert.KernelIdeal.Enc

end
-- ==== Proof.Enc.lean ====
import proofs.«151767_j39745627357481_1_alg».proof.Proof.EncRuns

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The encoder region's proof data. Along the 28 points of the reduction axis the two accumulators hold, after
    point `n`, the sum of the first `n + 1` tiles' partial products (and of their row sums of squares); the two
    outputs are stored at the last point only, from the finished accumulators. -/

variable (V : (c : Dev nD) → (b : Ref sig .tc) → Buf (Elt F) ((c : Thread nD τ).loc b))

theorem N0 : cfg0.N = 28 := N_0

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditions at a point, from its position -/

theorem c0_of (t : Fin cfg0.N) (h : t.val = 0) : cond0_0 (grid0.coords t) := (hcond0_0 t).mpr (by rw [h])
theorem not_c0 (t : Fin cfg0.N) (h : t.val ≠ 0) : ¬cond0_0 (grid0.coords t) := fun hc => by
  have h1 := (hcond0_0 t).mp hc; have h2 : t.val < 28 := lt_of_lt_of_eq t.isLt N0; omega
theorem c1_of (t : Fin cfg0.N) (h : t.val = 27) : cond0_1 (grid0.coords t) := (hcond0_1 t).mpr (by rw [h])
theorem not_c1 (t : Fin cfg0.N) (h : t.val ≠ 27) : ¬cond0_1 (grid0.coords t) := fun hc => by
  have h1 := (hcond0_1 t).mp hc; have h2 : t.val < 28 := lt_of_lt_of_eq t.isLt N0; omega

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## Each case's run at a point of the grid -/

abbrev runA (c : Dev nD) (t : Fin cfg0.N) (hc0 : cond0_0 (grid0.coords t)) (hc1 : ¬cond0_1 (grid0.coords t))
    (x0 : Vec F S256x1024 .f32) (x1 : Vec F S1500x1024 .f32) (x2 : Vec F S1x1500 .f32) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2
abbrev runB (c : Dev nD) (t : Fin cfg0.N) (hc0 : ¬cond0_0 (grid0.coords t)) (hc1 : ¬cond0_1 (grid0.coords t))
    (x0 : Vec F S256x1024 .f32) (x1 : Vec F S1500x1024 .f32) (x2 : Vec F S1x1500 .f32) (xs6 : Vec F S256x1500 .f32) (xs7 : Vec F S1500x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2 xs6 xs7
abbrev runC (c : Dev nD) (t : Fin cfg0.N) (hc0 : ¬cond0_0 (grid0.coords t)) (hc1 : cond0_1 (grid0.coords t))
    (x0 : Vec F S256x1024 .f32) (x1 : Vec F S1500x1024 .f32) (x2 : Vec F S1x1500 .f32) (xs6 : Vec F S256x1500 .f32) (xs7 : Vec F S1500x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2 xs6 xs7

/-- A list of pieces read back over unspecified contents. -/
abbrev rb6 (L : List (View.Piece (Elt F) S256x1500 .f32)) : Vec F S256x1500 .f32 := VS0_0.read (Elt F) (VS0_0.writes (Elt F) VS0_0.junk L)
abbrev rb7 (L : List (View.Piece (Elt F) S1500x1 .f32)) : Vec F S1500x1 .f32 := VS0_1.read (Elt F) (VS0_1.writes (Elt F) VS0_1.junk L)
abbrev rb3 (L : List (View.Piece (Elt F) S256x1500 .f32)) : Vec F S256x1500 .f32 := VO0_3.read (Elt F) (VO0_3.writes (Elt F) VO0_3.junk L)
abbrev rb4 (L : List (View.Piece (Elt F) S1x1 .f32)) : Vec F S1x1 .f32 := VO0_4.read (Elt F) (VO0_4.writes (Elt F) VO0_4.junk L)

section covers
variable (c : Dev nD) (t : Fin cfg0.N) (x0 : Vec F S256x1024 .f32) (x1 : Vec F S1500x1024 .f32) (x2 : Vec F S1x1500 .f32) (xs6 : Vec F S256x1500 .f32) (xs7 : Vec F S1500x1 .f32)

/-- Each case's stores into an accumulator (and, at the last point, into an output) tile the buffer. -/
theorem scoverA6 (hc0 : cond0_0 (grid0.coords t)) (hc1 : ¬cond0_1 (grid0.coords t)) (y : S256x1500.Idx) :
    ∃ pc ∈ (runA (F := F) c t hc0 hc1 x0 x1 x2).1, y ∈ pc.1.set :=
  View.cover_of_tiledL (runA (F := F) c t hc0 hc1 x0 x1 x2).1 S256x1500.size (by sl_kernel_rfl) y
theorem scoverA7 (hc0 : cond0_0 (grid0.coords t)) (hc1 : ¬cond0_1 (grid0.coords t)) (y : S1500x1.Idx) :
    ∃ pc ∈ (runA (F := F) c t hc0 hc1 x0 x1 x2).2.1, y ∈ pc.1.set :=
  View.cover_of_tiledL (runA (F := F) c t hc0 hc1 x0 x1 x2).2.1 S1500x1.size (by sl_kernel_rfl) y
theorem scoverB6 (hc0 : ¬cond0_0 (grid0.coords t)) (hc1 : ¬cond0_1 (grid0.coords t)) (y : S256x1500.Idx) :
    ∃ pc ∈ (runB (F := F) c t hc0 hc1 x0 x1 x2 xs6 xs7).1, y ∈ pc.1.set :=
  View.cover_of_tiledL (runB (F := F) c t hc0 hc1 x0 x1 x2 xs6 xs7).1 S256x1500.size (by sl_kernel_rfl) y
theorem scoverB7 (hc0 : ¬cond0_0 (grid0.coords t)) (hc1 : ¬cond0_1 (grid0.coords t)) (y : S1500x1.Idx) :
    ∃ pc ∈ (runB (F := F) c t hc0 hc1 x0 x1 x2 xs6 xs7).2.1, y ∈ pc.1.set :=
  View.cover_of_tiledL (runB (F := F) c t hc0 hc1 x0 x1 x2 xs6 xs7).2.1 S1500x1.size (by sl_kernel_rfl) y
theorem coverC3 (hc0 : ¬cond0_0 (grid0.coords t)) (hc1 : cond0_1 (grid0.coords t)) (y : S256x1500.Idx) :
    ∃ pc ∈ (runC (F := F) c t hc0 hc1 x0 x1 x2 xs6 xs7).1, y ∈ pc.1.set :=
  View.cover_of_tiledL (runC (F := F) c t hc0 hc1 x0 x1 x2 xs6 xs7).1 S256x1500.size (by sl_kernel_rfl) y
theorem coverC4 (hc0 : ¬cond0_0 (grid0.coords t)) (hc1 : cond0_1 (grid0.coords t)) (y : S1x1.Idx) :
    ∃ pc ∈ (runC (F := F) c t hc0 hc1 x0 x1 x2 xs6 xs7).2.1, y ∈ pc.1.set :=
  View.cover_of_tiledL (runC (F := F) c t hc0 hc1 x0 x1 x2 xs6 xs7).2.1 S1x1.size (by sl_kernel_rfl) y
theorem scoverC6 (hc0 : ¬cond0_0 (grid0.coords t)) (hc1 : cond0_1 (grid0.coords t)) (y : S256x1500.Idx) :
    ∃ pc ∈ (runC (F := F) c t hc0 hc1 x0 x1 x2 xs6 xs7).2.2.1, y ∈ pc.1.set :=
  View.cover_of_tiledL (runC (F := F) c t hc0 hc1 x0 x1 x2 xs6 xs7).2.2.1 S256x1500.size (by sl_kernel_rfl) y
theorem scoverC7 (hc0 : ¬cond0_0 (grid0.coords t)) (hc1 : cond0_1 (grid0.coords t)) (y : S1500x1.Idx) :
    ∃ pc ∈ (runC (F := F) c t hc0 hc1 x0 x1 x2 xs6 xs7).2.2.2.1, y ∈ pc.1.set :=
  View.cover_of_tiledL (runC (F := F) c t hc0 hc1 x0 x1 x2 xs6 xs7).2.2.2.1 S1500x1.size (by sl_kernel_rfl) y
end covers

/-! ## What the outputs and the accumulators hold after each point -/

/-- The two outputs' staging buffers and the two accumulators after a point. -/
abbrev Outs (F : FTy → Type) [FloatOps F] : Type := Vec F S256x1500 .f32 × Vec F S1x1 .f32 × Vec F S256x1500 .f32 × Vec F S1500x1 .f32

/-- THE ACCUMULATION, by recursion on the point: the first point resets and adds its tile; every later point adds its
    tile to what the point before left; the last point also stores the outputs. Where an output is not stored
    its component is a placeholder nothing consults. -/
def outsAt0 (c : Dev nD) : (n : ℕ) → n < cfg0.N → Outs F
  | 0, hn =>
    let t : Fin cfg0.N := ⟨0, hn⟩
    (rb3 [], rb4 [],
     rb6 (runA (F := F) c t (c0_of t rfl) (not_c1 t (by show (0 : ℕ) ≠ 27; omega)) (iblk0 V c 0 t) (iblk0 V c 1 t) (iblk0 V c 2 t)).1,
     rb7 (runA (F := F) c t (c0_of t rfl) (not_c1 t (by show (0 : ℕ) ≠ 27; omega)) (iblk0 V c 0 t) (iblk0 V c 1 t) (iblk0 V c 2 t)).2.1)
  | n + 1, hn =>
    let t : Fin cfg0.N := ⟨n + 1, hn⟩
    let p := outsAt0 c n (Nat.lt_of_succ_lt hn)
    if h1 : n + 1 = 27 then
      (rb3 (runC (F := F) c t (not_c0 t (Nat.succ_ne_zero n)) (c1_of t h1) (iblk0 V c 0 t) (iblk0 V c 1 t) (iblk0 V c 2 t) p.2.2.1 p.2.2.2).1,
       rb4 (runC (F := F) c t (not_c0 t (Nat.succ_ne_zero n)) (c1_of t h1) (iblk0 V c 0 t) (iblk0 V c 1 t) (iblk0 V c 2 t) p.2.2.1 p.2.2.2).2.1,
       rb6 (runC (F := F) c t (not_c0 t (Nat.succ_ne_zero n)) (c1_of t h1) (iblk0 V c 0 t) (iblk0 V c 1 t) (iblk0 V c 2 t) p.2.2.1 p.2.2.2).2.2.1,
       rb7 (runC (F := F) c t (not_c0 t (Nat.succ_ne_zero n)) (c1_of t h1) (iblk0 V c 0 t) (iblk0 V c 1 t) (iblk0 V c 2 t) p.2.2.1 p.2.2.2).2.2.2.1)
    else
      (rb3 [], rb4 [],
       rb6 (runB (F := F) c t (not_c0 t (Nat.succ_ne_zero n)) (not_c1 t h1) (iblk0 V c 0 t) (iblk0 V c 1 t) (iblk0 V c 2 t) p.2.2.1 p.2.2.2).1,
       rb7 (runB (F := F) c t (not_c0 t (Nat.succ_ne_zero n)) (not_c1 t h1) (iblk0 V c 0 t) (iblk0 V c 1 t) (iblk0 V c 2 t) p.2.2.1 p.2.2.2).2.1)

/-- What the point before `t` left (for `t` not the first). -/
abbrev prev0 (c : Dev nD) (t : Fin cfg0.N) : Outs F := outsAt0 V c (t.val - 1) (Nat.lt_of_le_of_lt (Nat.sub_le _ _) t.isLt)

theorem outsAt0_A (c : Dev nD) (t : Fin cfg0.N) (h0 : t.val = 0) :
    outsAt0 V c t.val t.isLt = (rb3 [], rb4 [],
      rb6 (runA (F := F) c t (c0_of t h0) (not_c1 t (by omega)) (iblk0 V c 0 t) (iblk0 V c 1 t) (iblk0 V c 2 t)).1,
      rb7 (runA (F := F) c t (c0_of t h0) (not_c1 t (by omega)) (iblk0 V c 0 t) (iblk0 V c 1 t) (iblk0 V c 2 t)).2.1) := by
  obtain ⟨n, hn⟩ := t
  cases n with
  | zero => rfl
  | succ n => exact absurd h0 (Nat.succ_ne_zero n)

theorem outsAt0_B (c : Dev nD) (t : Fin cfg0.N) (h0 : t.val ≠ 0) (h1 : t.val ≠ 27) :
    outsAt0 V c t.val t.isLt = (rb3 [], rb4 [],
      rb6 (runB (F := F) c t (not_c0 t h0) (not_c1 t h1) (iblk0 V c 0 t) (iblk0 V c 1 t) (iblk0 V c 2 t) (prev0 V c t).2.2.1 (prev0 V c t).2.2.2).1,
      rb7 (runB (F := F) c t (not_c0 t h0) (not_c1 t h1) (iblk0 V c 0 t) (iblk0 V c 1 t) (iblk0 V c 2 t) (prev0 V c t).2.2.1 (prev0 V c t).2.2.2).2.1) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 27) :
    outsAt0 V c t.val t.isLt =
     (rb3 (runC (F := F) c t (not_c0 t h0) (c1_of t h1) (iblk0 V c 0 t) (iblk0 V c 1 t) (iblk0 V c 2 t) (prev0 V c t).2.2.1 (prev0 V c t).2.2.2).1,
      rb4 (runC (F := F) c t (not_c0 t h0) (c1_of t h1) (iblk0 V c 0 t) (iblk0 V c 1 t) (iblk0 V c 2 t) (prev0 V c t).2.2.1 (prev0 V c t).2.2.2).2.1,
      rb6 (runC (F := F) c t (not_c0 t h0) (c1_of t h1) (iblk0 V c 0 t) (iblk0 V c 1 t) (iblk0 V c 2 t) (prev0 V c t).2.2.1 (prev0 V c t).2.2.2).2.2.1,
      rb7 (runC (F := F) c t (not_c0 t h0) (c1_of t h1) (iblk0 V c 0 t) (iblk0 V c 1 t) (iblk0 V c 2 t) (prev0 V c t).2.2.1 (prev0 V c t).2.2.2).2.2.2.1) := by
  obtain ⟨n, hn⟩ := t
  cases n with
  | zero => exact absurd rfl h0
  | succ n => exact (dif_pos h1).trans rfl

/-! ## The region invariant -/

/-- The core's scoped buffers that belong to neither this kernel's windows nor its accumulators, each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-- Before position `n`: at the start everything scoped is at anything; afterwards each accumulator is at what the
    point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ others0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 c) ∗ (∃ r, prngReg c r)) := by
  cases n with
  | zero => exact absurd rfl hz
  | succ n => rfl

/-! ## The proof data -/

/-- The region's proof data on core `c`: the arrays as the region finds them; after the body at point `t` each input's
    buffer at its block and each output's at `outsAt0`'s component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' memrefs hold their blocks; the point's position says which case it is in;
    the invariant hands the body the accumulators at what the point before left (at anything at the first point)
    and takes them back at this point's contents; an output the case does not store is handed back untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 28 := lt_of_lt_of_eq t.isLt N0
  by_cases h0 : t.val = 0
  · have h1 : t.val ≠ 27 := by omega
    rw [Dat.leavesExact_idle (dat0 V c) 3 t (idleAt0_3 t (not_c1 t h1)) (noFlush0_3 t (not_c1 t h1)),
      Dat.leavesExact_idle (dat0 V c) 4 t (idleAt0_4 t (not_c1 t h1)) (noFlush0_4 t (not_c1 t h1))]
    rw [outsAt0_A V c t h0]
    (try dsimp only)
    rw [PhiS_castSucc V c t, PhiS_zero V c _ _ h0, PhiA0_eq]
    iintro ⟨⟨⟨HS6, HS7, Hoth⟩, Hg⟩, Ho, ⟨%d0, H0⟩, ⟨%d1, H1⟩, ⟨%d2, H2⟩, ⟨%d3, H3⟩, ⟨%d4, H4⟩⟩
    iapply ((runA (F := F) c t (c0_of t h0) (not_c1 t h1) (iblk0 V c 0 t) (iblk0 V c 1 t) (iblk0 V c 2 t)).2.2 _ _ Set.univ _)
    isplitl [H0]; · iexact H0
    isplitl [H1]; · iexact H1
    isplitl [H2]; · iexact H2
    isplitl [H3]; · iexact H3
    isplitl [H4]; · iexact H4
    isplitl [HS6]; · iexact HS6
    isplitl [HS7]; · iexact HS7
    iintro ⟨H0, H1, H2, H3, H4, ⟨%es6, HS6⟩, ⟨%es7, HS7⟩⟩
    isplitl [HS6 HS7 Hoth Hg]
    · isplitl [HS6 HS7 Hoth]
      · isplitl [HS6]
        · unfold owns; iexists _; isplitr
          swap; · iexact HS6
          ipureintro; exact View.read_writes_of_cover _ _ _ _ _ (scoverA6 c t _ _ _ _ _)
        isplitl [HS7]
        · unfold owns; iexists _; isplitr
          swap; · iexact HS7
          ipureintro; exact View.read_writes_of_cover _ _ _ _ _ (scoverA7 c t _ _ _ _ _)
        iexact Hoth
      iexact Hg
    isplitl [Ho]; · iexact Ho
    isplitl [H0]; · iexact H0
    isplitl [H1]; · iexact H1
    isplitl [H2]; · iexact H2
    isplitl [H3]; · iexists _; iexact H3
    iexists _; iexact H4
  · by_cases h1 : t.val = 27
    · rw [show (dat0 V c).leavesExact 3 t = owns (c : Thread nD τ) (ms0_3 t) fullShare ((dat0 V c).after 3 t) from by
        unfold Dat.leavesExact; rw [liveAt0_3 t (c1_of t h1)], after0_3]
      rw [show (dat0 V c).leavesExact 4 t = owns (c : Thread nD τ) (ms0_4 t) fullShare ((dat0 V c).after 4 t) from by
        unfold Dat.leavesExact; rw [liveAt0_4 t (c1_of t h1)], after0_4]
      rw [outsAt0_C V c t h0 h1]
      (try dsimp only)
      rw [PhiS_castSucc V c t, PhiS_pos V c _ _ h0]
      iintro ⟨⟨⟨HS6, HS7, Hoth⟩, Hg⟩, Ho, ⟨%d0, H0⟩, ⟨%d1, H1⟩, ⟨%d2, H2⟩, ⟨%d3, H3⟩, ⟨%d4, H4⟩⟩
      iapply ((runC (F := F) c t (not_c0 t h0) (c1_of t h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS6]; · iexact HS6
      isplitl [HS7]; · iexact HS7
      iintro ⟨H0, H1, H2, ⟨%e3, H3⟩, ⟨%e4, H4⟩, ⟨%es6, HS6⟩, ⟨%es7, HS7⟩⟩
      isplitl [HS6 HS7 Hoth Hg]
      · isplitl [HS6 HS7 Hoth]
        · isplitl [HS6]
          · unfold owns; iexists _; isplitr
            swap; · iexact HS6
            ipureintro; exact View.read_writes_of_cover _ _ _ _ _ (scoverC6 c t _ _ _ _ _ _ _)
          isplitl [HS7]
          · unfold owns; iexists _; isplitr
            swap; · iexact HS7
            ipureintro; exact View.read_writes_of_cover _ _ _ _ _ (scoverC7 c t _ _ _ _ _ _ _)
          iexact Hoth
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC3 c t _ _ _ _ _ _ _)
      unfold owns; iexists _; isplitr
      swap; · iexact H4
      ipureintro; exact View.read_writes_of_cover _ _ _ _ _ (coverC4 c t _ _ _ _ _ _ _)
    · rw [Dat.leavesExact_idle (dat0 V c) 3 t (idleAt0_3 t (not_c1 t h1)) (noFlush0_3 t (not_c1 t h1)),
        Dat.leavesExact_idle (dat0 V c) 4 t (idleAt0_4 t (not_c1 t h1)) (noFlush0_4 t (not_c1 t h1))]
      rw [outsAt0_B V c t h0 h1]
      (try dsimp only)
      rw [PhiS_castSucc V c t, PhiS_pos V c _ _ h0]
      iintro ⟨⟨⟨HS6, HS7, Hoth⟩, Hg⟩, Ho, ⟨%d0, H0⟩, ⟨%d1, H1⟩, ⟨%d2, H2⟩, ⟨%d3, H3⟩, ⟨%d4, H4⟩⟩
      iapply ((runB (F := F) c t (not_c0 t h0) (not_c1 t h1) (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS6]; · iexact HS6
      isplitl [HS7]; · iexact HS7
      iintro ⟨H0, H1, H2, H3, H4, ⟨%es6, HS6⟩, ⟨%es7, HS7⟩⟩
      isplitl [HS6 HS7 Hoth Hg]
      · isplitl [HS6 HS7 Hoth]
        · isplitl [HS6]
          · unfold owns; iexists _; isplitr
            swap; · iexact HS6
            ipureintro; exact View.read_writes_of_cover _ _ _ _ _ (scoverB6 c t _ _ _ _ _ _ _)
          isplitl [HS7]
          · unfold owns; iexists _; isplitr
            swap; · iexact HS7
            ipureintro; exact View.read_writes_of_cover _ _ _ _ _ (scoverB7 c t _ _ _ _ _ _ _)
          iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS6, HS7, Hoth⟩, Hg⟩
  isplitl [HS6 HS7 Hoth]
  · isplitl [HS6]; · iexists _; iexact HS6
    isplitl [HS7]; · iexists _; iexact HS7
    iexact Hoth
  iexact Hg

theorem hout0 (c : Dev nD) : (dat0 V c).Φ (Fin.last cfg0.N) ⊢ Pipeline.ΦA spec0 c :=
  Phi_out V c _ (by rw [Fin.val_last]; have : cfg0.N = 28 := N0; omega)

end Cert.KernelIdeal.Enc

end
-- ==== Proof.Dec.lean ====
import proofs.«151767_j39745627357481_1_alg».proof.Proof.Gen.KernelIdeal.Launch
import proofs.«151767_j39745627357481_1_alg».proof.Proof.Gen.KernelIdeal.Skeleton
import proofs.«151767_j39745627357481_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The decoder call, at any contents of the core's buffers when it is entered

The second TensorCore call of the program runs over 28 grid points. At point t it is handed the whole
encoder output (256 x 1500, the same block at every point), rows 1024 t .. 1024 t + 1023 of the padded decoder
weight (28672 x 1500), columns 1024 t .. 1024 t + 1023 of the padded bias row (1 x 28672), and the matching
256 x 1024 column tile of the padded output, which is written back after every point. The body loads the three
inputs whole, multiplies, adds the bias, applies the logistic function, and stores the tile whole.

This file states, for arbitrary contents V of the buffers at entry: each window's block at a point; what the
one store leaves in the output tile as a function of the three input blocks; the body's triple; the proof data
of the pipeline; and the body obligation at every point. -/

-- membership in a rectangle of these extents is checked coordinate by coordinate
set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The encoder output's staging buffer holds the whole array at every point, although it is fetched at the first
    point only: where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight tile's staging buffer holds row block t at point t. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The bias tile's staging buffer holds column block t at point t. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S256x1500 := Rect.unit (s := S256x1500) ![0, 0] S256x1500.size inb_S256x1500_S256x1500_0_0
abbrev r1_1 : Rect S1024x1500 := Rect.unit (s := S1024x1500) ![0, 0] S1024x1500.size inb_S1024x1500_S1024x1500_0_0
abbrev r1_2 : Rect S1x1024 := Rect.unit (s := S1x1024) ![0, 0] S1x1024.size inb_S1x1024_S1x1024_0_0
abbrev r1_3 : Rect S256x1024 := Rect.unit (s := S256x1024) ![0, 0] S256x1024.size inb_S256x1024_S256x1024_0_0

/-! ## What the body leaves in the output tile -/

/-- The output tile after the body, from the three input blocks: its one store, of the logistic of the product
    plus the bias row. -/
def out1_3 (x0 : Vec F S256x1500 .f32) (x1 : Vec F S1024x1500 .f32) (x2 : Vec F S1x1024 .f32) : Vec F S256x1024 .f32 :=
  View.canon [⟨r1_3, k1_pay1 (View.ld x0 r1_0) (View.ld x1 r1_1) (View.ld x2 r1_2)⟩]

/-- The one store is of the whole tile, so it covers it. -/
theorem cover1_3 (p0 : Vec F S256x1024 .f32) (y : S256x1024.Idx) :
    ∃ pc ∈ ([⟨r1_3, p0⟩] : List (View.Piece (Elt F) S256x1024 .f32)), y ∈ pc.1.set :=
  View.cover_of_tiled [⟨r1_3, p0⟩] S256x1024.size (by rfl) y

/-! ## The body's triple -/

set_option maxHeartbeats 1000000 in
/-- The body on whole staging memrefs, the inputs' at contents x0 x1 x2 and the output's at anything, runs to the
    continuation holding the inputs' as they were and the output's at out1_3 of them. -/
theorem sound_kernel1 (c : Dev nD) (E : Set ℕ) (i : grid1.Coords)
    (arg0 : Memref sig .tc .vmem S256x1500 .f32) (harg0 : arg0.IsWhole) (arg1 : Memref sig .tc .vmem S1024x1500 .f32) (harg1 : arg1.IsWhole)
    (arg2 : Memref sig .tc .vmem S1x1024 .f32) (harg2 : arg2.IsWhole) (arg3 : Memref sig .tc .vmem S256x1024 .f32) (harg3 : arg3.IsWhole)
    (x0 : Vec F S256x1500 .f32) (x1 : Vec F S1024x1500 .f32) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__decoder_kernel i arg0 harg0 arg1 harg1 arg2 harg2 arg3 harg3) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the decoder pipeline on core c: the arrays as the call finds them; after the body at point t
    each input's buffer at its block and the output's at out1_3 of the three input blocks; the invariant that of a
    body touching nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant is the same at every point. -/
theorem Φ_eq1 (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Dec

end
-- ==== Proof.RunIdeal.lean ====
/- The run of @main from the launch to the return, as thirteen segments: five host stretches, the encoder's
   region, five host stretches, the decoder's region, and the closing host stretch. The buffer contents at every
   segment boundary are a fold from the launch memory (`W0` … `W13`): a host stretch maps the contents through
   `StableHlo.after`; a region leaves each of its windows' arrays at what its write-backs fold to and every other
   buffer as entered. The thread state between two segments is "every unscoped buffer whole at the boundary's
   contents, the generator register at some state, nothing owed". From the segments the launch theorem gives: every
   weakly fair execution terminates and the final memory holds `W13` at every unscoped buffer. The arguments are
   read back through the fold to the launch memory (no host operation writes one and no region's window is one). -/
import proofs.«151767_j39745627357481_1_alg».proof.Proof.Enc
import proofs.«151767_j39745627357481_1_alg».proof.Proof.Dec
import proofs.«151767_j39745627357481_1_alg».proof.Proof.Gen.KernelIdeal.Launch
import proofs.«151767_j39745627357481_1_alg».proof.Proof.Gen.KernelIdeal.Skeleton
import proofs.«151767_j39745627357481_1_alg».proof.Proof.Gen.KernelIdeal.Points
import proofs.«151767_j39745627357481_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4` (the encoder region's entry). -/
abbrev W5 : Dev nD → Valuation τ sig (Elt F) := fun c => StableHlo.after hostOps0_4 (W4 m ρ c)
/-- The same read at the TensorCore's references: what the encoder region's proof data take. -/
abbrev Vin0 : (c : Dev nD) → (b : Ref sig .tc) → Buf (Elt F) ((c : Thread nD τ).loc b) := fun c b => W5 m ρ c b
/-- At the encoder region's exit: its windows' arrays at what the pipeline leaves (an input as entered, an output at
    its write-backs folded: `Dat.arrAt … N`), every other buffer as entered. -/
def W6 (c : Dev nD) : Valuation τ sig (Elt F) :=
  Pipeline.withArrays spec0 c (W5 m ρ c) fun w => (Enc.dat0 (Vin0 m ρ) c).arrAt w cfg0.N
theorem W6_arr (c : Dev nD) (w : Fin cfg0.W) :
    W6 m ρ c (Proc.devRef .tc (Pipeline.arrRef spec0 w)) = (Enc.dat0 (Vin0 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (the encoder region's exit contents). -/
abbrev Vout0 : (c : Dev nD) → (b : Ref sig .tc) → Buf (Elt F) ((c : Thread nD τ).loc b) := fun c b => W6 m ρ c b
/-- At the exit each array holds what the pipeline leaves and every other buffer what it held at entry. -/
theorem hF0 (c : Dev nD) (w : Fin cfg0.W) : (Enc.dat0 (Vin0 m ρ) c).arrAt w cfg0.N = Vout0 m ρ c (Pipeline.arrRef spec0 w) :=
  (W6_arr m ρ c w).symm
theorem hrest0 (c : Dev nD) : ∀ b, b ∉ Finset.univ.image (Pipeline.arrRef spec0) → Vout0 m ρ c b = Vin0 m ρ c b :=
  fun b hb => W6_of_ne m ρ c b fun w e => hb (Finset.mem_image.mpr ⟨w, Finset.mem_univ _, e⟩)
/-- After `hostOps1`. -/
abbrev W7 : Dev nD → Valuation τ sig (Elt F) := fun c => StableHlo.after hostOps1 (W6 m ρ c)
/-- After `hostOps1_1`. -/
abbrev W8 : Dev nD → Valuation τ sig (Elt F) := fun c => StableHlo.after hostOps1_1 (W7 m ρ c)
/-- After `hostOps1_2`. -/
abbrev W9 : Dev nD → Valuation τ sig (Elt F) := fun c => StableHlo.after hostOps1_2 (W8 m ρ c)
/-- After `hostOps1_3`. -/
abbrev W10 : Dev nD → Valuation τ sig (Elt F) := fun c => StableHlo.after hostOps1_3 (W9 m ρ c)
/-- After `hostOps1_4` (the decoder region's entry). -/
abbrev W11 : Dev nD → Valuation τ sig (Elt F) := fun c => StableHlo.after hostOps1_4 (W10 m ρ c)
/-- The same read at the TensorCore's references: what the decoder region's proof data take. -/
abbrev Vin1 : (c : Dev nD) → (b : Ref sig .tc) → Buf (Elt F) ((c : Thread nD τ).loc b) := fun c b => W11 m ρ c b
/-- At the decoder region's exit: its windows' arrays at what the pipeline leaves, every other buffer as entered. -/
def W12 (c : Dev nD) : Valuation τ sig (Elt F) :=
  Pipeline.withArrays spec1 c (W11 m ρ c) fun w => (Dec.dat1 (Vin1 m ρ) c).arrAt w cfg1.N
theorem W12_arr (c : Dev nD) (w : Fin cfg1.W) :
    W12 m ρ c (Proc.devRef .tc (Pipeline.arrRef spec1 w)) = (Dec.dat1 (Vin1 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- The same read at the TensorCore's references (the decoder region's exit contents). -/
abbrev Vout1 : (c : Dev nD) → (b : Ref sig .tc) → Buf (Elt F) ((c : Thread nD τ).loc b) := fun c b => W12 m ρ c b
theorem hF1 (c : Dev nD) (w : Fin cfg1.W) : (Dec.dat1 (Vin1 m ρ) c).arrAt w cfg1.N = Vout1 m ρ c (Pipeline.arrRef spec1 w) :=
  (W12_arr m ρ c w).symm
theorem hrest1 (c : Dev nD) : ∀ b, b ∉ Finset.univ.image (Pipeline.arrRef spec1) → Vout1 m ρ c b = Vin1 m ρ c b :=
  fun b hb => W12_of_ne m ρ c b fun w e => hb (Finset.mem_image.mpr ⟨w, Finset.mem_univ _, e⟩)
/-- After `hostOps2` (the return). -/
abbrev W13 : Dev nD → Valuation τ sig (Elt F) := fun c => StableHlo.after hostOps2 (W12 m ρ c)

/-! ### What a host stretch leaves unchanged: every buffer none of its operations writes -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
theorem W8_of (c : Dev nD) (r : Ref sig .tc) (h : r ∉ hostOps1_1_W) :
    W8 m ρ c (Proc.devRef .tc r) = W7 m ρ c (Proc.devRef .tc r) :=
  StableHlo.after_of_writes_sub hostOps1_1 _ hostOps1_1_writes h
theorem W9_of (c : Dev nD) (r : Ref sig .tc) (h : r ∉ hostOps1_2_W) :
    W9 m ρ c (Proc.devRef .tc r) = W8 m ρ c (Proc.devRef .tc r) :=
  StableHlo.after_of_writes_sub hostOps1_2 _ hostOps1_2_writes h
theorem W10_of (c : Dev nD) (r : Ref sig .tc) (h : r ∉ hostOps1_3_W) :
    W10 m ρ c (Proc.devRef .tc r) = W9 m ρ c (Proc.devRef .tc r) :=
  StableHlo.after_of_writes_sub hostOps1_3 _ hostOps1_3_writes h
theorem W11_of (c : Dev nD) (r : Ref sig .tc) (h : r ∉ hostOps1_4_W) :
    W11 m ρ c (Proc.devRef .tc r) = W10 m ρ c (Proc.devRef .tc r) :=
  StableHlo.after_of_writes_sub hostOps1_4 _ hostOps1_4_writes h
theorem W13_of (c : Dev nD) (r : Ref sig .tc) (h : r ∉ hostOps2_W) :
    W13 m ρ c (Proc.devRef .tc r) = W12 m ρ c (Proc.devRef .tc r) :=
  StableHlo.after_of_writes_sub hostOps2 _ hostOps2_writes h

/-! ### The arguments end as launched: no host operation writes one and no region's window is one, so the fold at
    an argument's buffer walks back to the launch memory -/

theorem W13_main_arg0 (c : Dev nD) : W13 m ρ c (Proc.devRef .tc main_arg0) = m ((c : Thread nD τ).loc main_arg0) :=
  (W13_of m ρ c main_arg0 (by decide)).trans <| (W12_of_ne m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of_ne m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W13_main_arg1 (c : Dev nD) : W13 m ρ c (Proc.devRef .tc main_arg1) = m ((c : Thread nD τ).loc main_arg1) :=
  (W13_of m ρ c main_arg1 (by decide)).trans <| (W12_of_ne m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of_ne m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W13_main_arg2 (c : Dev nD) : W13 m ρ c (Proc.devRef .tc main_arg2) = m ((c : Thread nD τ).loc main_arg2) :=
  (W13_of m ρ c main_arg2 (by decide)).trans <| (W12_of_ne m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of_ne m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W13_main_arg3 (c : Dev nD) : W13 m ρ c (Proc.devRef .tc main_arg3) = m ((c : Thread nD τ).loc main_arg3) :=
  (W13_of m ρ c main_arg3 (by decide)).trans <| (W12_of_ne m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of_ne m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W13_main_arg4 (c : Dev nD) : W13 m ρ c (Proc.devRef .tc main_arg4) = m ((c : Thread nD τ).loc main_arg4) :=
  (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of_ne m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl

/-! ### What the regions are entered with and what @main returns -/

/-- The results: the slice of the decoder's output and the reshaped norm scalar, read off the decoder region's exit. -/
theorem W13_main_v8 (c : Dev nD) : W13 m ρ c (Proc.devRef .tc main_v8) = StableHlo.after hostOps2 (W12 m ρ c) (Proc.devRef .tc main_v8) := rfl
theorem W13_main_v9 (c : Dev nD) : W13 m ρ c (Proc.devRef .tc main_v9) = StableHlo.after hostOps2 (W12 m ρ c) (Proc.devRef .tc main_v9) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => Enc.dat0 (Vin0 m ρ) c
  | ⟨1, _⟩ => fun c => Dec.dat1 (Vin1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its post is
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-- The closing stretch's post is the last thread state beside the core owing nothing (the separating conjunction
    reassociated). -/
theorem last_chain (c : Dev nD) :
    (iprop(StableHlo.held (c : Thread nD τ) (Pipeline.ucRefs τ sig) (W13 m ρ c) ∗ (∃ r, prngReg c r) ∗ ∃ W, owes (c : Thread nD τ) (0 : CellTallies nD τ sig Unit) W) : sProp 𝕄)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

/-! ## The regions as segments -/

-- a library lemma stated over the pinned configuration unifies with the printed one only when unification may
-- unfold plain definitions in a metavariable's type
set_option backward.isDefEq.respectTransparency.types false in
/-- REGION 0 over the thread state: entered from every unscoped buffer at `W5`, left at `W6`. Its arrays
    are split out of the unscoped buffers and put back at the exit contents; the generator register and the scoped
    buffers no window stages go into the pipeline's invariant at the first point and come back from it at the last;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation0 (Vin0 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => Enc.A_eq0 (Vin0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Enc.hin0 (Vin0 m ρ) c)
    unfold Pipeline.ΦA
    iintro ⟨Hp, -, Hr⟩
    isplitl [Hr]; · iexact Hr
    iexact Hp
  hout c := by
    rw [Pipeline.ownSems0_none]
    refine BIBase.Entails.trans (Enc.hout0 (Vin0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W11`, left at `W12`. Its arrays
    are split out of the unscoped buffers and put back at the exit contents; the generator register and the scoped
    buffers no window stages go into the pipeline's invariant at the first point and come back from it at the last;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation1 (Vin1 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => Dec.A_eq1 (Vin1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Dec.Φ_eq1 (Vin1 m ρ) c _]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Dec.Φ_eq1 (Vin1 m ρ) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .host (hseg hostOps1_3 hostOps1_3_sub hostOps1_3_fresh (W9 m ρ)),
    .host (hseg hostOps1_4 hostOps1_4_sub hostOps1_4_fresh (W10 m ρ)),
    .region (reg1 m ρ),
    .host (hseg hostOps2 hostOps2_sub hostOps2_fresh (W12 m ρ)) ]
/-- @main IS the run of the segments: it is the chain of its items, and the segments' run is the chain of their
    fragments, which are those items one by one. -/
theorem main_run (c : Dev nD) : main (F := F) c = Pipeline.Seg.run (segs m ρ) := by
  rw [main_chain c, Pipeline.Seg.run_eq_chain]
  exact congrArg Pipeline.chain (show _ = (segs m ρ).map Pipeline.Seg.prog from rfl)

-- the launch theorem's implicit arguments are found by unifying its conclusion with this one, which takes unfolding
-- plain definitions in a metavariable's type
set_option backward.isDefEq.respectTransparency.types false in
/-- THE RUN, at any post that follows from the last boundary's contents: at the compiled mesh, from any memory with
    zero counters, every weakly fair execution of @main on the TensorCores terminates, nothing faulting, and every
    final memory holds `W13` at every unscoped buffer. -/
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

/-- THE RUN: every final memory holds `W13` at every unscoped buffer. -/
theorem run_all : θ_run defs (onTc (τ := τ) (main (F := F))) ⟨m, fun _ => 0, ρ⟩
    (fun r => ∀ c : Dev nD, ∀ b ∈ Pipeline.ucRefs τ sig, r.2.mem ((c : Thread nD τ).1, b) = W13 m ρ c b) :=
  run_post m ρ fun _ h => h

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c)⟩

end Cert.KernelIdeal.Run

end
-- ==== Proof.RunValues.lean ====
/- What the two regions are entered with and what @main returns, as terms of the launch memory: each of the
   encoder's input arrays is a host operation's value of an argument (the zero padding of the activations and of the
   encoder's weights from 28224 to 28672 columns, the bias as a row); the decoder's are the encoder's first output as the
   encoder region leaves it, the zero padding of the decoder's weights and the padded bias as a row; the results are
   the first 28224 columns of the decoder's output and the encoder's second output as a scalar. -/
import proofs.«151767_j39745627357481_1_alg».proof.Proof.RunIdeal

noncomputable section

namespace Cert.KernelIdeal.Run

open Idealize.ShloMosaic Idealize.ShloMosaic.TcCoe Idealize.ShloMosaic.Tactic
open Idealize.SL Idealize.SL.Sem
open Idealize.ShloMosaic.StableHlo
open Cert.KernelIdeal.Gen

variable {F : FTy → Type} [FloatOps F]
variable (m : (ℓ : Loc nD τ sig) → Buf (Elt F) ℓ) (ρ : Dev nD → PrngReg)

/-! ## The encoder region's entry -/

/-- The activations, zero-padded from 28224 to 28672 columns. -/
theorem Vin0_main_v0 (c : Dev nD) : Vin0 m ρ c main_v0
    = pad S256x28672 ![0, 0] ![0, 448] ![0, 0] (m ((c : Thread nD τ).loc main_arg0)) (sitofp .f32 (constantI S_ 32 0#32)) pads_S256x28224_S256x28672_000_04480 h_S_ := by
  show W5 m ρ c (Proc.devRef .tc main_v0) = _
  after_results
  rfl

/-- The encoder's weights, zero-padded from 28224 to 28672 columns. -/
theorem Vin0_main_v1 (c : Dev nD) : Vin0 m ρ c main_v1
    = pad S1500x28672 ![0, 0] ![0, 448] ![0, 0] (m ((c : Thread nD τ).loc main_arg1)) (sitofp .f32 (constantI S_ 32 0#32)) pads_S1500x28224_S1500x28672_000_04480 h_S_ := by
  show W5 m ρ c (Proc.devRef .tc main_v1) = _
  after_results
  rfl

/-- The encoder's bias as a row. -/
theorem Vin0_main_v2 (c : Dev nD) : Vin0 m ρ c main_v2
    = shapeCast S1x1500 (m ((c : Thread nD τ).loc main_arg2)) shapeCasts_S1500_S1x1500 := by
  show W5 m ρ c (Proc.devRef .tc main_v2) = _
  after_results
  rfl

/-! ## The decoder region's entry -/

/-- An argument reaches the decoder's host stretches as launched. -/
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl

/-- The encoder's first output (the hidden activations), as the encoder region leaves it. -/
theorem Vin1_main_v3_0 (c : Dev nD) : Vin1 m ρ c main_v3_0 = (Enc.dat0 (Vin0 m ρ) c).arrAt 3 cfg0.N :=
  (W11_of m ρ c main_v3_0 (by decide)).trans <| (W10_of m ρ c main_v3_0 (by decide)).trans <| (W9_of m ρ c main_v3_0 (by decide)).trans <| (W8_of m ρ c main_v3_0 (by decide)).trans <| (W7_of m ρ c main_v3_0 (by decide)).trans <| W6_arr m ρ c 3

/-- The decoder's weights, zero-padded from 28224 to 28672 rows. -/
theorem Vin1_main_v4 (c : Dev nD) : Vin1 m ρ c main_v4
    = pad S28672x1500 ![0, 0] ![448, 0] ![0, 0] (m ((c : Thread nD τ).loc main_arg3)) (sitofp .f32 (constantI S_ 32 0#32)) pads_S28224x1500_S28672x1500_04480_000 h_S_ := by
  show W11 m ρ c (Proc.devRef .tc main_v4) = _
  after_results
  rw [show W6 m ρ c (Proc.devRef .tc main_arg3) = m ((c : Thread nD τ).loc main_arg3) from W6_main_arg3 m ρ c]
  rfl

/-- The decoder's bias, zero-padded from 28224 to 28672 entries, as a row. -/
theorem Vin1_main_v6 (c : Dev nD) : Vin1 m ρ c main_v6
    = shapeCast S1x28672 (pad S28672 ![0] ![448] ![0] (m ((c : Thread nD τ).loc main_arg4)) (sitofp .f32 (constantI S_ 32 0#32)) pads_S28224_S28672_04480 h_S_) shapeCasts_S28672_S1x28672 := by
  show W11 m ρ c (Proc.devRef .tc main_v6) = _
  after_results
  rw [show W6 m ρ c (Proc.devRef .tc main_arg4) = m ((c : Thread nD τ).loc main_arg4) from W6_main_arg4 m ρ c]
  rfl

/-! ## The results -/

/-- The decoder's output as the decoder region leaves it. -/
theorem W12_main_v7 (c : Dev nD) : W12 m ρ c (Proc.devRef .tc main_v7) = (Dec.dat1 (Vin1 m ρ) c).arrAt 3 cfg1.N :=
  W12_arr m ρ c 3
/-- The encoder's second output (the norm scalar, as a 1×1 array) is not touched after the encoder region. -/
theorem W12_main_v3_1 (c : Dev nD) : W12 m ρ c (Proc.devRef .tc main_v3_1) = (Enc.dat0 (Vin0 m ρ) c).arrAt 4 cfg0.N :=
  (W12_of_ne m ρ c main_v3_1 (by decide)).trans <| (W11_of m ρ c main_v3_1 (by decide)).trans <| (W10_of m ρ c main_v3_1 (by decide)).trans <| (W9_of m ρ c main_v3_1 (by decide)).trans <| (W8_of m ρ c main_v3_1 (by decide)).trans <| (W7_of m ρ c main_v3_1 (by decide)).trans <| W6_arr m ρ c 4

/-- The first result: the first 28224 columns of the decoder's output. -/
theorem W13_main_v8_eq (c : Dev nD) : W13 m ρ c (Proc.devRef .tc main_v8)
    = extractStridedSlice S256x28224 ![0, 0] ((Dec.dat1 (Vin1 m ρ) c).arrAt 3 cfg1.N) slices_S256x28672_S256x28224_0_0 := by
  show StableHlo.after hostOps2 (W12 m ρ c) (Proc.devRef .tc main_v8) = _
  after_results
  rw [W12_main_v7 m ρ c]

/-- The second result: the encoder's second output as a scalar. -/
theorem W13_main_v9_eq (c : Dev nD) : W13 m ρ c (Proc.devRef .tc main_v9)
    = shapeCast S_ ((Enc.dat0 (Vin0 m ρ) c).arrAt 4 cfg0.N) shapeCasts_S1x1_S_ := by
  show StableHlo.after hostOps2 (W12 m ρ c) (Proc.devRef .tc main_v9) = _
  after_results
  rw [W12_main_v3_1 m ρ c]
  rfl

end Cert.KernelIdeal.Run

end
-- ==== Proof.RunResults.lean ====
/- The run with its results named: every final memory holds the two results at their terms of the launch memory
   — the first 28224 columns of the decoder's output as the decoder region leaves it, and the encoder's second
   output as a scalar — and the argument arrays as launched. From the run's last boundary contents, read at the two
   result buffers and at the five arguments. -/
import proofs.«151767_j39745627357481_1_alg».proof.Proof.RunValues

noncomputable section

namespace Cert.KernelIdeal.Run

open Idealize.ShloMosaic Idealize.ShloMosaic.TcCoe
open Idealize.SL Idealize.SL.Sem
open Cert.KernelIdeal.Gen

variable {F : FTy → Type} [FloatOps F]
variable (m : (ℓ : Loc nD τ sig) → Buf (Elt F) ℓ) (ρ : Dev nD → PrngReg)

/-- THE RUN, results and frame: at the compiled mesh, from any memory with zero counters, every weakly fair
    execution of @main on the TensorCores terminates, nothing faulting, and every final memory holds the two results
    at their terms of the launch memory and the argument arrays as launched. -/
theorem results : θ_run defs (onTc (τ := τ) (main (F := F))) ⟨m, fun _ => 0, ρ⟩ (fun r => ∀ c : Dev nD,
      r.2.mem ((c.tc : Thread nD τ).loc main_v8)
        = extractStridedSlice S256x28224 ![0, 0] ((Dec.dat1 (Vin1 m ρ) c).arrAt 3 cfg1.N) slices_S256x28672_S256x28224_0_0
      ∧ r.2.mem ((c.tc : Thread nD τ).loc main_v9) = shapeCast S_ ((Enc.dat0 (Vin0 m ρ) c).arrAt 4 cfg0.N) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_v8 (by decide))).trans (W13_main_v8_eq m ρ c),
     (h c _ (mem_uc main_v9 (by decide))).trans (W13_main_v9_eq m ρ c),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c)⟩

end Cert.KernelIdeal.Run

end
-- ==== Proof.Spec.lean ====
/-
  THE SPECIFICATION: the two results of the autoencoder as textbook functions of the five argument arrays, index by
  index, on the extended reals (a float an extended real, every operation its textbook one).

    pre  x We be (b, f)   = (∑ k < 28224, x[b, k] · We[f, k]) + be[f]
    yEnc x We be (b, f)   = logistic (pre (b, f))                         logistic z = 1 / (1 + e^(−z))
    rowNorm2 We f         = ∑ k < 28224, We[f, k] · We[f, k]
    s2   x We be (b, f)   = (y · (1 − y)) · (y · (1 − y)),   y = yEnc (b, f)
    jac  x We be          = ∑ b < 256, ∑ f < 1500, s2 (b, f) · rowNorm2 f
    yOut x We be Wd bd (b, i) = logistic ((∑ f < 1500, yEnc (b, f) · Wd[i, f]) + bd[i])

  Indices are built from their coordinates (ix1, ix2) over literal shapes, so that every program's own shape
  abbreviations unify with them. No program module is imported.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes (literal, reducible) -/

/-- The input batch `x`: 256 rows of 28224 features. -/
abbrev Sx : Shape := ⟨2, ![256, 28224]⟩
/-- The encoder weights `We`: 1500 rows of 28224. -/
abbrev SWe : Shape := ⟨2, ![1500, 28224]⟩
/-- The encoder bias `be`. -/
abbrev Sbe : Shape := ⟨1, ![1500]⟩
/-- The decoder weights `Wd`: 28224 rows of 1500. -/
abbrev SWd : Shape := ⟨2, ![28224, 1500]⟩
/-- The decoder bias `bd`. -/
abbrev Sbd : Shape := ⟨1, ![28224]⟩
/-- The code layer: 256 rows of 1500. -/
abbrev Senc : Shape := ⟨2, ![256, 1500]⟩

/-! ## The functions -/

/-- The encoder's pre-activation: `x · Weᵀ + be`. -/
def pre (x : Sx.Idx → EReal) (We : SWe.Idx → EReal) (be : Sbe.Idx → EReal) : Senc.Idx → EReal :=
  fun j => (∑ k : Fin 28224, x (ix2 (n0 := 256) (j 0) k) * We (ix2 (n0 := 1500) (j 1) k)) + be (ix1 (n := 1500) (j 1))

/-- The code: the logistic function of the pre-activation. -/
def yEnc (x : Sx.Idx → EReal) (We : SWe.Idx → EReal) (be : Sbe.Idx → EReal) : Senc.Idx → EReal :=
  fun j => Ideal.logistic (pre x We be j)

/-- The squared Euclidean norm of each row of the encoder weights. -/
def rowNorm2 (We : SWe.Idx → EReal) : Sbe.Idx → EReal :=
  fun f => ∑ k : Fin 28224, We (ix2 (n0 := 1500) (f 0) k) * We (ix2 (n0 := 1500) (f 0) k)

/-- The square of the logistic function's derivative at the pre-activation: `(y (1 − y))²`. -/
def s2 (x : Sx.Idx → EReal) (We : SWe.Idx → EReal) (be : Sbe.Idx → EReal) : Senc.Idx → EReal :=
  fun j => (yEnc x We be j * (1 - yEnc x We be j)) * (yEnc x We be j * (1 - yEnc x We be j))

/-- The contractive term: the squared Frobenius norm of the encoder's Jacobian, summed over the batch. -/
def jac (x : Sx.Idx → EReal) (We : SWe.Idx → EReal) (be : Sbe.Idx → EReal) : EReal :=
  ∑ b : Fin 256, ∑ f : Fin 1500, s2 x We be (ix2 b f) * rowNorm2 We (ix1 f)

/-- The reconstruction: the logistic function of `yEnc · Wdᵀ + bd`. -/
def yOut (x : Sx.Idx → EReal) (We : SWe.Idx → EReal) (be : Sbe.Idx → EReal) (Wd : SWd.Idx → EReal) (bd : Sbd.Idx → EReal) :
    Sx.Idx → EReal :=
  fun i => Ideal.logistic ((∑ f : Fin 1500, yEnc x We be (ix2 (n0 := 256) (i 0) f) * Wd (ix2 (n0 := 28224) (i 1) f))
    + bd (ix1 (n := 28224) (i 1)))

/-! ## The functions at an index given by its coordinates (all by unfolding) -/

section AtCoords
variable (x : Sx.Idx → EReal) (We : SWe.Idx → EReal) (be : Sbe.Idx → EReal) (Wd : SWd.Idx → EReal) (bd : Sbd.Idx → EReal)

theorem pre_ix2 (b : Fin 256) (f : Fin 1500) :
    pre x We be (ix2 b f) = (∑ k : Fin 28224, x (ix2 b k) * We (ix2 f k)) + be (ix1 f) := rfl

theorem yEnc_ix2 (b : Fin 256) (f : Fin 1500) :
    yEnc x We be (ix2 b f) = Ideal.logistic ((∑ k : Fin 28224, x (ix2 b k) * We (ix2 f k)) + be (ix1 f)) := rfl

theorem yEnc_eq (j : Senc.Idx) : yEnc x We be j = Ideal.logistic (pre x We be j) := rfl

theorem rowNorm2_ix1 (f : Fin 1500) :
    rowNorm2 We (ix1 f) = ∑ k : Fin 28224, We (ix2 f k) * We (ix2 f k) := rfl

theorem s2_eq (j : Senc.Idx) :
    s2 x We be j = (yEnc x We be j * (1 - yEnc x We be j)) * (yEnc x We be j * (1 - yEnc x We be j)) := rfl

theorem jac_eq :
    jac x We be = ∑ b : Fin 256, ∑ f : Fin 1500, s2 x We be (ix2 b f) * rowNorm2 We (ix1 f) := rfl

theorem yOut_ix2 (b : Fin 256) (i : Fin 28224) :
    yOut x We be Wd bd (ix2 b i)
      = Ideal.logistic ((∑ f : Fin 1500, yEnc x We be (ix2 b f) * Wd (ix2 i f)) + bd (ix1 i)) := rfl

end AtCoords

/-! ## The one float constant the programs spell besides zero -/

/-- The pattern of `1.0` denotes the extended real `1`. -/
theorem ofBits_one_f32 : Ideal.ofBits .f32 0x3F800000#32 = 1 := by
  simp [Ideal.ofBits, Ideal.ieee, -EReal.coe_mul]; norm_num

end Cert.Spec

end
-- ==== Proof.RefIsSpec.lean ====
/-
  THE REFERENCE IS THE SPECIFICATION. Read at the extended reals, stage by stage and index by index, the reference's
  operations compute the textbook functions of its own five argument arrays:
    · the contraction over the 28224 features plus the broadcast bias is the pre-activation;
    · negate, exponential, add one, divide one by the result is the logistic function, so the code layer is yEnc;
    · one minus the code, times the code, squared, is s2; the row sums of the squared weights, broadcast along the
      batch, are rowNorm2;
    · the sum over both axes at once, a sum over the index pairs, is the iterated sum over the batch and the code
      coordinates (addition is commutative and associative on the extended reals; nothing is assumed finite);
    · the decoder's contraction over the 1500 code coordinates plus bias, through the logistic function, is yOut.
  The index functions of the broadcasts and contractions are the coordinate constructors ix1 / ix2 at the
  coordinates of the output index; the patterns of 1.0 and 0.0 denote 1 and 0.
-/
import proofs.«151767_j39745627357481_1_alg».proof.Proof.Spec
import proofs.«151767_j39745627357481_1_alg».proof.Proof.Gen.ReferenceIdeal.Read

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## The stages, as functions of the argument arrays -/

section Stages
variable (x0 : (⟨S256x28224, .f32⟩ : BufTy).Contents (Elt Ideal)) (x1 : (⟨S1500x28224, .f32⟩ : BufTy).Contents (Elt Ideal))
  (x2 : (⟨S1500, .f32⟩ : BufTy).Contents (Elt Ideal)) (x3 : (⟨S28224x1500, .f32⟩ : BufTy).Contents (Elt Ideal))
  (x4 : (⟨S28224, .f32⟩ : BufTy).Contents (Elt Ideal))

theorem lidx0 (j : S256x1500.Idx) (k : Fin 28224) : lidx_main_v0 j k = ix2 (n0 := 256) (j 0) k := by
  funext a; match a with | ⟨0, _⟩ => rfl | ⟨1, _⟩ => rfl
theorem ridx0 (j : S256x1500.Idx) (k : Fin 28224) : ridx_main_v0 j k = ix2 (n0 := 1500) (j 1) k := by
  funext a; match a with | ⟨0, _⟩ => rfl | ⟨1, _⟩ => rfl
theorem idx12 (j : S256x1500.Idx) : idx_main_v1 (idx_main_v2 j) = ix1 (n := 1500) (j 1) := by
  funext a; match a with | ⟨0, _⟩ => rfl

/-- The pre-activation stage is the specification's. -/
theorem v3_apply (j : S256x1500.Idx) : val_main_v3 (F := Ideal) x0 x1 x2 j = Cert.Spec.pre x0 x1 x2 j := by
  rw [val_main_v3_apply, val_main_v0_apply, val_main_v2_apply, val_main_v1_apply]
  simp only [lidx0, ridx0, idx12, Ideal.addf_def]
  rfl

/-- The code stage: negate, exponential, add one, divide one by it is the logistic function. -/
theorem v9_eq : val_main_v9 (F := Ideal) x0 x1 x2 = Cert.Spec.yEnc x0 x1 x2 := by
  funext j
  rw [val_main_v9_apply, val_main_v8_apply, val_main_cst_0_apply, val_main_v7_apply, val_main_v6_apply, val_main_cst_apply,
    val_main_v5_apply, val_main_v4_apply, v3_apply]
  simp only [Ideal.hostDivf_def, Ideal.ofBits_def, Ideal.addf_def, Ideal.hostUnary_exp_def, Ideal.hostNegf_def, Ideal.negf_def,
    Cert.Spec.ofBits_one_f32]
  rfl

/-- The squared derivative stage. -/
theorem v13_apply (j : S256x1500.Idx) : val_main_v13 (F := Ideal) x0 x1 x2 j = Cert.Spec.s2 x0 x1 x2 j := by
  rw [val_main_v13_apply, val_main_v12_apply, val_main_v11_apply, val_main_v10_apply, val_main_cst_1_apply, v9_eq]
  simp only [Ideal.mulf_def, Ideal.subf_def, Ideal.ofBits_def, Cert.Spec.ofBits_one_f32]
  rfl

theorem idx1617 (j : S256x1500.Idx) : idx_main_v16 (idx_main_v17 j) = ix1 (n := 1500) (j 1) := by
  funext a; match a with | ⟨0, _⟩ => rfl
theorem idx15 (f : S1500.Idx) (k : Fin 28224) : idx_main_v15 f k = ix2 (n0 := 1500) (f 0) k := by
  funext a; match a with | ⟨0, _⟩ => rfl | ⟨1, _⟩ => rfl

/-- The broadcast row norms. -/
theorem v17_apply (j : S256x1500.Idx) : val_main_v17 (F := Ideal) x1 j = Cert.Spec.rowNorm2 x1 (ix1 (n := 1500) (j 1)) := by
  rw [val_main_v17_apply, val_main_v16_apply, val_main_v15_apply, val_main_cst_2_apply]
  simp only [val_main_v14_apply, idx1617, idx15, Ideal.mulf_def, Ideal.ofBits_def, Ideal.ofBits_zero_f32, zero_add]
  rfl

/-- The scalar: the sum over both axes at once is the iterated sum. -/
theorem v19_eq : val_main_v19 (F := Ideal) x0 x1 x2 = fun _ => Cert.Spec.jac x0 x1 x2 := by
  funext i
  rw [val_main_v19_apply, val_main_cst_3_apply, sum_idx2]
  simp only [val_main_v18_apply, v13_apply, v17_apply, Ideal.mulf_def, Ideal.ofBits_def, Ideal.ofBits_zero_f32, zero_add]
  rfl

theorem lidx20 (i : S256x28224.Idx) (k : Fin 1500) : lidx_main_v20 i k = ix2 (n0 := 256) (i 0) k := by
  funext a; match a with | ⟨0, _⟩ => rfl | ⟨1, _⟩ => rfl
theorem ridx20 (i : S256x28224.Idx) (k : Fin 1500) : ridx_main_v20 i k = ix2 (n0 := 28224) (i 1) k := by
  funext a; match a with | ⟨0, _⟩ => rfl | ⟨1, _⟩ => rfl
theorem idx2122 (i : S256x28224.Idx) : idx_main_v21 (idx_main_v22 i) = ix1 (n := 28224) (i 1) := by
  funext a; match a with | ⟨0, _⟩ => rfl

/-- The reconstruction. -/
theorem v29_eq : val_main_v29 (F := Ideal) x0 x1 x2 x3 x4 = Cert.Spec.yOut x0 x1 x2 x3 x4 := by
  funext i
  rw [val_main_v29_apply, val_main_v28_apply, val_main_cst_5_apply, val_main_v27_apply, val_main_v26_apply, val_main_cst_4_apply,
    val_main_v25_apply, val_main_v24_apply, val_main_v23_apply, val_main_v20_apply, val_main_v22_apply, val_main_v21_apply, v9_eq]
  simp only [lidx20, ridx20, idx2122, Ideal.hostDivf_def, Ideal.ofBits_def, Ideal.addf_def, Ideal.hostUnary_exp_def,
    Ideal.hostNegf_def, Ideal.negf_def, Cert.Spec.ofBits_one_f32]
  rfl

end Stages

/-! ## The run -/

/-- The reference's run ends with its two results at the specification of its own argument arrays, the arguments
    unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v29)
          = Cert.Spec.yOut (m' ((c.tc : Thread nD τ).loc main_arg0)) (m' ((c.tc : Thread nD τ).loc main_arg1))
              (m' ((c.tc : Thread nD τ).loc main_arg2)) (m' ((c.tc : Thread nD τ).loc main_arg3)) (m' ((c.tc : Thread nD τ).loc main_arg4))
      ∧ r.2.mem ((c.tc : Thread nD τ).loc main_v19)
          = (fun _ => Cert.Spec.jac (m' ((c.tc : Thread nD τ).loc main_arg0)) (m' ((c.tc : Thread nD τ).loc main_arg1))
              (m' ((c.tc : Thread nD τ).loc main_arg2)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run (defs (F := Ideal)) _ _).mono
    (fun _ h c => ⟨(h c).1.trans ((val_main_v29_eq _ _ _ _ _).trans (v29_eq _ _ _ _ _)),
      (h c).2.1.trans ((val_main_v19_eq _ _ _).trans (v19_eq _ _ _)), (h c).2.2⟩)
    (Cert.ReferenceIdeal.Value.run (F := Ideal) m' ρ')

end Cert.ReferenceIdeal.RefValue

end
-- ==== Proof.DecValue.lean ====
import proofs.«151767_j39745627357481_1_alg».proof.Proof.Dec
import Idealize.ShloMosaic.Lib.Pipeline.Value
import Idealize.ShloMosaic.Lib.ValueIdx
import Idealize.ShloMosaic.PureOps.Ideal.Laws

/-! # The decoder call's result as one function of its arrays

At the extended reals the body's arithmetic at entry (p, q) of a tile is the logistic function of a 1500-term sum of
products plus a bias entry; rounding the operands to bf16 on the way into the product is the identity there. Point t
of the grid reads rows 1024 t .. of the padded weight and columns 1024 t .. of the padded bias row and writes columns
1024 t .. of the padded output; the 28 tiles cover all 28672 columns, so the output array ends as one function G of
the three arrays the call was entered with. -/

noncomputable section

namespace Cert.KernelIdeal.Dec

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The body's arithmetic at one entry of the tile -/

theorem hz : (![0, 0] : Fin 2 → Nat) = fun _ => 0 := funext fun a => by fin_cases a <;> rfl

/-- The product's left operand is read at the output's row … -/
theorem lhs_row (i : S256x1024.Idx) (q : dot_S256x1500_S1024x1500_S256x1024_1_1_0_0_n_n.contr.Idx) :
    (dot_S256x1500_S1024x1500_S256x1024_1_1_0_0_n_n.lhsIdx i q 0).val = (i 0).val := by
  unfold DotDims.lhsIdx
  rw [dif_neg (show ¬(0 : Fin S256x1500.rank) ∈ dot_S256x1500_S1024x1500_S256x1024_1_1_0_0_n_n.lhsBatch by decide), dif_pos (show (0 : Fin S256x1500.rank) ∈ dot_S256x1500_S1024x1500_S256x1024_1_1_0_0_n_n.lhsNonContracting by decide)]
  rfl
/-- … and the summation index, -/
theorem lhs_contr (i : S256x1024.Idx) (q : dot_S256x1500_S1024x1500_S256x1024_1_1_0_0_n_n.contr.Idx) :
    (dot_S256x1500_S1024x1500_S256x1024_1_1_0_0_n_n.lhsIdx i q 1).val = (q ⟨0, by decide⟩).val :=
  dot_S256x1500_S1024x1500_S256x1024_1_1_0_0_n_n.lhsIdx_val_of_single rfl i q
/-- the right operand at the output's column, as a row of the weight tile, … -/
theorem rhs_row (i : S256x1024.Idx) (q : dot_S256x1500_S1024x1500_S256x1024_1_1_0_0_n_n.contr.Idx) :
    (dot_S256x1500_S1024x1500_S256x1024_1_1_0_0_n_n.rhsIdx i q 0).val = (i 1).val := by
  unfold DotDims.rhsIdx
  rw [dif_neg (show ¬(0 : Fin S1024x1500.rank) ∈ dot_S256x1500_S1024x1500_S256x1024_1_1_0_0_n_n.rhsBatch by decide), dif_pos (show (0 : Fin S1024x1500.rank) ∈ dot_S256x1500_S1024x1500_S256x1024_1_1_0_0_n_n.rhsNonContracting by decide)]
  rfl
/-- … and the summation index. -/
theorem rhs_contr (i : S256x1024.Idx) (q : dot_S256x1500_S1024x1500_S256x1024_1_1_0_0_n_n.contr.Idx) :
    (dot_S256x1500_S1024x1500_S256x1024_1_1_0_0_n_n.rhsIdx i q 1).val = (q ⟨0, by decide⟩).val :=
  dot_S256x1500_S1024x1500_S256x1024_1_1_0_0_n_n.rhsIdx_val_of_single rfl i q

/-- The matrix product into a zero accumulator, at entry (p, q): the sum over the 1500 features of the left operand's
    row p times the right operand's row q. -/
theorem matmul_entry (l : FVec Ideal S256x1500 .bf16) (r : FVec Ideal S1024x1500 .bf16) (p : Fin 256) (q : Fin 1024) :
    matmul dot_S256x1500_S1024x1500_S256x1024_1_1_0_0_n_n none l r (constant (F := Ideal) S256x1024 .f32 0x00000000#32) (ix2 p q)
      = ∑ f : Fin 1500, l (ix2 p f) * r (ix2 q f) := by
  simp only [matmul]
  rw [Ideal.matmul_constant_zero_apply, ← Equiv.sum_comp (contrEquiv1 dot_S256x1500_S1024x1500_S256x1024_1_1_0_0_n_n 1500 rfl rfl).symm]
  refine Finset.sum_congr rfl fun k _ => ?_
  have hk := contrEquiv1_symm_val dot_S256x1500_S1024x1500_S256x1024_1_1_0_0_n_n 1500 rfl rfl k
  have el : dot_S256x1500_S1024x1500_S256x1024_1_1_0_0_n_n.lhsIdx (ix2 p q) ((contrEquiv1 dot_S256x1500_S1024x1500_S256x1024_1_1_0_0_n_n 1500 rfl rfl).symm k) = ix2 p k := funext fun a => Fin.ext (by
    match a with
    | ⟨0, _⟩ => exact lhs_row _ _
    | ⟨1, _⟩ => exact (lhs_contr _ _).trans hk)
  have er : dot_S256x1500_S1024x1500_S256x1024_1_1_0_0_n_n.rhsIdx (ix2 p q) ((contrEquiv1 dot_S256x1500_S1024x1500_S256x1024_1_1_0_0_n_n 1500 rfl rfl).symm k) = ix2 q k := funext fun a => Fin.ext (by
    match a with
    | ⟨0, _⟩ => exact rhs_row _ _
    | ⟨1, _⟩ => exact (rhs_contr _ _).trans hk)
  rw [el, er]

/-- The bias row spread over the 256 rows, at entry (p, q), is the row's entry q. -/
theorem bias_entry (x2 : Vec Ideal S1x1024 .f32) (p : Fin 256) (q : Fin 1024) :
    broadcastTo S256x1024 x2 broadcasts_S1x1024_S256x1024 (ix2 p q) = x2 (ix2 (0 : Fin 1) q) :=
  broadcastTo_apply x2 broadcasts_S1x1024_S256x1024 (ix2 p q) (ix2 (0 : Fin 1) q) (fun a => match a with
    | ⟨0, _⟩ => by show (0 : Nat) = if (1 : Nat) = 1 then 0 else q.val; rw [if_pos rfl]
    | ⟨1, _⟩ => by show q.val = if (1024 : Nat) = 1 then 0 else q.val; rw [if_neg (by decide)])

/-- What the body stores at entry (p, q) of the tile: the logistic function of row p of the first block times row q
    of the second, summed over the features, plus entry q of the third. Rounding the operands to bf16 is the
    identity on the extended reals. -/
theorem pay_entry (x0 : Vec Ideal S256x1500 .f32) (x1 : Vec Ideal S1024x1500 .f32) (x2 : Vec Ideal S1x1024 .f32) (p : Fin 256) (q : Fin 1024) :
    k1_pay1 x0 x1 x2 (ix2 p q)
      = Ideal.logistic ((∑ f : Fin 1500, x0 (ix2 p f) * x1 (ix2 q f)) + x2 (ix2 (0 : Fin 1) q)) := by
  unfold k1_pay1
  simp only [shapeCast_self]
  show Ideal.logistic (_ + _) = _
  refine congrArg Ideal.logistic ?_
  refine congrArg₂ (· + ·) ?_ ?_
  · exact matmul_entry _ _ p q
  · exact bias_entry x2 p q

/-! ## From the tiles to the whole array -/

variable (V : (c : Dev nD) → (b : Ref sig .tc) → Buf (Elt Ideal) ((c : Thread nD τ).loc b))

/-- The decoder's result as one function of its three arrays: entry (r, j) of the padded output is the logistic
    function of row r of the encoder output times row j of the padded weight, summed over the 1500 features, plus
    entry j of the padded bias row. -/
def G (a0 : S256x1500.Idx → EReal) (a1 : S28672x1500.Idx → EReal) (a2 : S1x28672.Idx → EReal) : S256x28672.Idx → EReal :=
  fun i => Ideal.logistic ((∑ f : Fin 1500, a0 (ix2 (⟨(i 0).val, (i 0).isLt⟩ : Fin 256) f) * a1 (ix2 (⟨(i 1).val, (i 1).isLt⟩ : Fin 28672) f))
    + a2 (ix2 (0 : Fin 1) (⟨(i 1).val, (i 1).isLt⟩ : Fin 28672)))

/-- Where each window's block sits at grid point t: the encoder output is one block; the weight's block is row
    block t; the bias's and the output's are column block t. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- One entry of the tile stored at a point whose blocks are: the whole first array; rows 1024 n .. of the second;
    columns 1024 n .. of the third. It is the entry of G at row p and column 1024 n + q. -/
theorem tile_entry (A0 : S256x1500.Idx → EReal) (A1 : S28672x1500.Idx → EReal) (A2 : S1x28672.Idx → EReal)
    (x0 : Vec Ideal S256x1500 .f32) (x1 : Vec Ideal S1024x1500 .f32) (x2 : Vec Ideal S1x1024 .f32) (n : Nat)
    (h0 : ∀ (p : Fin 256) (f : Fin 1500), x0 (ix2 p f) = A0 (ix2 p f))
    (h1 : ∀ (q : Fin 1024) (f : Fin 1500) (k : Fin 28672), k.val = n * 1024 + q.val → x1 (ix2 q f) = A1 (ix2 k f))
    (h2 : ∀ (q : Fin 1024) (k : Fin 28672), k.val = n * 1024 + q.val → x2 (ix2 (0 : Fin 1) q) = A2 (ix2 (0 : Fin 1) k))
    (p : Fin 256) (q : Fin 1024) (i : S256x28672.Idx) (hi0 : (i 0).val = p.val) (hi1 : (i 1).val = n * 1024 + q.val) :
    k1_pay1 x0 x1 x2 (ix2 p q) = G A0 A1 A2 i := by
  rw [pay_entry]
  unfold G
  have ep : (⟨(i 0).val, (i 0).isLt⟩ : Fin 256) = p := Fin.ext hi0
  rw [ep, h2 q ⟨(i 1).val, (i 1).isLt⟩ hi1]
  refine congrArg Ideal.logistic (congrArg (· + _) (Finset.sum_congr rfl fun f _ => ?_))
  rw [h0 p f, h1 q f ⟨(i 1).val, (i 1).isLt⟩ hi1]

/-- The first window's block is the whole encoder output at every point. -/
theorem blk0_apply (c : Dev nD) (t : Fin cfg1.N) (p : Fin 256) (f : Fin 1500) :
    (iblk1 V c 0 t : Vec Ideal S256x1500 .f32) (ix2 p f) = (V c main_v3_0 : S256x1500.Idx → EReal) (ix2 p f) := by
  obtain ⟨e00, e01, -⟩ := idx_facts t
  unfold iblk1
  rw [View.read_apply]
  show V c main_v3_0 _ = V c main_v3_0 _
  refine congrArg (V c main_v3_0) (funext fun a => Fin.ext ?_)
  match a with
  | ⟨0, _⟩ => show win1_0.index t (0 : Fin 2) * 256 + 1 * p.val = p.val; rw [e00]; omega
  | ⟨1, _⟩ => show win1_0.index t (1 : Fin 2) * 1500 + 1 * f.val = f.val; rw [e01]; omega

/-- The second window's block at point t is rows 1024 t .. 1024 t + 1023 of the padded weight. -/
theorem blk1_apply (c : Dev nD) (t : Fin cfg1.N) (q : Fin 1024) (f : Fin 1500) (k : Fin 28672) (hk : k.val = t.val * 1024 + q.val) :
    (iblk1 V c 1 t : Vec Ideal S1024x1500 .f32) (ix2 q f) = (V c main_v4 : S28672x1500.Idx → EReal) (ix2 k f) := by
  obtain ⟨-, -, e10, e11, -⟩ := idx_facts t
  unfold iblk1
  rw [View.read_apply]
  show V c main_v4 _ = V c main_v4 _
  refine congrArg (V c main_v4) (funext fun a => Fin.ext ?_)
  match a with
  | ⟨0, _⟩ => show win1_1.index t (0 : Fin 2) * 1024 + 1 * q.val = k.val; rw [e10, hk]; omega
  | ⟨1, _⟩ => show win1_1.index t (1 : Fin 2) * 1500 + 1 * f.val = f.val; rw [e11]; omega

/-- The third window's block at point t is columns 1024 t .. 1024 t + 1023 of the padded bias row. -/
theorem blk2_apply (c : Dev nD) (t : Fin cfg1.N) (q : Fin 1024) (k : Fin 28672) (hk : k.val = t.val * 1024 + q.val) :
    (iblk1 V c 2 t : Vec Ideal S1x1024 .f32) (ix2 (0 : Fin 1) q) = (V c main_v6 : S1x28672.Idx → EReal) (ix2 (0 : Fin 1) k) := by
  obtain ⟨-, -, -, -, e20, e21, -⟩ := idx_facts t
  unfold iblk1
  rw [View.read_apply]
  show V c main_v6 _ = V c main_v6 _
  refine congrArg (V c main_v6) (funext fun a => Fin.ext ?_)
  match a with
  | ⟨0, _⟩ => show win1_2.index t (0 : Fin 2) * 1 + 1 * 0 = 0; rw [e20]
  | ⟨1, _⟩ => show win1_2.index t (1 : Fin 2) * 1024 + 1 * q.val = k.val; rw [e21, hk]; omega

/-- What point t writes back is block t of G of the three arrays as the call finds them. -/
theorem flushed3_eq (c : Dev nD) (t : Fin cfg1.N) :
    (dat1 V c).flushed 3 t = ((cfg1.win 3).blk t).view.read (Elt Ideal) (G (V c main_v3_0) (V c main_v4) (V c main_v6)) := by
  show (cfg1.win 3).cut (grid1.coords t) ((dat1 V c).after 3 t) = _
  rw [after1_3]
  unfold out1_3
  rw [View.canon_unit_zero hz]
  simp only [View.ld_unit_zero (S := S256x1500) hz, View.ld_unit_zero (S := S1024x1500) hz, View.ld_unit_zero (S := S1x1024) hz]
  obtain ⟨-, -, -, -, -, -, e30, e31⟩ := idx_facts t
  funext j
  obtain ⟨p, q, rfl⟩ : ∃ (p : Fin 256) (q : Fin 1024), j = ix2 p q := ⟨j 0, j 1, eq_ix2 j⟩
  show k1_pay1 (iblk1 V c 0 t) (iblk1 V c 1 t) (iblk1 V c 2 t) (ix2 p q)
    = G (V c main_v3_0) (V c main_v4) (V c main_v6) (((cfg1.win 3).blk t).view.emb (ix2 p q))
  refine tile_entry (V c main_v3_0) (V c main_v4) (V c main_v6) (iblk1 V c 0 t) (iblk1 V c 1 t) (iblk1 V c 2 t) t.val
    (fun p f => blk0_apply V c t p f) (fun q f k hk => blk1_apply V c t q f k hk) (fun q k hk => blk2_apply V c t q k hk)
    p q _ ?_ ?_
  · show win1_3.index t (0 : Fin 2) * 256 + 1 * p.val = p.val; rw [e30]; omega
  · show win1_3.index t (1 : Fin 2) * 1024 + 1 * q.val = t.val * 1024 + q.val; rw [e31]; omega

/-- An index of the padded output is in point t's block iff each coordinate is in the block's range. -/
theorem mem_blk3 (t : Fin cfg1.N) (i : S256x28672.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v7).slice (win1_3.rect t)).set ↔ _
  rw [View.set_slice_whole, Rect.mem_set_unit]
  exact Iff.rfl

/-- Every column of the padded output lies in exactly one tile: column j in tile j / 1024. -/
theorem cover3 (i : S256x28672.Idx) : ∃ t : Fin cfg1.N, (cfg1.win 3).flush t = true ∧ i ∈ ((cfg1.win 3).blk t).view.set := by
  have hi0 : (i 0).val < 256 := (i 0).isLt
  have hi1 : (i 1).val < 28672 := (i 1).isLt
  have hN : cfg1.N = 28 := N_1
  let t : Fin cfg1.N := ⟨(i 1).val / 1024, by rw [hN]; omega⟩
  obtain ⟨-, -, -, -, -, -, e30, e31⟩ := idx_facts t
  refine ⟨t, flush1_3 t, ?_⟩
  rw [mem_blk3]
  intro a
  match a with
  | ⟨0, _⟩ => show win1_3.index t (0 : Fin 2) * 256 ≤ (i 0).val ∧ (i 0).val < win1_3.index t (0 : Fin 2) * 256 + 256; rw [e30]; omega
  | ⟨1, _⟩ =>
    show win1_3.index t (1 : Fin 2) * 1024 ≤ (i 1).val ∧ (i 1).val < win1_3.index t (1 : Fin 2) * 1024 + 1024
    rw [e31]; show (i 1).val / 1024 * 1024 ≤ (i 1).val ∧ (i 1).val < (i 1).val / 1024 * 1024 + 1024; omega

/-- The padded output after the call: G of the encoder output, the padded weight and the padded bias row as the call
    finds them. -/
theorem final3 (c : Dev nD) :
    (dat1 V c).arrAt 3 cfg1.N = G (V c main_v3_0) (V c main_v4) (V c main_v6) :=
  (dat1 V c).arrAt_eq_of_cover 3 (G (V c main_v3_0) (V c main_v4) (V c main_v6)) (fun t _ => flushed3_eq V c t) cover3

/-- The same with the arrays named through the pipeline's windows. -/
theorem final3' (c : Dev nD) :
    (dat1 V c).arrAt 3 cfg1.N = G (V c (Pipeline.arrRef spec1 0)) (V c (Pipeline.arrRef spec1 1)) (V c (Pipeline.arrRef spec1 2)) :=
  final3 V c

end Cert.KernelIdeal.Dec

end
-- ==== Proof.EncPieces.lean ====
/-
  WHAT EACH CONTROL CASE OF THE ENCODER BODY LEAVES, as the body's arithmetic of what it loaded. The stores of a case
  into a buffer cover it, so reading the buffer back gives the last store's value; a load that follows a covering
  store of the same case reads that store's value.
-/
import proofs.«151767_j39745627357481_1_alg».proof.Proof.Enc
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.EncValue

open Cert.KernelIdeal Cert.KernelIdeal.Gen Cert.KernelIdeal.Enc
open Idealize.ShloMosaic Idealize.ShloMosaic.TcCoe Idealize.ShloMosaic.Tactic Idealize.SL.Sem
open Idealize.ShloMosaic.Pipeline (Dat)
open Idealize.ShloMosaic.ValueIdx
open scoped BigOperators

/-! ## What each case's stores leave, as the body's arithmetic of what it loaded

At the first point the accumulators are reset and then read back, so the tile's contribution is added to the reset
value; at a later point it is added to what the point before left; at the last point the two outputs are computed
from the accumulators as this point's own stores have just left them. -/

section Pieces
variable {F : FTy → Type} [FloatOps F]
variable (c : Dev nD) (t : Fin cfg0.N) (x0 : Vec F S256x1024 .f32) (x1 : Vec F S1500x1024 .f32) (x2 : Vec F S1x1500 .f32)
  (xs6 : Vec F S256x1500 .f32) (xs7 : Vec F S1500x1 .f32)

theorem hz : (![0, 0] : Fin 2 → Nat) = fun _ => 0 := funext fun a => by fin_cases a <;> rfl

/-- An accumulator handed over at given contents reads back those contents. -/
theorem rd6 (h : (scM0_0 : Memref sig .tc .vmem S256x1500 .f32).IsWhole) (X : Vec F S256x1500 .f32) :
    View.read (Elt F) (View.whole cc0_scratch0) (h.unread X) = X := h.read_unread X
theorem rd7 (h : (scM0_1 : Memref sig .tc .vmem S1500x1 .f32).IsWhole) (X : Vec F S1500x1 .f32) :
    View.read (Elt F) (View.whole cc0_scratch1) (h.unread X) = X := h.read_unread X

/-- First point, product accumulator: the reset value plus the first tile's partial product. -/
theorem pieceA6 (hc0 : cond0_0 (grid0.coords t)) (hc1 : ¬cond0_1 (grid0.coords t)) :
    rb6 (runA (F := F) c t hc0 hc1 x0 x1 x2).1 = k0_pay4 x0 x1 (k0_pay1 (F := F)) := by
  unfold rb6
  rw [View.read_writes_eq_canon _ _ _ (scoverA6 c t x0 x1 x2 hc0 hc1)]
  unfold runA kernelRun0_A
  dsimp only
  sl_unfold_words
  rw [View.canon_cons_unit_zero (S := S256x1500) hz, View.readCov_unit_zero (S := S256x1500) _ hz]
  simp only [View.readAt_eq_ld, Memref.IsWhole.read_unread, rd6, rd7, View.ld_unit_zero (S := S256x1024) hz, View.ld_unit_zero (S := S1500x1024) hz]

/-- First point, row-norm accumulator: the reset value plus the first tile's row sums of squares. -/
theorem pieceA7 (hc0 : cond0_0 (grid0.coords t)) (hc1 : ¬cond0_1 (grid0.coords t)) :
    rb7 (runA (F := F) c t hc0 hc1 x0 x1 x2).2.1 = k0_pay5 x1 (k0_pay2 (F := F)) := by
  unfold rb7
  rw [View.read_writes_eq_canon _ _ _ (scoverA7 c t x0 x1 x2 hc0 hc1)]
  unfold runA kernelRun0_A
  dsimp only
  sl_unfold_words
  rw [View.canon_cons_unit_zero (S := S1500x1) hz, View.readCov_unit_zero (S := S1500x1) _ hz]
  simp only [View.readAt_eq_ld, Memref.IsWhole.read_unread, rd6, rd7, View.ld_unit_zero (S := S1500x1024) hz]

/-- A middle point, product accumulator: what the point before left plus this tile's partial product. -/
theorem pieceB6 (hc0 : ¬cond0_0 (grid0.coords t)) (hc1 : ¬cond0_1 (grid0.coords t)) :
    rb6 (runB (F := F) c t hc0 hc1 x0 x1 x2 xs6 xs7).1 = k0_pay4 x0 x1 xs6 := by
  unfold rb6
  rw [View.read_writes_eq_canon _ _ _ (scoverB6 c t x0 x1 x2 xs6 xs7 hc0 hc1)]
  unfold runB kernelRun0_B
  dsimp only
  sl_unfold_words
  rw [View.canon_unit_zero (S := S256x1500) hz]
  simp only [View.readAt_eq_ld, Memref.IsWhole.read_unread, rd6, rd7, View.ld_unit_zero (S := S256x1024) hz, View.ld_unit_zero (S := S1500x1024) hz,
    View.ld_unit_zero (S := S256x1500) hz]

/-- A middle point, row-norm accumulator: what the point before left plus this tile's row sums of squares. -/
theorem pieceB7 (hc0 : ¬cond0_0 (grid0.coords t)) (hc1 : ¬cond0_1 (grid0.coords t)) :
    rb7 (runB (F := F) c t hc0 hc1 x0 x1 x2 xs6 xs7).2.1 = k0_pay5 x1 xs7 := by
  unfold rb7
  rw [View.read_writes_eq_canon _ _ _ (scoverB7 c t x0 x1 x2 xs6 xs7 hc0 hc1)]
  unfold runB kernelRun0_B
  dsimp only
  sl_unfold_words
  rw [View.canon_unit_zero (S := S1500x1) hz]
  simp only [View.readAt_eq_ld, Memref.IsWhole.read_unread, rd6, rd7, View.ld_unit_zero (S := S1500x1024) hz, View.ld_unit_zero (S := S1500x1) hz]

/-- The last point, product accumulator. -/
theorem pieceC6 (hc0 : ¬cond0_0 (grid0.coords t)) (hc1 : cond0_1 (grid0.coords t)) :
    rb6 (runC (F := F) c t hc0 hc1 x0 x1 x2 xs6 xs7).2.2.1 = k0_pay4 x0 x1 xs6 := by
  unfold rb6
  rw [View.read_writes_eq_canon _ _ _ (scoverC6 c t x0 x1 x2 xs6 xs7 hc0 hc1)]
  unfold runC kernelRun0_C
  dsimp only
  sl_unfold_words
  rw [View.canon_unit_zero (S := S256x1500) hz]
  simp only [View.readAt_eq_ld, Memref.IsWhole.read_unread, rd6, rd7, View.ld_unit_zero (S := S256x1024) hz, View.ld_unit_zero (S := S1500x1024) hz,
    View.ld_unit_zero (S := S256x1500) hz]

/-- The last point, row-norm accumulator. -/
theorem pieceC7 (hc0 : ¬cond0_0 (grid0.coords t)) (hc1 : cond0_1 (grid0.coords t)) :
    rb7 (runC (F := F) c t hc0 hc1 x0 x1 x2 xs6 xs7).2.2.2.1 = k0_pay5 x1 xs7 := by
  unfold rb7
  rw [View.read_writes_eq_canon _ _ _ (scoverC7 c t x0 x1 x2 xs6 xs7 hc0 hc1)]
  unfold runC kernelRun0_C
  dsimp only
  sl_unfold_words
  rw [View.canon_unit_zero (S := S1500x1) hz]
  simp only [View.readAt_eq_ld, Memref.IsWhole.read_unread, rd6, rd7, View.ld_unit_zero (S := S1500x1024) hz, View.ld_unit_zero (S := S1500x1) hz]

/-- The last point, the code output: the logistic function of the finished product plus the bias. -/
theorem pieceC3 (hc0 : ¬cond0_0 (grid0.coords t)) (hc1 : cond0_1 (grid0.coords t)) :
    rb3 (runC (F := F) c t hc0 hc1 x0 x1 x2 xs6 xs7).1 = k0_pay6 (k0_pay4 x0 x1 xs6) x2 := by
  unfold rb3
  rw [View.read_writes_eq_canon _ _ _ (coverC3 c t x0 x1 x2 xs6 xs7 hc0 hc1)]
  unfold runC kernelRun0_C
  dsimp only
  sl_unfold_words
  rw [View.canon_unit_zero (S := S256x1500) hz, View.readCov_unit_zero (S := S256x1500) _ hz]
  simp only [View.readAt_eq_ld, Memref.IsWhole.read_unread, rd6, rd7, View.ld_unit_zero (S := S256x1024) hz, View.ld_unit_zero (S := S1500x1024) hz,
    View.ld_unit_zero (S := S256x1500) hz, View.ld_unit_zero (S := S1x1500) hz]

/-- The last point, the scalar output: the Jacobian term of the finished accumulators. -/
theorem pieceC4 (hc0 : ¬cond0_0 (grid0.coords t)) (hc1 : cond0_1 (grid0.coords t)) :
    rb4 (runC (F := F) c t hc0 hc1 x0 x1 x2 xs6 xs7).2.1 = k0_pay7 (k0_pay4 x0 x1 xs6) x2 (k0_pay5 x1 xs7) := by
  unfold rb4
  rw [View.read_writes_eq_canon _ _ _ (coverC4 c t x0 x1 x2 xs6 xs7 hc0 hc1)]
  unfold runC kernelRun0_C
  dsimp only
  sl_unfold_words
  rw [View.canon_unit_zero (S := S1x1) hz, View.readCov_unit_zero (S := S256x1500) _ hz, View.readCov_unit_zero (S := S1500x1) _ hz]
  simp only [View.readAt_eq_ld, Memref.IsWhole.read_unread, rd6, rd7, View.ld_unit_zero (S := S256x1024) hz, View.ld_unit_zero (S := S1500x1024) hz,
    View.ld_unit_zero (S := S256x1500) hz, View.ld_unit_zero (S := S1500x1) hz, View.ld_unit_zero (S := S1x1500) hz]

end Pieces

end Cert.KernelIdeal.EncValue

end
-- ==== Proof.EncPay.lean ====
/-
  THE ENCODER BODY'S ARITHMETIC AT ONE ENTRY, on the extended reals. Each value the body stores is read at an entry
  given by its coordinates:
    · the two reset values are zero;
    · the product accumulator gets what it held plus the sum, over the tile's 1024 columns, of the input tile's row
      times the weight tile's row (rounding the operands to bf16 is the identity on the extended reals);
    · the row-norm accumulator gets what it held plus the sum of the squares of the weight tile's row;
    · the code output is the logistic function of the finished product plus the bias;
    · the scalar output is, summed over the 1500 lanes of each row and then over the 256 rows, the square of
      y (1 − y) at the code y times the finished row norm.
-/
import proofs.«151767_j39745627357481_1_alg».proof.Proof.Gen.KernelIdeal.Skeleton
import proofs.«151767_j39745627357481_1_alg».proof.Proof.Spec
import Idealize.ShloMosaic.Lib.Pipeline.Value
import Idealize.ShloMosaic.Lib.ValueIdx
import Idealize.ShloMosaic.PureOps.Ideal.Laws

noncomputable section

namespace Cert.KernelIdeal.EncValue

open Cert.KernelIdeal Cert.KernelIdeal.Gen
open Idealize.ShloMosaic Idealize.ShloMosaic.TcCoe Idealize.SL.Sem
open Idealize.ShloMosaic.ValueIdx
open scoped BigOperators

variable {F : FTy → Type} [FloatOps F]

/-! ## The body's arithmetic at one entry, on the extended reals -/

/-- The reset value of the product accumulator: zero everywhere. -/
theorem pay1_apply (j : S256x1500.Idx) : k0_pay1 (F := Ideal) j = 0 := by
  unfold k0_pay1
  simp only [shapeCast_self]
  exact Ideal.ofBits_zero_f32

/-- The reset value of the row-norm accumulator: zero everywhere. -/
theorem pay2_apply (j : S1500x1.Idx) : k0_pay2 (F := Ideal) j = 0 := by
  unfold k0_pay2
  simp only [shapeCast_self]
  exact Ideal.ofBits_zero_f32

/-- The tile product's left operand is read at the output's row … -/
theorem lhs_row (i : S256x1500.Idx) (q : dot_S256x1024_S1500x1024_S256x1500_1_1_0_0_n_n.contr.Idx) :
    (dot_S256x1024_S1500x1024_S256x1500_1_1_0_0_n_n.lhsIdx i q 0).val = (i 0).val := by
  unfold DotDims.lhsIdx
  rw [dif_neg (show ¬(0 : Fin S256x1024.rank) ∈ dot_S256x1024_S1500x1024_S256x1500_1_1_0_0_n_n.lhsBatch by decide), dif_pos (show (0 : Fin S256x1024.rank) ∈ dot_S256x1024_S1500x1024_S256x1500_1_1_0_0_n_n.lhsNonContracting by decide)]
  rfl
/-- … and the summation index, -/
theorem lhs_contr (i : S256x1500.Idx) (q : dot_S256x1024_S1500x1024_S256x1500_1_1_0_0_n_n.contr.Idx) :
    (dot_S256x1024_S1500x1024_S256x1500_1_1_0_0_n_n.lhsIdx i q 1).val = (q ⟨0, by decide⟩).val :=
  dot_S256x1024_S1500x1024_S256x1500_1_1_0_0_n_n.lhsIdx_val_of_single rfl i q
/-- the right operand at the output's column, as a row of the weight tile, … -/
theorem rhs_row (i : S256x1500.Idx) (q : dot_S256x1024_S1500x1024_S256x1500_1_1_0_0_n_n.contr.Idx) :
    (dot_S256x1024_S1500x1024_S256x1500_1_1_0_0_n_n.rhsIdx i q 0).val = (i 1).val := by
  unfold DotDims.rhsIdx
  rw [dif_neg (show ¬(0 : Fin S1500x1024.rank) ∈ dot_S256x1024_S1500x1024_S256x1500_1_1_0_0_n_n.rhsBatch by decide), dif_pos (show (0 : Fin S1500x1024.rank) ∈ dot_S256x1024_S1500x1024_S256x1500_1_1_0_0_n_n.rhsNonContracting by decide)]
  rfl
/-- … and the summation index. -/
theorem rhs_contr (i : S256x1500.Idx) (q : dot_S256x1024_S1500x1024_S256x1500_1_1_0_0_n_n.contr.Idx) :
    (dot_S256x1024_S1500x1024_S256x1500_1_1_0_0_n_n.rhsIdx i q 1).val = (q ⟨0, by decide⟩).val :=
  dot_S256x1024_S1500x1024_S256x1500_1_1_0_0_n_n.rhsIdx_val_of_single rfl i q

/-- The tile's matrix product into a zero accumulator, at entry (b, f): the sum over the tile's 1024 columns of the
    input tile's row b times the weight tile's row f. -/
theorem matmul_entry (l : FVec Ideal S256x1024 .bf16) (r : FVec Ideal S1500x1024 .bf16) (b : Fin 256) (f : Fin 1500) :
    matmul dot_S256x1024_S1500x1024_S256x1500_1_1_0_0_n_n none l r (constant (F := Ideal) S256x1500 .f32 0x00000000#32) (ix2 b f)
      = ∑ j : Fin 1024, l (ix2 b j) * r (ix2 f j) := by
  simp only [matmul]
  rw [Ideal.matmul_constant_zero_apply, ← Equiv.sum_comp (contrEquiv1 dot_S256x1024_S1500x1024_S256x1500_1_1_0_0_n_n 1024 rfl rfl).symm]
  refine Finset.sum_congr rfl fun k _ => ?_
  have hk := contrEquiv1_symm_val dot_S256x1024_S1500x1024_S256x1500_1_1_0_0_n_n 1024 rfl rfl k
  have el : dot_S256x1024_S1500x1024_S256x1500_1_1_0_0_n_n.lhsIdx (ix2 b f) ((contrEquiv1 dot_S256x1024_S1500x1024_S256x1500_1_1_0_0_n_n 1024 rfl rfl).symm k) = ix2 b k := funext fun a => Fin.ext (by
    match a with
    | ⟨0, _⟩ => exact lhs_row _ _
    | ⟨1, _⟩ => exact (lhs_contr _ _).trans hk)
  have er : dot_S256x1024_S1500x1024_S256x1500_1_1_0_0_n_n.rhsIdx (ix2 b f) ((contrEquiv1 dot_S256x1024_S1500x1024_S256x1500_1_1_0_0_n_n 1024 rfl rfl).symm k) = ix2 f k := funext fun a => Fin.ext (by
    match a with
    | ⟨0, _⟩ => exact rhs_row _ _
    | ⟨1, _⟩ => exact (rhs_contr _ _).trans hk)
  rw [el, er]

/-- What a point stores into the product accumulator at entry (b, f): what it held plus the tile's partial product.
    Rounding the operands to bf16 on the way into the product is the identity on the extended reals. -/
theorem pay4_apply (x0 : Vec Ideal S256x1024 .f32) (x1 : Vec Ideal S1500x1024 .f32) (a : Vec Ideal S256x1500 .f32) (b : Fin 256) (f : Fin 1500) :
    k0_pay4 x0 x1 a (ix2 b f) = a (ix2 b f) + ∑ j : Fin 1024, x0 (ix2 b j) * x1 (ix2 f j) := by
  unfold k0_pay4 k0_pay3
  simp only [shapeCast_self]
  show a (ix2 b f) + _ = _
  exact congrArg (a (ix2 b f) + ·) (matmul_entry _ _ b f)

/-- A lane sum of a [1500, 1024] tile, as a column [1500, 1], at row f: the sum of the tile's row f. -/
theorem rowsum_entry (v : FVec Ideal S1500x1024 .f32) (hφ : FKind.Formats .f32) (hacc : (0x00000000#32 : BitVec 32) = 0x00000000#32) (f : Fin 1500) :
    shapeCast S1500x1 (multiReduction (F := Ideal) .add [1] S1500 v 0x00000000#32 reduces_S1500x1024_S1500 hφ hacc) shapeCasts_S1500_S1500x1 (ix2 f (0 : Fin 1))
      = ∑ j : Fin 1024, v (ix2 f j) := by
  refine (shapeCast_apply _ shapeCasts_S1500_S1500x1 (ix2 f (0 : Fin 1)) (ix1 f) ?_).trans ?_
  · rw [Shape.rowMajor_val_one, Shape.rowMajor_val_two]
    show f.val = f.val * 1 + 0
    omega
  · refine (Ideal.multiReduction_add_single v 0x00000000#32 reduces_S1500x1024_S1500 hφ hacc (ix1 f)).trans ?_
    refine Finset.sum_congr rfl fun j _ => congrArg v (funext fun a => Fin.ext ?_)
    match a with
    | ⟨0, _⟩ => rfl
    | ⟨1, _⟩ => rfl

/-- What a point stores into the row-norm accumulator at row f: what it held plus the sum of the squares of the weight
    tile's row f. -/
theorem pay5_apply (x1 : Vec Ideal S1500x1024 .f32) (s : Vec Ideal S1500x1 .f32) (f : Fin 1500) :
    k0_pay5 x1 s (ix2 f (0 : Fin 1)) = s (ix2 f (0 : Fin 1)) + ∑ j : Fin 1024, x1 (ix2 f j) * x1 (ix2 f j) := by
  unfold k0_pay5 k0_pay3
  simp only [shapeCast_self]
  show s (ix2 f (0 : Fin 1)) + _ = _
  exact congrArg (s (ix2 f (0 : Fin 1)) + ·) (rowsum_entry _ _ _ f)

/-- The bias row spread over the 256 rows, at entry (b, f), is the row's entry f. -/
theorem bias_entry (x2 : Vec Ideal S1x1500 .f32) (b : Fin 256) (f : Fin 1500) :
    broadcastTo S256x1500 x2 broadcasts_S1x1500_S256x1500 (ix2 b f) = x2 (ix2 (0 : Fin 1) f) :=
  broadcastTo_apply x2 broadcasts_S1x1500_S256x1500 (ix2 b f) (ix2 (0 : Fin 1) f) (fun a => match a with
    | ⟨0, _⟩ => by show (0 : Nat) = if (1 : Nat) = 1 then 0 else b.val; rw [if_pos rfl]
    | ⟨1, _⟩ => by show f.val = if (1500 : Nat) = 1 then 0 else f.val; rw [if_neg (by decide)])

/-- What the last point stores into the code output at entry (b, f): the logistic function of the finished product plus
    the bias. -/
theorem pay6_apply (a : Vec Ideal S256x1500 .f32) (x2 : Vec Ideal S1x1500 .f32) (b : Fin 256) (f : Fin 1500) :
    k0_pay6 a x2 (ix2 b f) = Ideal.logistic (a (ix2 b f) + x2 (ix2 (0 : Fin 1) f)) := by
  unfold k0_pay6
  simp only [shapeCast_self]
  show Ideal.logistic (a (ix2 b f) + _) = _
  exact congrArg (fun z => Ideal.logistic (a (ix2 b f) + z)) (bias_entry x2 b f)

/-- The row-norm column turned into a row and spread over the 256 rows, at entry (b, f), is the column's entry f. -/
theorem norm_entry (s : Vec Ideal S1500x1 .f32) (b : Fin 256) (f : Fin 1500) :
    broadcastTo S256x1500 (transpose S1x1500 [1, 0] s transposes_S1500x1_p1_0_S1x1500) broadcasts_S1x1500_S256x1500 (ix2 b f)
      = s (ix2 f (0 : Fin 1)) := by
  refine (bias_entry _ b f).trans ?_
  exact transpose_apply [1, 0] s transposes_S1500x1_p1_0_S1x1500 (ix2 (0 : Fin 1) f) (ix2 f (0 : Fin 1)) (fun a => match a with
    | ⟨0, _⟩ => rfl
    | ⟨1, _⟩ => rfl)

/-- The sum over every entry of a [256, 1500] array taken as the kernel takes it — the 1500 lanes of each row, then the
    256 rows — read at the one entry of the [1, 1] result. -/
theorem total_entry (v : FVec Ideal S256x1500 .f32) (hφ : FKind.Formats .f32) (hacc : (0x00000000#32 : BitVec 32) = 0x00000000#32) :
    shapeCast S1x1 (multiReduction (F := Ideal) .add [0] S1
        (shapeCast S256x1 (multiReduction (F := Ideal) .add [1] S256 v 0x00000000#32 reduces_S256x1500_S256 hφ hacc) shapeCasts_S256_S256x1)
        0x00000000#32 reduces_S256x1_S1 hφ hacc) shapeCasts_S1_S1x1 (ix2 (0 : Fin 1) (0 : Fin 1))
      = ∑ b : Fin 256, ∑ f : Fin 1500, v (ix2 b f) := by
  refine (shapeCast_apply _ shapeCasts_S1_S1x1 (ix2 (0 : Fin 1) (0 : Fin 1)) (ix1 (0 : Fin 1)) ?_).trans ?_
  · rw [Shape.rowMajor_val_one, Shape.rowMajor_val_two]
    rfl
  refine (Ideal.multiReduction_add_single _ 0x00000000#32 reduces_S256x1_S1 hφ hacc (ix1 (0 : Fin 1))).trans ?_
  refine Finset.sum_congr rfl fun b _ => ?_
  refine (shapeCast_apply _ shapeCasts_S256_S256x1 _ (ix1 b) ?_).trans ?_
  · rw [Shape.rowMajor_val_one, Shape.rowMajor_val_two]
    show b.val = b.val * 1 + 0
    omega
  refine (Ideal.multiReduction_add_single v 0x00000000#32 reduces_S256x1500_S256 hφ hacc (ix1 b)).trans ?_
  refine Finset.sum_congr rfl fun f _ => congrArg v (funext fun a => Fin.ext ?_)
  match a with
  | ⟨0, _⟩ => rfl
  | ⟨1, _⟩ => rfl

/-- What the last point stores into the scalar output: over the batch and the code coordinates, the squared derivative
    of the logistic function at the finished pre-activation times the finished row norm. -/
theorem pay7_apply (a : Vec Ideal S256x1500 .f32) (x2 : Vec Ideal S1x1500 .f32) (s : Vec Ideal S1500x1 .f32) :
    k0_pay7 a x2 s (ix2 (0 : Fin 1) (0 : Fin 1))
      = ∑ b : Fin 256, ∑ f : Fin 1500,
          ((k0_pay6 a x2 (ix2 b f) * (1 - k0_pay6 a x2 (ix2 b f))) * (k0_pay6 a x2 (ix2 b f) * (1 - k0_pay6 a x2 (ix2 b f))))
            * s (ix2 f (0 : Fin 1)) := by
  unfold k0_pay7
  refine (total_entry _ _ _).trans ?_
  refine Finset.sum_congr rfl fun b _ => Finset.sum_congr rfl fun f _ => ?_
  show ((k0_pay6 a x2 (ix2 b f) * (Ideal.ofBits .f32 0x3F800000#32 - k0_pay6 a x2 (ix2 b f)))
      * (k0_pay6 a x2 (ix2 b f) * (Ideal.ofBits .f32 0x3F800000#32 - k0_pay6 a x2 (ix2 b f)))) * _ = _
  rw [Cert.Spec.ofBits_one_f32]
  exact congrArg (_ * ·) (norm_entry s b f)

end Cert.KernelIdeal.EncValue

end
-- ==== Proof.LibTiles.lean ====
/-
  SUMS BY TILES, WITH ZERO PADDING. A sum over `K` terms, padded with zeros to `L = N · T` terms and accumulated tile by
  tile (`N` tiles of `T` consecutive terms), is the sum of the `K` terms. Stated over any commutative additive monoid
  (the extended reals among them: no finiteness is used), through the partial sums over the first `n` tiles, which is
  the invariant of an accumulation over the tiles in order.
-/
import Idealize.ShloMosaic.PureOps.Ideal

noncomputable section

open scoped BigOperators

namespace Cert.Spec

variable {M : Type*} [AddCommMonoid M]

/-- A finite family extended to every natural number by zero. -/
def ext0 {L : ℕ} (g : Fin L → M) (k : ℕ) : M := if h : k < L then g ⟨k, h⟩ else 0

theorem ext0_lt {L : ℕ} (g : Fin L → M) {k : ℕ} (h : k < L) : ext0 g k = g ⟨k, h⟩ := dif_pos h
theorem ext0_ge {L : ℕ} (g : Fin L → M) {k : ℕ} (h : L ≤ k) : ext0 g k = 0 := dif_neg (Nat.not_lt.mpr h)

/-- A sum over the family is the sum of its extension over the range. -/
theorem sum_eq_sum_range_ext0 {L : ℕ} (g : Fin L → M) : ∑ k : Fin L, g k = ∑ k ∈ Finset.range L, ext0 g k := by
  rw [Finset.sum_range]
  exact Finset.sum_congr rfl fun k _ => (ext0_lt g k.isLt).symm

/-- Past the family's length the extension adds nothing. -/
theorem sum_range_ext0_of_le {L n : ℕ} (g : Fin L → M) (h : L ≤ n) : ∑ k ∈ Finset.range n, ext0 g k = ∑ k : Fin L, g k := by
  obtain ⟨d, rfl⟩ := Nat.exists_eq_add_of_le h
  rw [Finset.sum_range_add, ← sum_eq_sum_range_ext0, Finset.sum_eq_zero (fun x _ => ext0_ge g (Nat.le_add_right L x)), add_zero]

/-- THE PARTIAL SUM over the first `n` tiles of width `T`. -/
def tiles (T : ℕ) {L : ℕ} (g : Fin L → M) (n : ℕ) : M := ∑ k ∈ Finset.range (n * T), ext0 g k

/-- Before the first tile: nothing. -/
@[simp] theorem tiles_zero (T : ℕ) {L : ℕ} (g : Fin L → M) : tiles T g 0 = 0 := by
  simp [tiles]

/-- One more tile adds that tile's `T` terms (of the extension: no side condition). -/
theorem tiles_succ_ext0 (T : ℕ) {L : ℕ} (g : Fin L → M) (t : ℕ) :
    tiles T g (t + 1) = tiles T g t + ∑ j : Fin T, ext0 g (t * T + j.val) := by
  unfold tiles
  rw [Nat.succ_mul, Finset.sum_range_add, Finset.sum_range (fun x => ext0 g (t * T + x))]

/-- One more tile inside the family adds that tile's `T` terms. -/
theorem tiles_succ (T : ℕ) {L : ℕ} (g : Fin L → M) (t : ℕ) (h : (t + 1) * T ≤ L) :
    tiles T g (t + 1) = tiles T g t + ∑ j : Fin T, g ⟨t * T + j.val, by
      have := j.isLt; rw [Nat.succ_mul] at h; omega⟩ := by
  rw [tiles_succ_ext0]
  refine congrArg (tiles T g t + ·) (Finset.sum_congr rfl fun j _ => ?_)
  exact ext0_lt g _

/-- The same with the tile's terms NAMED: whatever the accumulation adds at tile `t`, if term `j` of it is the
    family's term `t · T + j`. -/
theorem tiles_succ_of_eq (T : ℕ) {L : ℕ} (g : Fin L → M) (t : ℕ) (h : (t + 1) * T ≤ L) (a : Fin T → M)
    (ha : ∀ (j : Fin T) (hj : t * T + j.val < L), a j = g ⟨t * T + j.val, hj⟩) :
    tiles T g t + ∑ j : Fin T, a j = tiles T g (t + 1) := by
  rw [tiles_succ T g t h]
  exact congrArg (tiles T g t + ·) (Finset.sum_congr rfl fun j _ => ha j _)

/-- Once the tiles cover the family, the partial sum is the whole sum. -/
theorem tiles_full (T : ℕ) {L : ℕ} (g : Fin L → M) (n : ℕ) (h : L ≤ n * T) : tiles T g n = ∑ k : Fin L, g k :=
  sum_range_ext0_of_le g h

/-- As a double sum: the first `n` tiles, tile by tile. -/
theorem tiles_eq_sum_sum (T : ℕ) {L : ℕ} (g : Fin L → M) (n : ℕ) :
    tiles T g n = ∑ t : Fin n, ∑ j : Fin T, ext0 g (t.val * T + j.val) := by
  induction n with
  | zero => simp
  | succ n ih => rw [tiles_succ_ext0, ih, Fin.sum_univ_castSucc]; rfl

/-- ZERO PADDING: a family of `L` terms that is `f` on the first `K` and zero after sums to `f`'s sum. -/
theorem sum_pad {K L : ℕ} (hKL : K ≤ L) (f : Fin K → M) (g : Fin L → M)
    (hlo : ∀ (k : Fin L) (h : k.val < K), g k = f ⟨k.val, h⟩) (hhi : ∀ k : Fin L, K ≤ k.val → g k = 0) :
    ∑ k : Fin L, g k = ∑ k : Fin K, f k := by
  rw [sum_eq_sum_range_ext0 g, ← sum_range_ext0_of_le f hKL]
  refine Finset.sum_congr rfl fun k hk => ?_
  have hkL : k < L := Finset.mem_range.mp hk
  rw [ext0_lt g hkL]
  by_cases h : k < K
  · rw [ext0_lt f h]; exact hlo ⟨k, hkL⟩ h
  · rw [ext0_ge f (Nat.not_lt.mp h)]; exact hhi ⟨k, hkL⟩ (Nat.not_lt.mp h)

/-- TILES WITH ZERO PADDING, whole: `N` tiles of width `T` covering a family of `L = N · T` terms that is `f` on the first
    `K` and zero after accumulate `f`'s sum. -/
theorem tiles_pad (T N : ℕ) {K L : ℕ} (hL : L = N * T) (hKL : K ≤ L) (f : Fin K → M) (g : Fin L → M)
    (hlo : ∀ (k : Fin L) (h : k.val < K), g k = f ⟨k.val, h⟩) (hhi : ∀ k : Fin L, K ≤ k.val → g k = 0) :
    tiles T g N = ∑ k : Fin K, f k := by
  rw [tiles_full T g N (le_of_eq hL), sum_pad hKL f g hlo hhi]

/-- The same as the double sum over the tiles and their terms. -/
theorem sum_tiles_pad (T N : ℕ) {K L : ℕ} (hL : L = N * T) (hKL : K ≤ L) (f : Fin K → M) (g : Fin L → M)
    (hlo : ∀ (k : Fin L) (h : k.val < K), g k = f ⟨k.val, h⟩) (hhi : ∀ k : Fin L, K ≤ k.val → g k = 0) :
    ∑ t : Fin N, ∑ j : Fin T, g ⟨t.val * T + j.val, by
      have := t.isLt; have := j.isLt; subst hL
      calc t.val * T + j.val < t.val * T + T := by omega
        _ = (t.val + 1) * T := (Nat.succ_mul _ _).symm
        _ ≤ N * T := Nat.mul_le_mul_right T (by omega)⟩ = ∑ k : Fin K, f k := by
  rw [← tiles_pad T N hL hKL f g hlo hhi, tiles_eq_sum_sum]
  exact Finset.sum_congr rfl fun t _ => Finset.sum_congr rfl fun j _ => (ext0_lt g _).symm

/-! ## At this program's sizes: 28224 terms padded to 28672 = 28 tiles of 1024 -/

/-- The encoder's accumulation: 28 tiles of 1024 over the zero-padded 28672 accumulate the 28224-term sum. -/
theorem tiles_28_1024 (f : Fin 28224 → M) (g : Fin 28672 → M)
    (hlo : ∀ (k : Fin 28672) (h : k.val < 28224), g k = f ⟨k.val, h⟩) (hhi : ∀ k : Fin 28672, 28224 ≤ k.val → g k = 0) :
    tiles 1024 g 28 = ∑ k : Fin 28224, f k :=
  tiles_pad 1024 28 (by norm_num) (by norm_num) f g hlo hhi

/-- One grid point of the accumulation, at these sizes. -/
theorem tiles_succ_1024 (g : Fin 28672 → M) (t : ℕ) (ht : t < 28) :
    tiles 1024 g (t + 1) = tiles 1024 g t + ∑ j : Fin 1024, g ⟨t * 1024 + j.val, by have := j.isLt; omega⟩ :=
  tiles_succ 1024 g t (by omega)

end Cert.Spec

end
-- ==== Proof.KSpec.lean ====
/-
  THE ENCODER CALL'S TWO RESULTS as functions of the three arrays the call is entered with: the input batch and the
  encoder weights, each with its 28224 feature columns extended to 28672, and the encoder bias as a one-row matrix.

    encOut X W B (b, f) = logistic ((∑ k < 28672, X[b, k] · W[f, k]) + B[0, f])
    encRow W f          = ∑ k < 28672, W[f, k] · W[f, k]
    encJac X W B        = ∑ b < 256, ∑ f < 1500, (y (1 − y)) · (y (1 − y)) · encRow W f,   y = encOut X W B (b, f)

  The same formulas as the specification's, over the longer feature axis. No program module is imported.
-/
import proofs.«151767_j39745627357481_1_alg».proof.Proof.Spec

noncomputable section

open scoped BigOperators

namespace Cert.Spec

open Idealize.ShloMosaic Idealize.ShloMosaic.ValueIdx

/-! ## Shapes (literal, reducible) -/

/-- The input batch with its feature axis extended: 256 rows of 28672. -/
abbrev SXp : Shape := ⟨2, ![256, 28672]⟩
/-- The encoder weights with their feature axis extended: 1500 rows of 28672. -/
abbrev SWp : Shape := ⟨2, ![1500, 28672]⟩
/-- The encoder bias as a one-row matrix. -/
abbrev SB2 : Shape := ⟨2, ![1, 1500]⟩
/-- The contractive term as a one-by-one matrix. -/
abbrev S11 : Shape := ⟨2, ![1, 1]⟩

/-! ## The functions -/

/-- The code computed over the extended feature axis: the logistic function of X · Wᵀ plus the bias row. -/
def encOut (X : SXp.Idx → EReal) (W : SWp.Idx → EReal) (B : SB2.Idx → EReal) : Senc.Idx → EReal :=
  fun j => Ideal.logistic ((∑ k : Fin 28672, X (ix2 (n0 := 256) (j 0) k) * W (ix2 (n0 := 1500) (j 1) k))
    + B (ix2 (n0 := 1) (n1 := 1500) (0 : Fin 1) (j 1)))

/-- The squared Euclidean norm of row f of the extended weights. -/
def encRow (W : SWp.Idx → EReal) : Fin 1500 → EReal :=
  fun f => ∑ k : Fin 28672, W (ix2 f k) * W (ix2 f k)

/-- The contractive term computed from those: the square of the logistic function's derivative, y (1 − y), times
    the weight row's squared norm, summed over the code layer and the batch. -/
def encJac (X : SXp.Idx → EReal) (W : SWp.Idx → EReal) (B : SB2.Idx → EReal) : S11.Idx → EReal :=
  fun _ => ∑ b : Fin 256, ∑ f : Fin 1500,
    ((encOut X W B (ix2 b f) * (1 - encOut X W B (ix2 b f))) * (encOut X W B (ix2 b f) * (1 - encOut X W B (ix2 b f))))
      * encRow W f

/-! ## The functions at an index given by its coordinates (all by unfolding) -/

section AtCoords
variable (X : SXp.Idx → EReal) (W : SWp.Idx → EReal) (B : SB2.Idx → EReal)

theorem encOut_ix2 (b : Fin 256) (f : Fin 1500) :
    encOut X W B (ix2 b f) = Ideal.logistic ((∑ k : Fin 28672, X (ix2 b k) * W (ix2 f k)) + B (ix2 (0 : Fin 1) f)) := rfl

theorem encRow_eq (f : Fin 1500) : encRow W f = ∑ k : Fin 28672, W (ix2 f k) * W (ix2 f k) := rfl

theorem encJac_eq (i : S11.Idx) :
    encJac X W B i = ∑ b : Fin 256, ∑ f : Fin 1500,
      ((encOut X W B (ix2 b f) * (1 - encOut X W B (ix2 b f))) * (encOut X W B (ix2 b f) * (1 - encOut X W B (ix2 b f))))
        * encRow W f := rfl

end AtCoords

end Cert.Spec

end
-- ==== Proof.EncValue.lean ====
/-
  THE ENCODER CALL'S TWO OUTPUTS AS FUNCTIONS OF ITS ARRAYS, on the extended reals.

  Along the 28 points of the reduction axis, point t reads columns 1024 t .. 1024 t + 1023 of the padded input X and of
  the padded weights W. After point n the product accumulator's entry (b, f) is the sum of the first n + 1 tiles of the
  terms X[b, k] · W[f, k], and the row-norm accumulator's entry f the sum of the first n + 1 tiles of W[f, k] · W[f, k]:
  an induction over the points whose step is "what the point before left, plus this tile's 1024 terms". After the
  last point the 28 tiles are all 28672 columns, so the code output is the logistic function of X · Wᵀ plus the bias
  row, and the scalar output the sum over the batch and the code coordinates of (y (1 − y))² times the row's squared norm.
  Only commutativity and associativity of addition are used: nothing is assumed finite.
-/
import proofs.«151767_j39745627357481_1_alg».proof.Proof.Enc
import proofs.«151767_j39745627357481_1_alg».proof.Proof.EncPieces
import proofs.«151767_j39745627357481_1_alg».proof.Proof.EncPay
import proofs.«151767_j39745627357481_1_alg».proof.Proof.LibTiles
import proofs.«151767_j39745627357481_1_alg».proof.Proof.KSpec
import Idealize.ShloMosaic.Lib.Pipeline.Value
import Idealize.ShloMosaic.Lib.ValueIdx
import Idealize.ShloMosaic.PureOps.Ideal.Laws

set_option maxRecDepth 16384

noncomputable section

namespace Cert.KernelIdeal.EncValue

open Cert.KernelIdeal Cert.KernelIdeal.Gen Cert.KernelIdeal.Enc
open Idealize.ShloMosaic Idealize.ShloMosaic.TcCoe Idealize.SL.Sem
open Idealize.ShloMosaic.Pipeline (Dat)
open Idealize.ShloMosaic.ValueIdx
open scoped BigOperators

/-! ## The accumulators and the outputs after each point, as the body's arithmetic (any float instance) -/

section Closed
variable {F : FTy → Type} [FloatOps F]
variable (V : (c : Dev nD) → (b : Ref sig .tc) → Buf (Elt F) ((c : Thread nD τ).loc b))

/-- After the first point the product accumulator holds the reset value plus the first tile's product. -/
theorem outs6_zero (c : Dev nD) (hn : 0 < cfg0.N) :
    (outsAt0 V c 0 hn).2.2.1 = k0_pay4 (iblk0 V c 0 ⟨0, hn⟩) (iblk0 V c 1 ⟨0, hn⟩) (k0_pay1 (F := F)) := by
  rw [outsAt0_A V c ⟨0, hn⟩ rfl]
  dsimp only
  exact pieceA6 (F := F) c ⟨0, hn⟩ (iblk0 V c 0 ⟨0, hn⟩) (iblk0 V c 1 ⟨0, hn⟩) (iblk0 V c 2 ⟨0, hn⟩) _ _

/-- After the first point the row-norm accumulator holds the reset value plus the first tile's row sums of squares. -/
theorem outs7_zero (c : Dev nD) (hn : 0 < cfg0.N) :
    (outsAt0 V c 0 hn).2.2.2 = k0_pay5 (iblk0 V c 1 ⟨0, hn⟩) (k0_pay2 (F := F)) := by
  rw [outsAt0_A V c ⟨0, hn⟩ rfl]
  dsimp only
  exact pieceA7 (F := F) c ⟨0, hn⟩ (iblk0 V c 0 ⟨0, hn⟩) (iblk0 V c 1 ⟨0, hn⟩) (iblk0 V c 2 ⟨0, hn⟩) _ _

/-- After a later point the product accumulator holds what the point before left plus this tile's product. -/
theorem outs6_succ (c : Dev nD) (n : ℕ) (hn : n + 1 < cfg0.N) :
    (outsAt0 V c (n + 1) hn).2.2.1
      = k0_pay4 (iblk0 V c 0 ⟨n + 1, hn⟩) (iblk0 V c 1 ⟨n + 1, hn⟩) (outsAt0 V c n (Nat.lt_of_succ_lt hn)).2.2.1 := by
  by_cases h1 : n + 1 = 27
  · rw [outsAt0_C V c ⟨n + 1, hn⟩ (Nat.succ_ne_zero n) h1]
    dsimp only
    exact pieceC6 (F := F) c ⟨n + 1, hn⟩ (iblk0 V c 0 ⟨n + 1, hn⟩) (iblk0 V c 1 ⟨n + 1, hn⟩) (iblk0 V c 2 ⟨n + 1, hn⟩)
      (outsAt0 V c n (Nat.lt_of_succ_lt hn)).2.2.1 (outsAt0 V c n (Nat.lt_of_succ_lt hn)).2.2.2 _ _
  · rw [outsAt0_B V c ⟨n + 1, hn⟩ (Nat.succ_ne_zero n) h1]
    dsimp only
    exact pieceB6 (F := F) c ⟨n + 1, hn⟩ (iblk0 V c 0 ⟨n + 1, hn⟩) (iblk0 V c 1 ⟨n + 1, hn⟩) (iblk0 V c 2 ⟨n + 1, hn⟩)
      (outsAt0 V c n (Nat.lt_of_succ_lt hn)).2.2.1 (outsAt0 V c n (Nat.lt_of_succ_lt hn)).2.2.2 _ _

/-- After a later point the row-norm accumulator holds what the point before left plus this tile's row sums of squares. -/
theorem outs7_succ (c : Dev nD) (n : ℕ) (hn : n + 1 < cfg0.N) :
    (outsAt0 V c (n + 1) hn).2.2.2
      = k0_pay5 (iblk0 V c 1 ⟨n + 1, hn⟩) (outsAt0 V c n (Nat.lt_of_succ_lt hn)).2.2.2 := by
  by_cases h1 : n + 1 = 27
  · rw [outsAt0_C V c ⟨n + 1, hn⟩ (Nat.succ_ne_zero n) h1]
    dsimp only
    exact pieceC7 (F := F) c ⟨n + 1, hn⟩ (iblk0 V c 0 ⟨n + 1, hn⟩) (iblk0 V c 1 ⟨n + 1, hn⟩) (iblk0 V c 2 ⟨n + 1, hn⟩)
      (outsAt0 V c n (Nat.lt_of_succ_lt hn)).2.2.1 (outsAt0 V c n (Nat.lt_of_succ_lt hn)).2.2.2 _ _
  · rw [outsAt0_B V c ⟨n + 1, hn⟩ (Nat.succ_ne_zero n) h1]
    dsimp only
    exact pieceB7 (F := F) c ⟨n + 1, hn⟩ (iblk0 V c 0 ⟨n + 1, hn⟩) (iblk0 V c 1 ⟨n + 1, hn⟩) (iblk0 V c 2 ⟨n + 1, hn⟩)
      (outsAt0 V c n (Nat.lt_of_succ_lt hn)).2.2.1 (outsAt0 V c n (Nat.lt_of_succ_lt hn)).2.2.2 _ _

/-- At the last point the code output is computed from the product accumulator as this point's own store leaves it. -/
theorem outs3_succ (c : Dev nD) (n : ℕ) (hn : n + 1 < cfg0.N) (h1 : n + 1 = 27) :
    (outsAt0 V c (n + 1) hn).1
      = k0_pay6 (k0_pay4 (iblk0 V c 0 ⟨n + 1, hn⟩) (iblk0 V c 1 ⟨n + 1, hn⟩) (outsAt0 V c n (Nat.lt_of_succ_lt hn)).2.2.1)
          (iblk0 V c 2 ⟨n + 1, hn⟩) := by
  rw [outsAt0_C V c ⟨n + 1, hn⟩ (Nat.succ_ne_zero n) h1]
  dsimp only
  exact pieceC3 (F := F) c ⟨n + 1, hn⟩ (iblk0 V c 0 ⟨n + 1, hn⟩) (iblk0 V c 1 ⟨n + 1, hn⟩) (iblk0 V c 2 ⟨n + 1, hn⟩)
    (outsAt0 V c n (Nat.lt_of_succ_lt hn)).2.2.1 (outsAt0 V c n (Nat.lt_of_succ_lt hn)).2.2.2 _ _

/-- At the last point the scalar output is computed from both accumulators as this point's own stores leave them. -/
theorem outs4_succ (c : Dev nD) (n : ℕ) (hn : n + 1 < cfg0.N) (h1 : n + 1 = 27) :
    (outsAt0 V c (n + 1) hn).2.1
      = k0_pay7 (k0_pay4 (iblk0 V c 0 ⟨n + 1, hn⟩) (iblk0 V c 1 ⟨n + 1, hn⟩) (outsAt0 V c n (Nat.lt_of_succ_lt hn)).2.2.1)
          (iblk0 V c 2 ⟨n + 1, hn⟩) (k0_pay5 (iblk0 V c 1 ⟨n + 1, hn⟩) (outsAt0 V c n (Nat.lt_of_succ_lt hn)).2.2.2) := by
  rw [outsAt0_C V c ⟨n + 1, hn⟩ (Nat.succ_ne_zero n) h1]
  dsimp only
  exact pieceC4 (F := F) c ⟨n + 1, hn⟩ (iblk0 V c 0 ⟨n + 1, hn⟩) (iblk0 V c 1 ⟨n + 1, hn⟩) (iblk0 V c 2 ⟨n + 1, hn⟩)
    (outsAt0 V c n (Nat.lt_of_succ_lt hn)).2.2.1 (outsAt0 V c n (Nat.lt_of_succ_lt hn)).2.2.2 _ _

end Closed

/-! ## One accumulation step at an entry, on the extended reals -/

/-- A point whose input tile is columns 1024 n .. of X and whose weight tile is columns 1024 n .. of W adds tile n's
    terms to the product accumulator's partial sum. -/
theorem step6 (X : S256x28672.Idx → EReal) (W : S1500x28672.Idx → EReal)
    (x0 : Vec Ideal S256x1024 .f32) (x1 : Vec Ideal S1500x1024 .f32) (a : Vec Ideal S256x1500 .f32) (n : ℕ) (hn : n < 28)
    (h0 : ∀ (b : Fin 256) (j : Fin 1024) (k : Fin 28672), k.val = n * 1024 + j.val → x0 (ix2 b j) = X (ix2 b k))
    (h1 : ∀ (f : Fin 1500) (j : Fin 1024) (k : Fin 28672), k.val = n * 1024 + j.val → x1 (ix2 f j) = W (ix2 f k))
    (b : Fin 256) (f : Fin 1500)
    (ha : a (ix2 b f) = Cert.Spec.tiles 1024 (fun k : Fin 28672 => X (ix2 b k) * W (ix2 f k)) n) :
    k0_pay4 x0 x1 a (ix2 b f) = Cert.Spec.tiles 1024 (fun k : Fin 28672 => X (ix2 b k) * W (ix2 f k)) (n + 1) := by
  rw [pay4_apply, ha]
  refine Cert.Spec.tiles_succ_of_eq 1024 (fun k : Fin 28672 => X (ix2 b k) * W (ix2 f k)) n (by omega) _ (fun j hj => ?_)
  rw [h0 b j ⟨n * 1024 + j.val, hj⟩ rfl, h1 f j ⟨n * 1024 + j.val, hj⟩ rfl]

/-- The same for the row-norm accumulator. -/
theorem step7 (W : S1500x28672.Idx → EReal) (x1 : Vec Ideal S1500x1024 .f32) (s : Vec Ideal S1500x1 .f32) (n : ℕ) (hn : n < 28)
    (h1 : ∀ (f : Fin 1500) (j : Fin 1024) (k : Fin 28672), k.val = n * 1024 + j.val → x1 (ix2 f j) = W (ix2 f k))
    (f : Fin 1500)
    (hs : s (ix2 f (0 : Fin 1)) = Cert.Spec.tiles 1024 (fun k : Fin 28672 => W (ix2 f k) * W (ix2 f k)) n) :
    k0_pay5 x1 s (ix2 f (0 : Fin 1)) = Cert.Spec.tiles 1024 (fun k : Fin 28672 => W (ix2 f k) * W (ix2 f k)) (n + 1) := by
  rw [pay5_apply, hs]
  refine Cert.Spec.tiles_succ_of_eq 1024 (fun k : Fin 28672 => W (ix2 f k) * W (ix2 f k)) n (by omega) _ (fun j hj => ?_)
  rw [h1 f j ⟨n * 1024 + j.val, hj⟩ rfl]

/-! ## From the tiles to the arrays -/

variable (V : (c : Dev nD) → (b : Ref sig .tc) → Buf (Elt Ideal) ((c : Thread nD τ).loc b))

/-- The three arrays the call is entered with: the padded input, the padded weights, the bias as a one-row matrix. -/
abbrev Xarr (c : Dev nD) : S256x28672.Idx → EReal := V c main_v0
abbrev Warr (c : Dev nD) : S1500x28672.Idx → EReal := V c main_v1
abbrev Barr (c : Dev nD) : S1x1500.Idx → EReal := V c main_v2

/-- Where each window's block sits at grid point t: the input's and the weight's are column block t; the bias row
    and the two outputs are one block each. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The input window's block at point t is columns 1024 t .. 1024 t + 1023 of the padded input. -/
theorem blk0_apply (c : Dev nD) (t : Fin cfg0.N) (b : Fin 256) (j : Fin 1024) (k : Fin 28672) (hk : k.val = t.val * 1024 + j.val) :
    (iblk0 V c 0 t : Vec Ideal S256x1024 .f32) (ix2 b j) = Xarr V c (ix2 b k) := by
  obtain ⟨e00, e01, -⟩ := idx_facts t
  unfold iblk0
  rw [View.read_apply]
  show V c main_v0 _ = V c main_v0 _
  refine congrArg (V c main_v0) (funext fun a => Fin.ext ?_)
  match a with
  | ⟨0, _⟩ => show win0_0.index t (0 : Fin 2) * 256 + 1 * b.val = b.val; rw [e00]; omega
  | ⟨1, _⟩ => show win0_0.index t (1 : Fin 2) * 1024 + 1 * j.val = k.val; rw [e01, hk]; omega

/-- The weight window's block at point t is columns 1024 t .. 1024 t + 1023 of the padded weights. -/
theorem blk1_apply (c : Dev nD) (t : Fin cfg0.N) (f : Fin 1500) (j : Fin 1024) (k : Fin 28672) (hk : k.val = t.val * 1024 + j.val) :
    (iblk0 V c 1 t : Vec Ideal S1500x1024 .f32) (ix2 f j) = Warr V c (ix2 f k) := by
  obtain ⟨-, -, e10, e11, -⟩ := idx_facts t
  unfold iblk0
  rw [View.read_apply]
  show V c main_v1 _ = V c main_v1 _
  refine congrArg (V c main_v1) (funext fun a => Fin.ext ?_)
  match a with
  | ⟨0, _⟩ => show win0_1.index t (0 : Fin 2) * 1500 + 1 * f.val = f.val; rw [e10]; omega
  | ⟨1, _⟩ => show win0_1.index t (1 : Fin 2) * 1024 + 1 * j.val = k.val; rw [e11, hk]; omega

/-- The bias window's block is the whole bias row at every point. -/
theorem blk2_apply (c : Dev nD) (t : Fin cfg0.N) (f : Fin 1500) :
    (iblk0 V c 2 t : Vec Ideal S1x1500 .f32) (ix2 (0 : Fin 1) f) = Barr V c (ix2 (0 : Fin 1) f) := by
  obtain ⟨-, -, -, -, e20, e21, -⟩ := idx_facts t
  unfold iblk0
  rw [View.read_apply]
  show V c main_v2 _ = V c main_v2 _
  refine congrArg (V c main_v2) (funext fun a => Fin.ext ?_)
  match a with
  | ⟨0, _⟩ => show win0_2.index t (0 : Fin 2) * 1 + 1 * 0 = 0; rw [e20]
  | ⟨1, _⟩ => show win0_2.index t (1 : Fin 2) * 1500 + 1 * f.val = f.val; rw [e21]; omega

/-- THE INVARIANT OF THE ACCUMULATION: after point n the product accumulator's entry (b, f) is the sum of the first
    n + 1 tiles of the terms X[b, k] · W[f, k], and the row-norm accumulator's entry f the sum of the first n + 1
    tiles of W[f, k] · W[f, k]. -/
theorem acc_inv (c : Dev nD) (b : Fin 256) (f : Fin 1500) : ∀ (n : ℕ) (hn : n < cfg0.N),
    ((outsAt0 V c n hn).2.2.1 : S256x1500.Idx → EReal) (ix2 b f)
        = Cert.Spec.tiles 1024 (fun k : Fin 28672 => Xarr V c (ix2 b k) * Warr V c (ix2 f k)) (n + 1)
    ∧ ((outsAt0 V c n hn).2.2.2 : S1500x1.Idx → EReal) (ix2 f (0 : Fin 1))
        = Cert.Spec.tiles 1024 (fun k : Fin 28672 => Warr V c (ix2 f k) * Warr V c (ix2 f k)) (n + 1)
  | 0, hn => by
    constructor
    · rw [outs6_zero V c hn]
      exact step6 (Xarr V c) (Warr V c) (iblk0 V c 0 ⟨0, hn⟩) (iblk0 V c 1 ⟨0, hn⟩) (k0_pay1 (F := Ideal)) 0 (by omega)
        (fun b j k hk => blk0_apply V c ⟨0, hn⟩ b j k hk) (fun f j k hk => blk1_apply V c ⟨0, hn⟩ f j k hk) b f
        ((pay1_apply (ix2 b f)).trans (Cert.Spec.tiles_zero 1024 _).symm)
    · rw [outs7_zero V c hn]
      exact step7 (Warr V c) (iblk0 V c 1 ⟨0, hn⟩) (k0_pay2 (F := Ideal)) 0 (by omega)
        (fun f j k hk => blk1_apply V c ⟨0, hn⟩ f j k hk) f
        ((pay2_apply (ix2 f (0 : Fin 1))).trans (Cert.Spec.tiles_zero 1024 _).symm)
  | n + 1, hn => by
    have hN : cfg0.N = 28 := N0
    have ih := acc_inv c b f n (Nat.lt_of_succ_lt hn)
    constructor
    · rw [outs6_succ V c n hn]
      exact step6 (Xarr V c) (Warr V c) (iblk0 V c 0 ⟨n + 1, hn⟩) (iblk0 V c 1 ⟨n + 1, hn⟩) (outsAt0 V c n (Nat.lt_of_succ_lt hn)).2.2.1 (n + 1) (by omega)
        (fun b j k hk => blk0_apply V c ⟨n + 1, hn⟩ b j k hk) (fun f j k hk => blk1_apply V c ⟨n + 1, hn⟩ f j k hk) b f ih.1
    · rw [outs7_succ V c n hn]
      exact step7 (Warr V c) (iblk0 V c 1 ⟨n + 1, hn⟩) (outsAt0 V c n (Nat.lt_of_succ_lt hn)).2.2.2 (n + 1) (by omega)
        (fun f j k hk => blk1_apply V c ⟨n + 1, hn⟩ f j k hk) f ih.2

/-! ## The two outputs at the last point, as functions of the arrays -/

/-- THE CODE OUTPUT: entry (b, f) is the logistic function of row b of the padded input times row f of the padded
    weights, summed over all 28672 columns, plus the bias row's entry f. -/
theorem out3_eq (c : Dev nD) (h : 27 < cfg0.N) :
    ((outsAt0 V c 27 h).1 : S256x1500.Idx → EReal)
      = Cert.Spec.encOut (V c (Pipeline.arrRef spec0 0)) (V c (Pipeline.arrRef spec0 1)) (V c (Pipeline.arrRef spec0 2)) := by
  funext j
  obtain ⟨b, f, rfl⟩ : ∃ (b : Fin 256) (f : Fin 1500), j = ix2 b f := ⟨j 0, j 1, eq_ix2 j⟩
  refine (congrFun (outs3_succ V c 26 h rfl) (ix2 b f)).trans ?_
  rw [pay6_apply, Cert.Spec.encOut_ix2]
  refine congrArg Ideal.logistic (congrArg₂ (· + ·) ?_ (blk2_apply V c ⟨27, h⟩ f))
  refine (step6 (Xarr V c) (Warr V c) (iblk0 V c 0 ⟨27, h⟩) (iblk0 V c 1 ⟨27, h⟩) (outsAt0 V c 26 (Nat.lt_of_succ_lt h)).2.2.1 27 (by omega)
    (fun b j k hk => blk0_apply V c ⟨27, h⟩ b j k hk) (fun f j k hk => blk1_apply V c ⟨27, h⟩ f j k hk) b f
    (acc_inv V c b f 26 (Nat.lt_of_succ_lt h)).1).trans ?_
  exact Cert.Spec.tiles_full 1024 _ 28 (by norm_num)

/-- The finished row-norm accumulator's entry f is the squared norm of row f of the padded weights. -/
theorem rownorm_last (c : Dev nD) (h : 27 < cfg0.N) (f : Fin 1500) :
    k0_pay5 (iblk0 V c 1 ⟨27, h⟩) (outsAt0 V c 26 (Nat.lt_of_succ_lt h)).2.2.2 (ix2 f (0 : Fin 1))
      = Cert.Spec.encRow (V c (Pipeline.arrRef spec0 1)) f := by
  refine (step7 (Warr V c) (iblk0 V c 1 ⟨27, h⟩) (outsAt0 V c 26 (Nat.lt_of_succ_lt h)).2.2.2 27 (by omega)
    (fun f j k hk => blk1_apply V c ⟨27, h⟩ f j k hk) f (acc_inv V c (0 : Fin 256) f 26 (Nat.lt_of_succ_lt h)).2).trans ?_
  exact Cert.Spec.tiles_full 1024 _ 28 (by norm_num)

/-- THE SCALAR OUTPUT: over the batch and the code coordinates, the square of y (1 − y) at the code y times the
    squared norm of the padded weights' row. -/
theorem out4_eq (c : Dev nD) (h : 27 < cfg0.N) :
    ((outsAt0 V c 27 h).2.1 : S1x1.Idx → EReal)
      = Cert.Spec.encJac (V c (Pipeline.arrRef spec0 0)) (V c (Pipeline.arrRef spec0 1)) (V c (Pipeline.arrRef spec0 2)) := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  refine (congrFun (outs4_succ V c 26 h rfl) (ix2 (0 : Fin 1) (0 : Fin 1))).trans ?_
  rw [pay7_apply, Cert.Spec.encJac_eq]
  refine Finset.sum_congr rfl fun b _ => Finset.sum_congr rfl fun f _ => ?_
  have e6 : k0_pay6 (k0_pay4 (iblk0 V c 0 ⟨27, h⟩) (iblk0 V c 1 ⟨27, h⟩) (outsAt0 V c 26 (Nat.lt_of_succ_lt h)).2.2.1) (iblk0 V c 2 ⟨27, h⟩) (ix2 b f)
      = Cert.Spec.encOut (V c (Pipeline.arrRef spec0 0)) (V c (Pipeline.arrRef spec0 1)) (V c (Pipeline.arrRef spec0 2)) (ix2 b f) :=
    (congrFun (outs3_succ V c 26 h rfl) (ix2 b f)).symm.trans (congrFun (out3_eq V c h) (ix2 b f))
  rw [e6, rownorm_last V c h f]

end Cert.KernelIdeal.EncValue

end
-- ==== Proof.EncFlush.lean ====
import proofs.«151767_j39745627357481_1_alg».proof.Proof.Enc
import Idealize.ShloMosaic.Lib.Pipeline.Value

/-! # The encoder call's two output arrays after the call

Each of the encoder's two outputs, the 256 x 1500 code and the one-by-one contractive term, is a single block: its
index map is constantly (0, 0), so the block is the whole array. The pipeline writes that block back at the last of
the 28 grid points only. So after the call each output array holds exactly what the last point left in the
output's staging buffer. -/

noncomputable section

namespace Cert.KernelIdeal.EncFlush

open Cert.KernelIdeal Cert.KernelIdeal.Gen Cert.KernelIdeal.Enc
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The last grid point's number is below the grid's size. -/
theorem h27 : 27 < cfg0.N := by rw [N0]; omega

/-- The last grid point. -/
abbrev tLast : Fin cfg0.N := ⟨27, h27⟩

/-- Both outputs' blocks sit at block index (0, 0) at every point. -/
theorem idx_facts : ∀ t : Fin cfg0.N,
    win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A point that writes an output back is the last one. -/
theorem val_of_flush3 (t : Fin cfg0.N) (hf : (cfg0.win 3).flush t = true) : t.val = 27 := by
  have hN : cfg0.N = 28 := N0
  have h := (flush0_3 t).mp hf
  have := t.isLt
  omega
theorem val_of_flush4 (t : Fin cfg0.N) (hf : (cfg0.win 4).flush t = true) : t.val = 27 := by
  have hN : cfg0.N = 28 := N0
  have h := (flush0_4 t).mp hf
  have := t.isLt
  omega

theorem eq_tLast_of_flush3 (t : Fin cfg0.N) (hf : (cfg0.win 3).flush t = true) : t = tLast := Fin.ext (val_of_flush3 t hf)
theorem eq_tLast_of_flush4 (t : Fin cfg0.N) (hf : (cfg0.win 4).flush t = true) : t = tLast := Fin.ext (val_of_flush4 t hf)

/-- What a point left depends on the point's number only. -/
theorem outs_congr (c : Dev nD) (n n' : ℕ) (h : n < cfg0.N) (h' : n' < cfg0.N) (e : n = n') :
    outsAt0 V c n h = outsAt0 V c n' h' := by
  subst e; rfl

/-! ## The code (output window 3) -/

/-- The one write-back of the code writes what the last point left: entry j of block (0, 0) is entry j of the array. -/
theorem flushed3_eq (c : Dev nD) (t : Fin cfg0.N) (hf : (cfg0.win 3).flush t = true) :
    (dat0 V c).flushed 3 t = ((cfg0.win 3).blk t).view.read (Elt F)
      ((outsAt0 V c 27 h27).1 : Buf (Elt F) ((c : Thread nD τ).loc main_v3_0)) := by
  show (cfg0.win 3).cut (grid0.coords t) ((dat0 V c).after 3 t) = _
  rw [after0_3, outs_congr V c t.val 27 t.isLt h27 (val_of_flush3 t hf)]
  generalize (outsAt0 V c 27 h27).1 = Y
  obtain ⟨e0, e1, -⟩ := idx_facts t
  funext j
  show Y j = Y (((cfg0.win 3).blk t).view.emb j)
  refine congrArg Y (funext fun a => Fin.ext ?_)
  match a with
  | ⟨0, _⟩ => show (j 0).val = win0_3.index t (0 : Fin 2) * 256 + 1 * (j 0).val; rw [e0]; omega
  | ⟨1, _⟩ => show (j 1).val = win0_3.index t (1 : Fin 2) * 1500 + 1 * (j 1).val; rw [e1]; omega

/-- An index of the code array is in point t's block iff each coordinate is in the block's range. -/
theorem mem_blk3 (t : Fin cfg0.N) (i : S256x1500.Idx) :
    i ∈ ((cfg0.win 3).blk t).view.set ↔ ∀ a : Fin 2, win0_3.index t a * S256x1500.size a ≤ (i a).val ∧ (i a).val < win0_3.index t a * S256x1500.size a + S256x1500.size a := by
  show i ∈ ((View.whole main_v3_0).slice (win0_3.rect t)).set ↔ _
  rw [View.set_slice_whole, Rect.mem_set_unit]
  exact Iff.rfl

/-- THE CODE ARRAY after the call is what the last point left in its staging buffer. -/
theorem arrAt3 (c : Dev nD) : (dat0 V c).arrAt 3 cfg0.N = (outsAt0 V c 27 h27).1 :=
  (dat0 V c).arrAt_eq_of_cover 3 ((outsAt0 V c 27 h27).1 : Buf (Elt F) ((c : Thread nD τ).loc main_v3_0)) (flushed3_eq V c) fun i => by
    obtain ⟨e0, e1, -⟩ := idx_facts tLast
    refine ⟨tLast, (flush0_3 tLast).mpr rfl, ?_⟩
    rw [mem_blk3]
    intro a
    have h0 : (i 0).val < 256 := (i 0).isLt
    have h1 : (i 1).val < 1500 := (i 1).isLt
    match a with
    | ⟨0, _⟩ => show win0_3.index tLast (0 : Fin 2) * 256 ≤ (i 0).val ∧ (i 0).val < win0_3.index tLast (0 : Fin 2) * 256 + 256; rw [e0]; omega
    | ⟨1, _⟩ => show win0_3.index tLast (1 : Fin 2) * 1500 ≤ (i 1).val ∧ (i 1).val < win0_3.index tLast (1 : Fin 2) * 1500 + 1500; rw [e1]; omega

/-! ## The contractive term (output window 4) -/

/-- The one write-back of the contractive term writes what the last point left. -/
theorem flushed4_eq (c : Dev nD) (t : Fin cfg0.N) (hf : (cfg0.win 4).flush t = true) :
    (dat0 V c).flushed 4 t = ((cfg0.win 4).blk t).view.read (Elt F)
      ((outsAt0 V c 27 h27).2.1 : Buf (Elt F) ((c : Thread nD τ).loc main_v3_1)) := by
  show (cfg0.win 4).cut (grid0.coords t) ((dat0 V c).after 4 t) = _
  rw [after0_4, outs_congr V c t.val 27 t.isLt h27 (val_of_flush4 t hf)]
  generalize (outsAt0 V c 27 h27).2.1 = Y
  obtain ⟨-, -, e0, e1⟩ := idx_facts t
  funext j
  show Y j = Y (((cfg0.win 4).blk t).view.emb j)
  refine congrArg Y (funext fun a => Fin.ext ?_)
  match a with
  | ⟨0, _⟩ => show (j 0).val = win0_4.index t (0 : Fin 2) * 1 + 1 * (j 0).val; rw [e0]; omega
  | ⟨1, _⟩ => show (j 1).val = win0_4.index t (1 : Fin 2) * 1 + 1 * (j 1).val; rw [e1]; omega

/-- An index of the one-by-one array is in point t's block iff each coordinate is in the block's range. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v3_1).slice (win0_4.rect t)).set ↔ _
  rw [View.set_slice_whole, Rect.mem_set_unit]
  exact Iff.rfl

/-- THE CONTRACTIVE TERM'S ARRAY after the call is what the last point left in its staging buffer. -/
theorem arrAt4 (c : Dev nD) : (dat0 V c).arrAt 4 cfg0.N = (outsAt0 V c 27 h27).2.1 :=
  (dat0 V c).arrAt_eq_of_cover 4 ((outsAt0 V c 27 h27).2.1 : Buf (Elt F) ((c : Thread nD τ).loc main_v3_1)) (flushed4_eq V c) fun i => by
    obtain ⟨-, -, e0, e1⟩ := idx_facts tLast
    refine ⟨tLast, (flush0_4 tLast).mpr rfl, ?_⟩
    rw [mem_blk4]
    intro a
    have h0 : (i 0).val < 1 := (i 0).isLt
    have h1 : (i 1).val < 1 := (i 1).isLt
    match a with
    | ⟨0, _⟩ => show win0_4.index tLast (0 : Fin 2) * 1 ≤ (i 0).val ∧ (i 0).val < win0_4.index tLast (0 : Fin 2) * 1 + 1; rw [e0]; omega
    | ⟨1, _⟩ => show win0_4.index tLast (1 : Fin 2) * 1 ≤ (i 1).val ∧ (i 1).val < win0_4.index tLast (1 : Fin 2) * 1 + 1; rw [e1]; omega

end Cert.KernelIdeal.EncFlush

end
-- ==== Proof.Bridge.lean ====
import proofs.«151767_j39745627357481_1_alg».proof.Proof.KSpec
import proofs.«151767_j39745627357481_1_alg».proof.Proof.LibTiles
import proofs.«151767_j39745627357481_1_alg».proof.Proof.DecValue
import Idealize.ShloMosaic.Lib.KernelVsHost
import Idealize.ShloMosaic.Lib.ValueLayout

/-! # The host operations around the two calls, and what they do to the specification

Before the encoder call the host extends the 28224 feature columns of the input batch and of the encoder weights to
28672 with zeros, and writes the encoder bias as a one-row matrix; before the decoder call it extends the 28224 rows of
the decoder weights and the 28224 entries of the decoder bias to 28672 with zeros and writes the bias as a one-row
matrix; afterwards it keeps the first 28224 columns of the decoder's output and writes the one-by-one contractive term
as a scalar.

A sum over the extended axis is the sum over the original one, since every added term is a product with a zero factor
(no finiteness is needed: zero times anything is zero on the extended reals). An output column below 28224 reads only
the weight row and the bias entry of the same number, which the extension leaves alone. So the calls' results on the
extended arrays, cut back, are the specification's functions of the five arguments. -/

noncomputable section

open scoped BigOperators

namespace Cert.KernelIdeal.Bridge

open Cert.KernelIdeal Cert.KernelIdeal.Gen
open Idealize.ShloMosaic Idealize.ShloMosaic.ValueIdx
open Cert.Spec (Sx SWe Sbe SWd Sbd Senc yEnc jac yOut encOut encRow encJac)

/-! ## The host operations, spelled as the program applies them -/

/-- The padding value: the integer zero converted to a float. -/
abbrev zpad : FVec Ideal S_ .f32 := sitofp .f32 (constantI S_ 32 0#32)

/-- It is the extended real 0. -/
theorem zpad_apply (i : S_.Idx) : zpad i = 0 := by
  show ((((0#32 : BitVec 32).toInt : ℤ) : ℝ) : EReal) = 0
  simp

/-- The input batch with its columns extended. -/
def Xp (x : Sx.Idx → EReal) : S256x28672.Idx → EReal :=
  pad S256x28672 ![0, 0] ![0, 448] ![0, 0] x zpad pads_S256x28224_S256x28672_000_04480 h_S_
/-- The encoder weights with their columns extended. -/
def Wp (We : SWe.Idx → EReal) : S1500x28672.Idx → EReal :=
  pad S1500x28672 ![0, 0] ![0, 448] ![0, 0] We zpad pads_S1500x28224_S1500x28672_000_04480 h_S_
/-- The decoder weights with their rows extended. -/
def Wdp (Wd : SWd.Idx → EReal) : S28672x1500.Idx → EReal :=
  pad S28672x1500 ![0, 0] ![448, 0] ![0, 0] Wd zpad pads_S28224x1500_S28672x1500_04480_000 h_S_
/-- The decoder bias extended. -/
def bdp (bd : Sbd.Idx → EReal) : S28672.Idx → EReal :=
  pad S28672 ![0] ![448] ![0] bd zpad pads_S28224_S28672_04480 h_S_
/-- The encoder bias as a one-row matrix. -/
def B2 (be : Sbe.Idx → EReal) : S1x1500.Idx → EReal :=
  shapeCast S1x1500 be shapeCasts_S1500_S1x1500
/-- The extended decoder bias as a one-row matrix. -/
def bd2 (bd : Sbd.Idx → EReal) : S1x28672.Idx → EReal :=
  shapeCast S1x28672 (bdp bd) shapeCasts_S28672_S1x28672

theorem Xp_def (x : Sx.Idx → EReal) :
    Xp x = pad S256x28672 ![0, 0] ![0, 448] ![0, 0] x zpad pads_S256x28224_S256x28672_000_04480 h_S_ := rfl
theorem Wp_def (We : SWe.Idx → EReal) :
    Wp We = pad S1500x28672 ![0, 0] ![0, 448] ![0, 0] We zpad pads_S1500x28224_S1500x28672_000_04480 h_S_ := rfl
theorem Wdp_def (Wd : SWd.Idx → EReal) :
    Wdp Wd = pad S28672x1500 ![0, 0] ![448, 0] ![0, 0] Wd zpad pads_S28224x1500_S28672x1500_04480_000 h_S_ := rfl
theorem bdp_def (bd : Sbd.Idx → EReal) :
    bdp bd = pad S28672 ![0] ![448] ![0] bd zpad pads_S28224_S28672_04480 h_S_ := rfl
theorem B2_def (be : Sbe.Idx → EReal) : B2 be = shapeCast S1x1500 be shapeCasts_S1500_S1x1500 := rfl
theorem bd2_def (bd : Sbd.Idx → EReal) : bd2 bd = shapeCast S1x28672 (bdp bd) shapeCasts_S28672_S1x28672 := rfl

/-! ## Each read at an index -/

/-- The extended batch at (b, k): the batch's entry for k below 28224, zero from there on. -/
theorem Xp_apply (x : Sx.Idx → EReal) (b : Fin 256) (k : Fin 28672) :
    Xp x (ix2 b k) = if h : k.val < 28224 then x (ix2 b ⟨k.val, h⟩) else 0 := by
  unfold Xp
  split
  · rename_i h
    refine pad_apply_of_inside _ _ _ x zpad _ h_S_ (ix2 b k) (ix2 b ⟨k.val, h⟩) fun a => ?_
    match a with
    | ⟨0, _⟩ => show b.val = 0 + b.val * (0 + 1); omega
    | ⟨1, _⟩ => show k.val = 0 + k.val * (0 + 1); omega
  · rename_i h
    refine (pad_apply_of_not_inside _ _ _ x zpad _ h_S_ (ix2 b k) (1 : Fin 2) fun hc => ?_).trans (zpad_apply _)
    have h3 : (k.val - 0) / (0 + 1) < 28224 := hc.2.2
    rw [Nat.sub_zero, Nat.div_one] at h3
    exact h h3

/-- The extended encoder weights at (f, k). -/
theorem Wp_apply (We : SWe.Idx → EReal) (f : Fin 1500) (k : Fin 28672) :
    Wp We (ix2 f k) = if h : k.val < 28224 then We (ix2 f ⟨k.val, h⟩) else 0 := by
  unfold Wp
  split
  · rename_i h
    refine pad_apply_of_inside _ _ _ We zpad _ h_S_ (ix2 f k) (ix2 f ⟨k.val, h⟩) fun a => ?_
    match a with
    | ⟨0, _⟩ => show f.val = 0 + f.val * (0 + 1); omega
    | ⟨1, _⟩ => show k.val = 0 + k.val * (0 + 1); omega
  · rename_i h
    refine (pad_apply_of_not_inside _ _ _ We zpad _ h_S_ (ix2 f k) (1 : Fin 2) fun hc => ?_).trans (zpad_apply _)
    have h3 : (k.val - 0) / (0 + 1) < 28224 := hc.2.2
    rw [Nat.sub_zero, Nat.div_one] at h3
    exact h h3

/-- The extended decoder weights at (i, f): the weights' row i for i below 28224, zero from there on. -/
theorem Wdp_apply (Wd : SWd.Idx → EReal) (i : Fin 28672) (f : Fin 1500) :
    Wdp Wd (ix2 i f) = if h : i.val < 28224 then Wd (ix2 ⟨i.val, h⟩ f) else 0 := by
  unfold Wdp
  split
  · rename_i h
    refine pad_apply_of_inside _ _ _ Wd zpad _ h_S_ (ix2 i f) (ix2 ⟨i.val, h⟩ f) fun a => ?_
    match a with
    | ⟨0, _⟩ => show i.val = 0 + i.val * (0 + 1); omega
    | ⟨1, _⟩ => show f.val = 0 + f.val * (0 + 1); omega
  · rename_i h
    refine (pad_apply_of_not_inside _ _ _ Wd zpad _ h_S_ (ix2 i f) (0 : Fin 2) fun hc => ?_).trans (zpad_apply _)
    have h3 : (i.val - 0) / (0 + 1) < 28224 := hc.2.2
    rw [Nat.sub_zero, Nat.div_one] at h3
    exact h h3

/-- The extended decoder bias at i. -/
theorem bdp_apply (bd : Sbd.Idx → EReal) (i : Fin 28672) :
    bdp bd (ix1 i) = if h : i.val < 28224 then bd (ix1 ⟨i.val, h⟩) else 0 := by
  unfold bdp
  split
  · rename_i h
    refine pad_apply_of_inside _ _ _ bd zpad _ h_S_ (ix1 i) (ix1 ⟨i.val, h⟩) fun a => ?_
    match a with
    | ⟨0, _⟩ => show i.val = 0 + i.val * (0 + 1); omega
  · rename_i h
    refine (pad_apply_of_not_inside _ _ _ bd zpad _ h_S_ (ix1 i) (0 : Fin 1) fun hc => ?_).trans (zpad_apply _)
    have h3 : (i.val - 0) / (0 + 1) < 28224 := hc.2.2
    rw [Nat.sub_zero, Nat.div_one] at h3
    exact h h3

/-- The one-row encoder bias at (0, f) is the bias's entry f. -/
theorem B2_apply (be : Sbe.Idx → EReal) (f : Fin 1500) : B2 be (ix2 (0 : Fin 1) f) = be (ix1 f) :=
  shapeCast_a_1a_apply be shapeCasts_S1500_S1x1500 0 f

/-- The one-row extended decoder bias at (0, i) is the extended bias's entry i. -/
theorem bd2_apply (bd : Sbd.Idx → EReal) (i : Fin 28672) : bd2 bd (ix2 (0 : Fin 1) i) = bdp bd (ix1 i) :=
  shapeCast_a_1a_apply (bdp bd) shapeCasts_S28672_S1x28672 0 i

/-! ## The encoder call's results on the extended arrays are the specification's -/

/-- The feature sum over the extended axis is the sum over the original one: past column 28224 every term has a zero
    factor. -/
theorem enc_sum (x : Sx.Idx → EReal) (We : SWe.Idx → EReal) (b : Fin 256) (f : Fin 1500) :
    ∑ k : Fin 28672, Xp x (ix2 b k) * Wp We (ix2 f k) = ∑ k : Fin 28224, x (ix2 b k) * We (ix2 f k) :=
  Cert.Spec.sum_pad (by norm_num) (fun k : Fin 28224 => x (ix2 b k) * We (ix2 f k))
    (fun k : Fin 28672 => Xp x (ix2 b k) * Wp We (ix2 f k))
    (fun k h => by rw [Xp_apply, Wp_apply, dif_pos h, dif_pos h])
    (fun k h => by rw [Xp_apply, dif_neg (by omega), zero_mul])

/-- The code computed on the extended arrays is the specification's code. -/
theorem enc_bridge (x : Sx.Idx → EReal) (We : SWe.Idx → EReal) (be : Sbe.Idx → EReal) :
    encOut (Xp x) (Wp We) (B2 be) = yEnc x We be := by
  funext j
  obtain ⟨b, f, rfl⟩ : ∃ (b : Fin 256) (f : Fin 1500), j = ix2 b f := ⟨j 0, j 1, eq_ix2 j⟩
  rw [Cert.Spec.encOut_ix2, Cert.Spec.yEnc_ix2, enc_sum, B2_apply]

/-- A row's squared norm over the extended axis is its squared norm. -/
theorem row_bridge (We : SWe.Idx → EReal) (f : Fin 1500) : encRow (Wp We) f = Cert.Spec.rowNorm2 We (ix1 f) := by
  rw [Cert.Spec.encRow_eq, Cert.Spec.rowNorm2_ix1]
  exact Cert.Spec.sum_pad (by norm_num) (fun k : Fin 28224 => We (ix2 f k) * We (ix2 f k))
    (fun k : Fin 28672 => Wp We (ix2 f k) * Wp We (ix2 f k))
    (fun k h => by rw [Wp_apply, dif_pos h]) (fun k h => by rw [Wp_apply, dif_neg (by omega), zero_mul])

/-- The contractive term computed on the extended arrays, written as a scalar, is the specification's. -/
theorem jac_bridge (x : Sx.Idx → EReal) (We : SWe.Idx → EReal) (be : Sbe.Idx → EReal) :
    shapeCast S_ (encJac (Xp x) (Wp We) (B2 be)) shapeCasts_S1x1_S_ = fun _ => jac x We be := by
  funext i
  unfold shapeCast
  rw [Cert.Spec.encJac_eq, enc_bridge, Cert.Spec.jac_eq]
  refine Finset.sum_congr rfl fun b _ => Finset.sum_congr rfl fun f _ => ?_
  rw [row_bridge, Cert.Spec.s2_eq]

/-! ## The decoder call's result on the extended arrays, cut back, is the specification's -/

/-- The first 28224 columns of the decoder's function of the code, the extended weights and the extended one-row bias
    are the specification's reconstruction: column j below 28224 reads weight row j and bias entry j, which the
    extension leaves as they were. -/
theorem out_bridge (x : Sx.Idx → EReal) (We : SWe.Idx → EReal) (be : Sbe.Idx → EReal) (Wd : SWd.Idx → EReal) (bd : Sbd.Idx → EReal) :
    extractStridedSlice S256x28224 ![0, 0] (Cert.KernelIdeal.Dec.G (yEnc x We be) (Wdp Wd) (bd2 bd)) slices_S256x28672_S256x28224_0_0
      = yOut x We be Wd bd := by
  funext i
  obtain ⟨b, j, rfl⟩ : ∃ (b : Fin 256) (j : Fin 28224), i = ix2 b j := ⟨i 0, i 1, eq_ix2 i⟩
  have hj : j.val < 28672 := by have := j.isLt; omega
  refine (extractStridedSlice_apply _ _ slices_S256x28672_S256x28224_0_0 (ix2 b j) (ix2 b (⟨j.val, hj⟩ : Fin 28672)) fun a => ?_).trans ?_
  · match a with
    | ⟨0, _⟩ => show b.val = 0 + b.val; omega
    | ⟨1, _⟩ => show j.val = 0 + j.val; omega
  · rw [Cert.Spec.yOut_ix2]
    unfold Cert.KernelIdeal.Dec.G
    show Ideal.logistic ((∑ f : Fin 1500, yEnc x We be (ix2 b f) * Wdp Wd (ix2 (⟨j.val, hj⟩ : Fin 28672) f))
      + bd2 bd (ix2 (0 : Fin 1) (⟨j.val, hj⟩ : Fin 28672))) = _
    rw [bd2_apply, bdp_apply, dif_pos j.isLt]
    refine congrArg (fun s : EReal => Ideal.logistic (s + bd (ix1 j))) (Finset.sum_congr rfl fun f _ => ?_)
    rw [Wdp_apply, dif_pos j.isLt]

end Cert.KernelIdeal.Bridge

end
-- ==== Proof.KernelIsSpec.lean ====
import proofs.«151767_j39745627357481_1_alg».proof.Proof.RunValues
import proofs.«151767_j39745627357481_1_alg».proof.Proof.DecValue
import proofs.«151767_j39745627357481_1_alg».proof.Proof.EncValue
import proofs.«151767_j39745627357481_1_alg».proof.Proof.EncFlush
import proofs.«151767_j39745627357481_1_alg».proof.Proof.Bridge

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The encoder region's first output array is the specification's encoder activations of the launch arguments: the
    region enters with the zero-padded x and W_enc and the reshaped bias, and the padded terms of every row sum are
    products of zeros. -/
theorem enc_out :
    (Enc.dat0 (F := Ideal) (Vin0 m ρ) c).arrAt 3 cfg0.N
      = Cert.Spec.yEnc (m ((c : Thread nD τ).loc main_arg0)) (m ((c : Thread nD τ).loc main_arg1)) (m ((c : Thread nD τ).loc main_arg2)) := by
  rw [EncFlush.arrAt3, EncValue.out3_eq]
  show Cert.Spec.encOut (Vin0 m ρ c main_v0) (Vin0 m ρ c main_v1) (Vin0 m ρ c main_v2) = _
  rw [Vin0_main_v0, Vin0_main_v1, Vin0_main_v2]
  exact Bridge.enc_bridge _ _ _

/-- Its second output, reshaped to a scalar, is the specification's contractive term. -/
theorem enc_jac :
    shapeCast S_ ((Enc.dat0 (F := Ideal) (Vin0 m ρ) c).arrAt 4 cfg0.N) shapeCasts_S1x1_S_
      = fun _ => Cert.Spec.jac (m ((c : Thread nD τ).loc main_arg0)) (m ((c : Thread nD τ).loc main_arg1)) (m ((c : Thread nD τ).loc main_arg2)) := by
  rw [EncFlush.arrAt4, EncValue.out4_eq]
  show shapeCast S_ (Cert.Spec.encJac (Vin0 m ρ c main_v0) (Vin0 m ρ c main_v1) (Vin0 m ρ c main_v2)) shapeCasts_S1x1_S_ = _
  rw [Vin0_main_v0, Vin0_main_v1, Vin0_main_v2]
  exact Bridge.jac_bridge _ _ _

/-- The decoder region's output, with the padded columns sliced off, is the specification's reconstruction. -/
theorem dec_out :
    extractStridedSlice S256x28224 ![0, 0] ((Dec.dat1 (F := Ideal) (Vin1 m ρ) c).arrAt 3 cfg1.N) slices_S256x28672_S256x28224_0_0
      = Cert.Spec.yOut (m ((c : Thread nD τ).loc main_arg0)) (m ((c : Thread nD τ).loc main_arg1)) (m ((c : Thread nD τ).loc main_arg2))
          (m ((c : Thread nD τ).loc main_arg3)) (m ((c : Thread nD τ).loc main_arg4)) := by
  rw [Dec.final3 (Vin1 m ρ) c, Vin1_main_v3_0, Vin1_main_v4, Vin1_main_v6, enc_out]
  exact Bridge.out_bridge _ _ _ _ _

end Cert.KernelIdeal.Run

end
-- ==== Proof.lean ====
/-
  A two-layer sigmoid autoencoder with a contractive penalty, as two tiled kernels, against its plain reference.

  The encoder kernel walks the 28 tiles of the (zero-padded) input axis: two accumulators collect the partial products
  x·W_encᵀ and the rows' sums of squares of W_enc; at the last tile it adds the bias, applies the logistic function and
  reduces (y(1-y))² · ‖W_enc row‖² over features and then over the batch. The decoder kernel computes one tile of
  logistic(y·W_decᵀ + b_dec) per grid point; the padded columns are sliced off afterwards.

  At the ideal instance both programs compute the same extended reals: the padded terms are products of zeros, the
  tile-by-tile sums are the whole sums regrouped (addition on the extended reals is commutative and associative), the
  kernel's logistic operation is by definition 1 / (1 + e⁻ˣ), the expression the reference spells out, and the
  reference's single reduction over batch and features is the kernel's iterated one.

  Frames: each kernel region is run point by point against proof data that names what the accumulators hold after
  every point; the host operations around the regions are folded over the launch memory; no argument is written.
-/
import proofs.«151767_j39745627357481_1_alg».proof.Defs
import proofs.«151767_j39745627357481_1_alg».proof.Proof.Gen.Kernel
import proofs.«151767_j39745627357481_1_alg».proof.Proof.Gen.KernelIdeal
import proofs.«151767_j39745627357481_1_alg».proof.Proof.Gen.ReferenceIdeal
import proofs.«151767_j39745627357481_1_alg».proof.Proof.Gen.ReferenceIdeal.Run
import proofs.«151767_j39745627357481_1_alg».proof.Proof.Gen.ReferenceIdeal.Read
import proofs.«151767_j39745627357481_1_alg».proof.Proof.Gen.Pre_finite_inputs
import proofs.«151767_j39745627357481_1_alg».proof.Proof.RunBits
import proofs.«151767_j39745627357481_1_alg».proof.Proof.RunResults
import proofs.«151767_j39745627357481_1_alg».proof.Proof.RefIsSpec
import proofs.«151767_j39745627357481_1_alg».proof.Proof.KernelIsSpec
import Idealize.ShloMosaic.Adequacy
import Idealize.ShloMosaic.Init

noncomputable section

namespace Cert.Proof

open Idealize.ShloMosaic Idealize.SL.Sem

/-- The word-level kernel program terminates without a fault and leaves its arguments as launched. -/
theorem frame_k [Cert.Kernel.Facts] [Cert.Pre_finite_inputs.Facts] : Cert.frame_Kernel :=
  fun m ρ _ => Cert.Kernel.Run.frame (F := Bits) m ρ

/-- So does its idealization. -/
theorem frame_ki [Cert.KernelIdeal.Facts] [Cert.Pre_finite_inputs.Facts] : Cert.frame_KernelIdeal :=
  fun m ρ _ => Cert.KernelIdeal.Run.frame (F := Ideal) m ρ

/-- The reference is a straight line of host operations: its run with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.Spec.yOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => fun _ => Cert.Spec.jac (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · -- the kernel program: its two results read off the run, then taken to the specification
    refine (θ_run Cert.KernelIdeal.defs _ _).mono (fun _ h c => ?_) (Cert.KernelIdeal.Run.results (F := Ideal) m ρ)
    exact ⟨(h c).1.trans (Cert.KernelIdeal.Run.dec_out m ρ c), (h c).2.1.trans (Cert.KernelIdeal.Run.enc_jac m ρ c), (h c).2.2⟩
  · -- the reference: its run ends at the specification of its own arguments, which agree with the kernel's
    refine (θ_run Cert.ReferenceIdeal.defs _ _).mono (fun _ h c => ?_) (Cert.ReferenceIdeal.RefValue.run m' ρ')
    refine ⟨(h c).1.trans ?_, (h c).2.1.trans ?_, (h c).2.2⟩
    · rw [(hagree c).1, (hagree c).2.1, (hagree c).2.2.1, (hagree c).2.2.2.1, (hagree c).2.2.2.2]
    · rw [(hagree c).1, (hagree c).2.1, (hagree c).2.2.1]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
